-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x10 : Shape := ⟨2, ![100000, 10]⟩
abbrev S2x1600000 : Shape := ⟨2, ![2, 1600000]⟩
abbrev S10x64 : Shape := ⟨2, ![10, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S_ : Shape := ⟨0, ![]⟩

class Facts : Prop where
  bcast_S_S100000x10 : S_.BroadcastsInDim S100000x10 (![] : Fin 0 → Fin S100000x10.rank)
  reducesTo_S100000x10_S_d0_1 : S100000x10.ReducesTo [0, 1] S_
  h_S_ : 0 < S_.numel
  bcast_S_S10x64 : S_.BroadcastsInDim S10x64 (![] : Fin 0 → Fin S10x64.rank)
  reducesTo_S10x64_S_d0_1 : S10x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S64 .f32) (main_arg6 : FVec F S64x4 .f32) (main_arg7 : FVec F S4 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x4 .f32 := Host.absf main_arg6
  let main_cst_8 : FVec F S_ .f32 := constant S_ .f32 0x7F800000#32
  let main_v25 : FVec F S64x4 .f32 := broadcastInDim S64x4 ![] bcast_S_S64x4 main_cst_8
  let main_v26 : IVec S64x4 1 := cmpf .olt main_v24 main_v25
  let main_c_9 : IVec S_ 1 := constantI S_ 1 1#1
  let main_v27 : IVec S_ 1 := (fun x v => Host.reduce IntOp.andi x v reducesTo_S64x4_S_d0_1 h_S_) main_v26 main_c_9
  let main_v28 : IVec S_ 1 := andi main_v23 main_v27
  let main_v29 : FVec F S4 .f32 := Host.absf main_arg7
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S100000x10 .f32) (main_arg1 : IVec S2x1600000 32) (main_arg2 : FVec F S10x64 .f32) (main_arg3 : FVec F S64 .f32) (main_arg4 : FVec F S64x64 .f32) (main_arg5 : FVec F S64 .f32) (main_arg6 : FVec F S64x4 .f32) (main_arg7 : FVec F S4 .f32) : IVec S_ 1 :=
  let main_v0 : FVec F S100000x10 .f32 := Host.absf main_arg0
  let main_cst : FVec F S_ .f32 := constant S_ .f32 0x7F800000#32
  let main_v1 : FVec F S100000x10 .f32 := broadcastInDim S100000x10 ![] bcast_S_S100000x10 main_cst
  let main_v2 : IVec S100000x10 1 := cmpf .olt main_v0 main_v1
  let main_c : IVec S_ 1 := constantI S_ 1 1#1
  let main_v3 : IVec S_ 1 := (fun x v => Host.reduce IntOp.andi x v reducesTo_S100000x10_S_d0_1 h_S_) main_v2 main_c
  let main_v4 : FVec F S10x64 .f32 := Host.absf main_arg2
  let main_cst_0 : FVec F S_ .f32 := constant S_ .f32 0x7F800000#32
  let main_v5 : FVec F S10x64 .f32 := broadcastInDim S10x64 ![] bcast_S_S10x64 main_cst_0
  let main_v6 : IVec S10x64 1 := cmpf .olt main_v4 main_v5
  let main_c_1 : IVec S_ 1 := constantI S_ 1 1#1
  let main_v7 : IVec S_ 1 := (fun x v => Host.reduce IntOp.andi x v reducesTo_S10x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x10 : Shape := ⟨2, ![100000, 10]⟩
abbrev S2x1600000 : Shape := ⟨2, ![2, 1600000]⟩
abbrev S10x64 : Shape := ⟨2, ![10, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x10 : Shape := ⟨2, ![1600000, 10]⟩
abbrev S1x64 : Shape := ⟨2, ![1, 64]⟩
abbrev S100000x64 : Shape := ⟨2, ![100000, 64]⟩
abbrev S5000x10 : Shape := ⟨2, ![5000, 10]⟩
abbrev S5000x1 : Shape := ⟨2, ![5000, 1]⟩
abbrev S5000x64 : Shape := ⟨2, ![5000, 64]⟩
abbrev S1600000x64 : Shape := ⟨2, ![1600000, 64]⟩
abbrev S100000x4 : Shape := ⟨2, ![100000, 4]⟩
abbrev S5000x4 : Shape := ⟨2, ![5000, 4]⟩
abbrev S1600000x4 : Shape := ⟨2, ![1600000, 4]⟩
abbrev S1x4 : Shape := ⟨2, ![1, 4]⟩
abbrev S5000 : Shape := ⟨1, ![5000]⟩

abbrev nBuf : Space → Nat
  | .hbm => 95
  | .vmem => 30
  | .smem => 0
  | _ => 0

abbrev bufTy : (tb : Table) → Fin (tcTables nBuf tb) → BufTy
  | .hbm, ⟨0, _⟩ => ⟨S100000x10, .f32⟩
  | .hbm, ⟨1, _⟩ => ⟨S2x1600000, .i32⟩
  | .hbm, ⟨2, _⟩ => ⟨S10x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x4, .f32⟩
  | .hbm, ⟨7, _⟩ => ⟨S4, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S1600000x1, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x10, .f32⟩
  | .hbm, ⟨53, _⟩ => ⟨S1600000x10, .f32⟩
  | .hbm, ⟨54, _⟩ => ⟨S1600000x10, .f32⟩
  | .hbm, ⟨55, _⟩ => ⟨S_, .f32⟩
  | .hbm, ⟨56, _⟩ => ⟨S100000x10, .f32⟩
  | .hbm, ⟨57, _⟩ => ⟨S1600000x1, .i32⟩
  | .hbm, ⟨58, _⟩ => ⟨S100000x10, .f32⟩
  | .hbm, ⟨59, _⟩ => ⟨S1x64, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .f32⟩
  | .hbm, ⟨70, _⟩ => ⟨S1600000x64, .f32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S1x64, .f32⟩
  | .hbm, ⟨77, _⟩ => ⟨S100000x4, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x4, .f32⟩
  | .hbm, ⟨87, _⟩ => ⟨S1600000x4, .f32⟩
  | .hbm, ⟨88, _⟩ => ⟨S1600000x4, .f32⟩
  | .hbm, ⟨89, _⟩ => ⟨S_, .f32⟩
  | .hbm, ⟨90, _⟩ => ⟨S100000x4, .f32⟩
  | .hbm, ⟨91, _⟩ => ⟨S1600000x1, .i32⟩
  | .hbm, ⟨92, _⟩ => ⟨S100000x4, .f32⟩
  | .hbm, ⟨93, _⟩ => ⟨S1x4, .f32⟩
  | .hbm, ⟨94, _⟩ => ⟨S100000x4, .f32⟩
  | .local _ .vmem, ⟨0, _⟩ => ⟨S5000x10, .f32⟩
  | .local _ .vmem, ⟨1, _⟩ => ⟨S5000x10, .f32⟩
  | .local _ .vmem, ⟨2, _⟩ => ⟨S5000x10, .f32⟩
  | .local _ .vmem, ⟨3, _⟩ => ⟨S5000x10, .f32⟩
  | .local _ .vmem, ⟨4, _⟩ => ⟨S5000x1, .f32⟩
  | .local _ .vmem, ⟨5, _⟩ => ⟨S5000x1, .f32⟩
  | .local _ .vmem, ⟨6, _⟩ => ⟨S10x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S1x64, .f32⟩
  | .local _ .vmem, ⟨18, _⟩ => ⟨S64x4, .f32⟩
  | .local _ .vmem, ⟨19, _⟩ => ⟨S5000x4, .f32⟩
  | .local _ .vmem, ⟨20, _⟩ => ⟨S5000x4, .f32⟩
  | .local _ .vmem, ⟨21, _⟩ => ⟨S5000x4, .f32⟩
  | .local _ .vmem, ⟨22, _⟩ => ⟨S5000x4, .f32⟩
  | .local _ .vmem, ⟨23, _⟩ => ⟨S5000x4, .f32⟩
  | .local _ .vmem, ⟨24, _⟩ => ⟨S5000x4, .f32⟩
  | .local _ .vmem, ⟨25, _⟩ => ⟨S5000x1, .f32⟩
  | .local _ .vmem, ⟨26, _⟩ => ⟨S5000x1, .f32⟩
  | .local _ .vmem, ⟨27, _⟩ => ⟨S1x4, .f32⟩
  | .local _ .vmem, ⟨28, _⟩ => ⟨S5000x4, .f32⟩
  | .local _ .vmem, ⟨29, _⟩ => ⟨S5000x4, .f32⟩
  | _, _ => ⟨S100000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_8 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x4 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x4 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S1600000_S1600000x1 : S1600000.ShapeCasts S1600000x1
  bcast_S1600000x1_S1600000x10_0_1 : S1600000x1.BroadcastsInDim S1600000x10 (![0, 1] : Fin 2 → Fin S1600000x10.rank)
  bcast_S_S100000x10 : S_.BroadcastsInDim S100000x10 (![] : Fin 0 → Fin S100000x10.rank)
  shapeCasts_S64_S1x64 : S64.ShapeCasts S1x64
  inb_S5000x10_S5000x10_0_0 : ∀ a, (![0, 0] : Fin 2 → Nat) a + S5000x10.size a ≤ S5000x10.size a
  h_S5000x10 : 0 < S5000x10.numel
  shapeCasts_S5000x10_S5000x10 : S5000x10.ShapeCasts S5000x10
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x10 : S5000x1.Broadcasts S5000x10
  bitsLt_bf16_f32 : FTy.bits .bf16 < FTy.bits .f32
  inb_S10x64_S10x64_0_0 : ∀ a, (![0, 0] : Fin 2 → Nat) a + S10x64.size a ≤ S10x64.size a
  h_S10x64 : 0 < S10x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  inb_S64x4_S64x4_0_0 : ∀ a, (![0, 0] : Fin 2 → Nat) a + S64x4.size a ≤ S64x4.size a
  h_S64x4 : 0 < S64x4.numel
  inb_S5000x4_S5000x4_0_0 : ∀ a, (![0, 0] : Fin 2 → Nat) a + S5000x4.size a ≤ S5000x4.size a
  h_S5000x4 : 0 < S5000x4.numel
  bcast_S1600000x1_S1600000x4_0_1 : S1600000x1.BroadcastsInDim S1600000x4 (![0, 1] : Fin 2 → Fin S1600000x4.rank)
  bcast_S_S100000x4 : S_.BroadcastsInDim S100000x4 (![] : Fin 0 → Fin S100000x4.rank)
  shapeCasts_S4_S1x4 : S4.ShapeCasts S1x4
  shapeCasts_S5000x4_S5000x4 : S5000x4.ShapeCasts S5000x4
  broadcasts_S5000x1_S5000x4 : S5000x1.Broadcasts S5000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  reduces_S5000x4_S5000 : S5000x4.Reduces [1] S5000
  shapeCasts_S5000_S5000x1 : S5000.ShapeCasts S5000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x10_S1600000x1_S1600000x10_1_0_n_n_0_1_110_wf : GatherDims.WF S100000x10 S1600000x1 S1600000x10 [1] [0] [] [0] [] 1 ![1, 10]
  scatter_S100000x10_S1600000x1_S1600000x10_1_0_0_1_wf : ScatterDims.WF S100000x10 S1600000x1 S1600000x10 [1] [0] [0] 1
  dot_S5000x10_S10x64_S5000x64_1_0_0_1_n_n_wf : DotDims.WF S5000x10 S10x64 S5000x64 [1] [0] [0] [1] [] []
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x4_S5000x4_1_0_0_1_n_n_wf : DotDims.WF S5000x64 S64x4 S5000x4 [1] [0] [0] [1] [] []
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x10.size a ≤ S100000x10.size a
  hwx0_0 : ∀ i : grid0.Coords, EltTy.bits .f32 = 32 ∨ (Rect.block (s := S100000x10) S5000x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x10.size a ≤ S100000x10.size a
  hwx0_1 : ∀ i : grid0.Coords, EltTy.bits .f32 = 32 ∨ (Rect.block (s := S100000x10) S5000x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x64.size a ≤ S10x64.size a
  hwx0_3 : ∀ i : grid0.Coords, EltTy.bits .f32 = 32 ∨ (Rect.block (s := S10x64) S10x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x4.size a ≤ S64x4.size a
  hwx1_4 : ∀ i : grid1.Coords, EltTy.bits .f32 = 32 ∨ (Rect.block (s := S64x4) S64x4.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x4.size a ≤ S100000x4.size a
  hwx1_5 : ∀ i : grid1.Coords, EltTy.bits .f32 = 32 ∨ (Rect.block (s := S100000x4) S5000x4.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x4.size a ≤ S100000x4.size a
  hwx2_0 : ∀ i : grid2.Coords, EltTy.bits .f32 = 32 ∨ (Rect.block (s := S100000x4) S5000x4.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x4.size a ≤ S100000x4.size a
  hwx2_1 : ∀ i : grid2.Coords, EltTy.bits .f32 = 32 ∨ (Rect.block (s := S100000x4) S5000x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x4.size a ≤ S1x4.size a
  hwx2_3 : ∀ i : grid2.Coords, EltTy.bits .f32 = 32 ∨ (Rect.block (s := S1x4) S1x4.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x4.size a ≤ S100000x4.size a
  hwx2_4 : ∀ i : grid2.Coords, EltTy.bits .f32 = 32 ∨ (Rect.block (s := S100000x4) S5000x4.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x10_S1600000x1_S1600000x10_1_0_n_n_0_1_110 : GatherDims S100000x10 S1600000x1 S1600000x10 where
  offsetDims := [1]
  collapsedSliceDims := [0]
  operandBatchingDims := []
  startIndicesBatchingDims := []
  startIndexMap := [0]
  indexVectorDim := 1
  sliceSizes := ![1, 10]
  wf := gather_S100000x10_S1600000x1_S1600000x10_1_0_n_n_0_1_110_wf
def scatter_S100000x10_S1600000x1_S1600000x10_1_0_0_1 : ScatterDims S100000x10 S1600000x1 S1600000x10 where
  updateWindowDims := [1]
  insertedWindowDims := [0]
  scatterDimsToOperandDims := [0]
  indexVectorDim := 1
  wf := scatter_S100000x10_S1600000x1_S1600000x10_1_0_0_1_wf
def dot_S5000x10_S10x64_S5000x64_1_0_0_1_n_n : DotDims S5000x10 S10x64 S5000x64 where
  lhsContracting := [1]
  rhsContracting := [0]
  lhsNonContracting := [0]
  rhsNonContracting := [1]
  lhsBatch := []
  rhsBatch := []
  wf := dot_S5000x10_S10x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x4_S5000x4_1_0_0_1_n_n : DotDims S5000x64 S64x4 S5000x4 where
  lhsContracting := [1]
  rhsContracting := [0]
  lhsNonContracting := [0]
  rhsNonContracting := [1]
  lhsBatch := []
  rhsBatch := []
  wf := dot_S5000x64_S64x4_S5000x4_1_0_0_1_n_n_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf

abbrev win0_0 : Pipeline.Window sig grid0 :=
  Pipeline.Window.ofSpec (Memref.whole main_v40) S5000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S10x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v54) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x4.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S5000x4.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68) S5000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S5000x4.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v69) S1x4.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S5000x4.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x10 : Shape := ⟨2, ![100000, 10]⟩
abbrev S2x1600000 : Shape := ⟨2, ![2, 1600000]⟩
abbrev S10x64 : Shape := ⟨2, ![10, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S100000x4 : Shape := ⟨2, ![100000, 4]⟩
abbrev S1600000x4 : Shape := ⟨2, ![1600000, 4]⟩
abbrev S1x4 : Shape := ⟨2, ![1, 4]⟩

abbrev nBuf : Space → Nat
  | .hbm => 175
  | .vmem => 0
  | .smem => 0
  | _ => 0

abbrev hbmTy0_0 (i : Nat) : BufTy := match i % 128 with
  | 0 => ⟨S100000x10, .f32⟩
  | 1 => ⟨S2x1600000, .i32⟩
  | 2 => ⟨S10x64, .f32⟩
  | 3 => ⟨S64, .f32⟩
  | 4 => ⟨S64x64, .f32⟩
  | 5 => ⟨S64, .f32⟩
  | 6 => ⟨S64x4, .f32⟩
  | 7 => ⟨S4, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x64, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S1600000x1, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000, .f32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x64, .f32⟩
  | 98 => ⟨S1600000x1, .f32⟩
  | 99 => ⟨S1600000x64, .f32⟩
  | 100 => ⟨S1600000x64, .f32⟩
  | 101 => ⟨S_, .f32⟩
  | 102 => ⟨S100000x64, .f32⟩
  | 103 => ⟨S1600000x1, .i32⟩
  | 104 => ⟨S100000x64, .f32⟩
  | 105 => ⟨S100000, .f32⟩
  | 106 => ⟨S100000x1, .f32⟩
  | 107 => ⟨S100000x64, .f32⟩
  | 108 => ⟨S100000x64, .f32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S100000x4, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000, .f32⟩
  | 126 => ⟨S_, .i32⟩
  | 127 => ⟨S1600000, .i32⟩
  | _ => ⟨S100000x10, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000, .f32⟩
  | 7 => ⟨S1600000, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x4, .f32⟩
  | 17 => ⟨S1600000x1, .f32⟩
  | 18 => ⟨S1600000x4, .f32⟩
  | 19 => ⟨S1600000x4, .f32⟩
  | 20 => ⟨S_, .f32⟩
  | 21 => ⟨S100000x4, .f32⟩
  | 22 => ⟨S1600000x1, .i32⟩
  | 23 => ⟨S100000x4, .f32⟩
  | 24 => ⟨S100000, .f32⟩
  | 25 => ⟨S100000x1, .f32⟩
  | 26 => ⟨S100000x4, .f32⟩
  | 27 => ⟨S100000x4, .f32⟩
  | 28 => ⟨S100000x4, .f32⟩
  | 29 => ⟨S1x4, .f32⟩
  | 30 => ⟨S100000x4, .f32⟩
  | 31 => ⟨S100000x4, .f32⟩
  | 32 => ⟨S_, .f32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x4, .f32⟩
  | 39 => ⟨S100000x4, .f32⟩
  | 40 => ⟨S100000x4, .f32⟩
  | 41 => ⟨S_, .f32⟩
  | 42 => ⟨S100000, .f32⟩
  | 43 => ⟨S100000x1, .f32⟩
  | 44 => ⟨S100000x1, .f32⟩
  | 45 => ⟨S100000x4, .f32⟩
  | 46 => ⟨S100000x4, .f32⟩
  | _ => ⟨S100000x10, .f32⟩

abbrev hbmTy (i : Nat) : BufTy := match i / 128 with
  | 0 => hbmTy0_0 i
  | 1 => hbmTy0_1 i
  | _ => ⟨S100000x10, .f32⟩

abbrev bufTy : (tb : Table) → Fin (tcTables nBuf tb) → BufTy
  | .hbm, ⟨i, _⟩ => hbmTy i
  | _, _ => ⟨S100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call1_cst : Ref sig .tc := ⟨.hbm, 113, rfl⟩
abbrev main_call1_v0 : Ref sig .tc := ⟨.hbm, 114, rfl⟩
abbrev main_v86 : Ref sig .tc := ⟨.hbm, 115, rfl⟩
abbrev main_v87 : Ref sig .tc := ⟨.hbm, 116, rfl⟩
abbrev main_c_15 : Ref sig .tc := ⟨.hbm, 117, rfl⟩
abbrev main_v88 : Ref sig .tc := ⟨.hbm, 118, rfl⟩
abbrev main_v89 : Ref sig .tc := ⟨.hbm, 119, rfl⟩
abbrev main_c_16 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_17 : Ref sig .tc := ⟨.hbm, 126, rfl⟩
abbrev main_v95 : Ref sig .tc := ⟨.hbm, 127, rfl⟩
abbrev main_v96 : Ref sig .tc := ⟨.hbm, 128, rfl⟩
abbrev main_c_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_19 : Ref sig .tc := ⟨.hbm, 136, rfl⟩
abbrev main_v103 : Ref sig .tc := ⟨.hbm, 137, rfl⟩
abbrev main_v104 : Ref sig .tc := ⟨.hbm, 138, rfl⟩
abbrev main_c_20 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_21 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_call2_cst : Ref sig .tc := ⟨.hbm, 160, rfl⟩
abbrev main_call2_v0 : Ref sig .tc := ⟨.hbm, 161, rfl⟩
abbrev main_call2_cst_0 : Ref sig .tc := ⟨.hbm, 162, rfl⟩
abbrev main_call2_v1 : Ref sig .tc := ⟨.hbm, 163, rfl⟩
abbrev main_call2_v2 : Ref sig .tc := ⟨.hbm, 164, rfl⟩
abbrev main_call2_v3 : Ref sig .tc := ⟨.hbm, 165, rfl⟩
abbrev main_call2_v4 : Ref sig .tc := ⟨.hbm, 166, rfl⟩
abbrev main_call2_v5 : Ref sig .tc := ⟨.hbm, 167, rfl⟩
abbrev main_call2_v6 : Ref sig .tc := ⟨.hbm, 168, rfl⟩
abbrev main_call2_cst_1 : Ref sig .tc := ⟨.hbm, 169, rfl⟩
abbrev main_call2_v7 : Ref sig .tc := ⟨.hbm, 170, rfl⟩
abbrev main_call2_v8 : Ref sig .tc := ⟨.hbm, 171, rfl⟩
abbrev main_call2_v9 : Ref sig .tc := ⟨.hbm, 172, rfl⟩
abbrev main_call2_v10 : Ref sig .tc := ⟨.hbm, 173, rfl⟩
abbrev main_v124 : Ref sig .tc := ⟨.hbm, 174, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x4_0_1 : S1600000x1.BroadcastsInDim S1600000x4 (![0, 1] : Fin 2 → Fin S1600000x4.rank)
  bcast_S_S100000x4 : S_.BroadcastsInDim S100000x4 (![] : Fin 0 → Fin S100000x4.rank)
  bcast_S100000x1_S100000x4_0_1 : S100000x1.BroadcastsInDim S100000x4 (![0, 1] : Fin 2 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  reducesTo_S100000x4_S100000_d1 : S100000x4.ReducesTo [1] S100000
  h_S_ : 0 < S_.numel
  scatter_S100000_S1600000x1_S1600000_n_0_0_1_wf : ScatterDims.WF S100000 S1600000x1 S1600000 [] [0] [0] 1
  dot_S100000x10_S10x64_S100000x64_1_0_0_1_n_n_wf : DotDims.WF S100000x10 S10x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x4_S100000x4_1_0_0_1_n_n_wf : DotDims.WF S100000x64 S64x4 S100000x4 [1] [0] [0] [1] [] []
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x10_S10x64_S100000x64_1_0_0_1_n_n : DotDims S100000x10 S10x64 S100000x64 where
  lhsContracting := [1]
  rhsContracting := [0]
  lhsNonContracting := [0]
  rhsNonContracting := [1]
  lhsBatch := []
  rhsBatch := []
  wf := dot_S100000x10_S10x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf

class Facts : Prop extends Facts₀ where

variable [Facts]
-- ==== Proof.KernelRun.lean ====
/-
  The kernel program's run with its result named.

  The program is six segments: three stretches of host operations, each followed by one of the three kernel regions. The
  buffer contents at each boundary are a fold from the launch memory (`W0 … W6` of the generated frame module). Here the
  same launch is read once more at the end: every unscoped buffer of a core holds the last boundary's contents `W6`, so
  the result buffer holds `W6` at its reference and each argument is as launched.
-/
import proofs.«172584_j2791728742833_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the arguments end as launched. -/
theorem run_named : θ_run defs (onTc (τ := τ) (main (F := F))) ⟨m, fun _ => 0, ρ⟩ (fun r => ∀ c : Dev nD,
      r.2.mem ((c.tc : Thread nD τ).loc main_v70) = W6 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v70 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.RunValue

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«172584_j2791728742833_2_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibDense.lean ====
/-
  The dense layers of the network as whole-array functions on the extended reals, and the host's spelling of each.

  A matrix with `M` rows and `N` columns is a function of its two coordinates. The layers are: a product plus a bias
  row (`lin`, from the bias-and-product module), the same with the contraction split over two pairs of operands
  (`lin2`), the plain product (`mm`), adding a row to every row of a matrix (`addRow`), and the positive part
  (`relu`). The host writes a layer as a `dot_general`, the bias broadcast in two steps to the matrix's shape,
  an addition, and a maximum with a broadcast zero; entry by entry these are the functions above.

  Two identities join the kernel's arrangement to the host's. A product whose left operand is two blocks set side by
  side, against a weight matrix, is the sum of the two blocks' products against the matching row ranges of the weight:
  the sum over the contraction index splits at the seam, which needs only that addition of extended reals is
  associative and commutative. And a product plus a row of zeros is the product.
-/
import Idealize.ShloMosaic.Lib.ValueIdx
import Idealize.ShloMosaic.Lib.Pipeline.Value
import Idealize.ShloMosaic.PureOps.Ideal.Laws
import proofs.«172584_j2791728742833_2_alg».proof.Proof.LibBiasDot

noncomputable section

open scoped BigOperators

namespace Cert.Lib.Dense

open Idealize.ShloMosaic Idealize.ShloMosaic.ValueIdx Cert.Lib.BiasDot

variable {M K K' N : Nat}

/-- The positive part, entry by entry. -/
def relu {s : Shape} (f : s.Idx → EReal) : s.Idx → EReal := fun i => max (f i) 0

/-- A row added to every row of a matrix. -/
def addRow (X : (⟨2, ![M, N]⟩ : Shape).Idx → EReal) (B : (⟨1, ![N]⟩ : Shape).Idx → EReal) :
    (⟨2, ![M, N]⟩ : Shape).Idx → EReal := fun i => X i + B (ix1 (i 1))

/-- The plain product: entry `(p, q)` is `∑ k, A (p, k) · W (k, q)`. -/
def mm (A : (⟨2, ![M, K]⟩ : Shape).Idx → EReal) (W : (⟨2, ![K, N]⟩ : Shape).Idx → EReal) :
    (⟨2, ![M, N]⟩ : Shape).Idx → EReal := fun i => ∑ k : Fin K, A (ix2 (i 0) k) * W (ix2 k (i 1))

/-- Two products added, plus a bias row: entry `(p, q)` is `∑ k, A (p, k) · Wa (k, q) + ∑ k, C (p, k) · Wb (k, q) + b q`. -/
def lin2 (A : (⟨2, ![M, K]⟩ : Shape).Idx → EReal) (Wa : (⟨2, ![K, N]⟩ : Shape).Idx → EReal)
    (C : (⟨2, ![M, K']⟩ : Shape).Idx → EReal) (Wb : (⟨2, ![K', N]⟩ : Shape).Idx → EReal)
    (B : (⟨1, ![N]⟩ : Shape).Idx → EReal) : (⟨2, ![M, N]⟩ : Shape).Idx → EReal :=
  fun i => ((∑ k : Fin K, A (ix2 (i 0) k) * Wa (ix2 k (i 1))) + (∑ k : Fin K', C (ix2 (i 0) k) * Wb (ix2 k (i 1))))
    + B (ix1 (i 1))

/-! ## The host's spelling, read at an entry -/

/-- A vector of length `N` broadcast to a `1 × N` row and then down `M` rows reads, at `(p, q)`, the vector at `q`. -/
theorem hostRow_apply {α : Type} (B : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 B) (ix2 p q) = B (ix1 q) := by
  refine (broadcastInDim_apply ![0, 1] h2 _ (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine broadcastInDim_apply ![1] h1 B (ix2 (0 : Fin 1) q) (ix1 q) (fun a => ?_)
    match a with
    | ⟨0, _⟩ =>
      show q.val = if N = 1 then 0 else q.val
      split
      · have := q.isLt; omega
      · rfl

/-- The zero scalar broadcast to any shape is zero everywhere. -/
theorem hostZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  refine (broadcastInDim_apply (s := ⟨0, ![]⟩) dims h _ j (fun a => a.elim0) (fun a => a.elim0)).trans ?_
  rw [constant_apply, Ideal.ofBits_zero_f32]

/-- The host's linear layer with the positive part: product, bias broadcast in two steps, sum, maximum with zero. -/
theorem host_lin_relu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none X W)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin X W B) := by
  subst hd
  funext i
  obtain ⟨p, q, rfl⟩ : ∃ (p : Fin M) (q : Fin N), i = ix2 p q := ⟨i 0, i 1, eq_ix2 i⟩
  rw [maximumf_apply, addf_apply, hostZero_apply, hostRow_apply]
  exact congrArg (fun z => max (z + B (ix1 q)) 0) (Cert.Lib.PlainDot.dotGeneral_apply none _ X W p q)

/-- The host's bias-and-positive-part layer. -/
theorem host_addRow_relu (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf X (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (addRow X B) := by
  funext i
  obtain ⟨p, q, rfl⟩ : ∃ (p : Fin M) (q : Fin N), i = ix2 p q := ⟨i 0, i 1, eq_ix2 i⟩
  rw [maximumf_apply, addf_apply, hostZero_apply, hostRow_apply]
  rfl

/-- The host's bias layer. -/
theorem host_addRow (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 B)) = addRow X B := by
  funext i
  obtain ⟨p, q, rfl⟩ : ∃ (p : Fin M) (q : Fin N), i = ix2 p q := ⟨i 0, i 1, eq_ix2 i⟩
  rw [addf_apply, hostRow_apply]
  rfl

/-- The host's plain product. -/
theorem host_mm (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = mm X W := by
  subst hd
  funext i
  obtain ⟨p, q, rfl⟩ : ∃ (p : Fin M) (q : Fin N), i = ix2 p q := ⟨i 0, i 1, eq_ix2 i⟩
  exact Cert.Lib.PlainDot.dotGeneral_apply none _ X W p q

/-! ## A left operand of two blocks side by side -/

section Concat

variable (A : (⟨2, ![M, K]⟩ : Shape).Idx → EReal) (C : (⟨2, ![M, K']⟩ : Shape).Idx → EReal)
  (Wc : (⟨2, ![K + K', N]⟩ : Shape).Idx → EReal)
  (hcat : Shape.Concatenates [(⟨2, ![M, K]⟩ : Shape), ⟨2, ![M, K']⟩] ⟨2, ![M, K + K']⟩ 1)
  (hs1 : (⟨2, ![K + K', N]⟩ : Shape).Slices ![0, 0] ⟨2, ![K, N]⟩)
  (hs2 : (⟨2, ![K + K', N]⟩ : Shape).Slices ![K, 0] ⟨2, ![K', N]⟩)

/-- Left of the seam the two blocks set side by side read the first block. -/
theorem concat_left (p : Fin M) (k : Fin K) :
    concatenate ⟨2, ![M, K + K']⟩ 1 [⟨⟨2, ![M, K]⟩, A⟩, ⟨⟨2, ![M, K']⟩, C⟩] hcat (ix2 p (Fin.castAdd K' k)) = A (ix2 p k) :=
  concatenate_pair_apply_left 1 A C hcat _ rfl (ix2 p k) (fun b => by
    match b with
    | ⟨0, _⟩ => rfl
    | ⟨1, _⟩ => rfl)

/-- Right of the seam they read the second block, the column counted from the seam. -/
theorem concat_right (p : Fin M) (k : Fin K') :
    concatenate ⟨2, ![M, K + K']⟩ 1 [⟨⟨2, ![M, K]⟩, A⟩, ⟨⟨2, ![M, K']⟩, C⟩] hcat (ix2 p (Fin.natAdd K k)) = C (ix2 p k) :=
  concatenate_pair_apply_right 1 A C hcat _ rfl rfl (ix2 p k) (fun b hb => by
    match b, hb with
    | ⟨0, _⟩, _ => rfl
    | ⟨1, _⟩, h => exact absurd rfl h) (by show k.val + K = K + k.val; omega)

/-- The first `K` rows of the weight. -/
theorem slice_top (k : Fin K) (q : Fin N) :
    extractStridedSlice ⟨2, ![K, N]⟩ ![0, 0] Wc hs1 (ix2 k q) = Wc (ix2 (Fin.castAdd K' k) q) :=
  extractStridedSlice_apply ![0, 0] Wc hs1 (ix2 k q) (ix2 (Fin.castAdd K' k) q) (fun a => by
    match a with
    | ⟨0, _⟩ => show k.val = 0 + k.val; omega
    | ⟨1, _⟩ => show q.val = 0 + q.val; omega)

/-- The last `K'` rows of the weight. -/
theorem slice_bot (k : Fin K') (q : Fin N) :
    extractStridedSlice ⟨2, ![K', N]⟩ ![K, 0] Wc hs2 (ix2 k q) = Wc (ix2 (Fin.natAdd K k) q) :=
  extractStridedSlice_apply ![K, 0] Wc hs2 (ix2 k q) (ix2 (Fin.natAdd K k) q) (fun a => by
    match a with
    | ⟨0, _⟩ => show K + k.val = K + k.val; rfl
    | ⟨1, _⟩ => show q.val = 0 + q.val; omega)

/-- The sum over the contraction index of the side-by-side operand against the weight splits at the seam into the two
    blocks' sums against the two row ranges of the weight. -/
theorem sum_concat (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * extractStridedSlice ⟨2, ![K, N]⟩ ![0, 0] Wc hs1 (ix2 k q))
        + (∑ k : Fin K', C (ix2 p k) * extractStridedSlice ⟨2, ![K', N]⟩ ![K, 0] Wc hs2 (ix2 k q)) := by
  rw [Fin.sum_univ_add]
  refine congrArg₂ (· + ·) (Finset.sum_congr rfl fun k _ => ?_) (Finset.sum_congr rfl fun k _ => ?_)
  · rw [concat_left, slice_top]
  · rw [concat_right, slice_bot]

end Concat

/-- The host's second layer: the side-by-side operand against the whole weight, bias, positive part — is the two-product
    layer of the two blocks against the two row ranges of the weight. -/
theorem host_concat_lin2_relu {Kt : Nat} (hK : Kt = K + K')
    (d : DotDims ⟨2, ![M, Kt]⟩ ⟨2, ![Kt, N]⟩ ⟨2, ![M, N]⟩) (hd : d = hK ▸ DotDims.plain M (K + K') N)
    (A : FVec Ideal ⟨2, ![M, K]⟩ .f32) (C : FVec Ideal ⟨2, ![M, K']⟩ .f32) (Wc : FVec Ideal ⟨2, ![Kt, N]⟩ .f32)
    (B : FVec Ideal ⟨1, ![N]⟩ .f32)
    (hcat : Shape.Concatenates [(⟨2, ![M, K]⟩ : Shape), ⟨2, ![M, K']⟩] ⟨2, ![M, Kt]⟩ 1)
    (hs1 : (⟨2, ![Kt, N]⟩ : Shape).Slices ![0, 0] ⟨2, ![K, N]⟩)
    (hs2 : (⟨2, ![Kt, N]⟩ : Shape).Slices ![K, 0] ⟨2, ![K', N]⟩)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none
          (concatenate ⟨2, ![M, Kt]⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin2 A (extractStridedSlice ⟨2, ![K, N]⟩ ![0, 0] Wc hs1) C (extractStridedSlice ⟨2, ![K', N]⟩ ![K, 0] Wc hs2) B) := by
  subst hK
  subst hd
  funext i
  obtain ⟨p, q, rfl⟩ : ∃ (p : Fin M) (q : Fin N), i = ix2 p q := ⟨i 0, i 1, eq_ix2 i⟩
  rw [maximumf_apply, addf_apply, hostZero_apply, hostRow_apply]
  refine congrArg (fun z => max (z + B (ix1 q)) 0) ?_
  exact (Cert.Lib.PlainDot.dotGeneral_apply none _ _ Wc p q).trans (sum_concat A C Wc hcat hs1 hs2 p q)

/-! ## A zero bias row -/

/-- A product plus a row of zeros is the product. -/
theorem lin_zero (X : (⟨2, ![M, K]⟩ : Shape).Idx → EReal) (W : (⟨2, ![K, N]⟩ : Shape).Idx → EReal)
    (Z : (⟨1, ![N]⟩ : Shape).Idx → EReal) (hZ : ∀ j, Z j = 0) : lin X W Z = mm X W := by
  funext i
  show (∑ k : Fin K, X (ix2 (i 0) k) * W (ix2 k (i 1))) + Z (ix1 (i 1)) = _
  rw [hZ, add_zero]
  rfl

end Cert.Lib.Dense

end
-- ==== Proof.LibRowLayers.lean ====
/-
  The two dense layers a vector unit computes on a block of rows, as whole-array functions on the extended reals.

  A block of `M` rows with `K` features, a `K × N` weight and a `1 × N` bias row give `relu (x · W + b)`: entry
  `(p, q)` is the larger of `0` and `∑ k, x (p, k) · W (k, q) + b (0, q)`. The narrowing of the operands to a shorter float
  format before the product is the identity on extended reals, the product accumulates into zero, and the bias row is
  repeated down the rows. A second product and bias on top of that, without the positive part, gives the output layer.

  An entry of either layer depends on one row of the block only, so a block of rows of a taller array computes the
  same entries as the layer of the whole array at those rows.
-/
import Idealize.ShloMosaic.Lib.ValueIdx
import Idealize.ShloMosaic.Lib.Pipeline.Value
import Idealize.ShloMosaic.PureOps.Ideal.Laws
import proofs.«172584_j2791728742833_2_alg».proof.Proof.LibDense

noncomputable section

open scoped BigOperators

namespace Cert.Lib.RowLayers

open Idealize.ShloMosaic Idealize.ShloMosaic.ValueIdx Cert.Lib.BiasDot Cert.Lib.Dense

variable {m M K N N' : Nat}

/-- A `1 × N` row read as a vector of length `N`. -/
def rowVec (R : (⟨2, ![1, N]⟩ : Shape).Idx → EReal) : (⟨1, ![N]⟩ : Shape).Idx → EReal :=
  fun j => R (ix2 (0 : Fin 1) (j 0))

/-- A vector of length `N` reshaped to a `1 × N` row and read back as a vector is the vector. -/
theorem rowVec_reshape (b : (⟨1, ![N]⟩ : Shape).Idx → EReal) (hc : (⟨1, ![N]⟩ : Shape).ShapeCasts ⟨2, ![1, N]⟩) :
    rowVec (shapeCast ⟨2, ![1, N]⟩ b hc) = b := by
  funext j
  refine (shapeCast_addUnit_apply ![N] b hc (ix2 (0 : Fin 1) (j 0))).trans (congrArg b ?_)
  funext a
  match a with
  | ⟨0, _⟩ => rfl

/-- A `1 × N` row repeated down `M` rows reads, at `(p, q)`, the row at `q`. -/
theorem rowRepeat_apply {α : Type} (R : (⟨2, ![1, N]⟩ : Shape).Idx → α)
    (hc : (⟨2, ![1, N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ R hc) hb (ix2 p q) = R (ix2 (0 : Fin 1) q) := by
  rw [shapeCast_self]
  refine broadcastTo_apply _ hb (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- The product into zero plus the repeated bias row is the linear layer of the block, the weight and the row. -/
theorem linLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr)
      = lin x0 x1 (rowVec x2) := by
  subst hd
  funext i
  obtain ⟨p, q, rfl⟩ : ∃ (p : Fin M) (q : Fin N), i = ix2 p q := ⟨i 0, i 1, eq_ix2 i⟩
  rw [addf_apply, rowRepeat_apply, Cert.Lib.PlainDot.matmul_zero_apply]
  rfl

/-- The same followed by the maximum with a splat zero is the positive part of the linear layer. -/
theorem reluLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    maximumf (addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr))
      (broadcast ⟨2, ![M, N]⟩ (Scalar.ofBits (F := Ideal) .f32 0x00000000#32))
      = relu (lin x0 x1 (rowVec x2)) := by
  rw [linLayer_eq d hd x0 x1 x2 hb0 hb1 h2 hbr]
  funext i
  rw [maximumf_apply, broadcast_apply]
  show max _ (Ideal.ofBits .f32 0x00000000#32) = _
  rw [Ideal.ofBits_zero_f32]
  rfl

/-- The first layer on a block of rows is the first layer of the whole array at those rows: entry `j` of the block's
    layer is entry `i` of the array's when the block's row `j 0` is the array's row `i 0` and the columns agree. -/
theorem layer_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    relu (lin x0 x1 (rowVec x2)) j = relu (lin A W (rowVec R)) i := by
  show max ((∑ k : Fin K, x0 (ix2 (j 0) k) * x1 (ix2 k (j 1))) + x2 (ix2 (0 : Fin 1) (j 1))) 0
    = max ((∑ k : Fin K, A (ix2 (i 0) k) * W (ix2 k (i 1))) + R (ix2 (0 : Fin 1) (i 1))) 0
  rw [h2]
  exact congrArg (fun z => max (z + R (ix2 (0 : Fin 1) (i 1))) 0) (Finset.sum_congr rfl fun k _ => by rw [h0 k, h1 k])

/-- The two layers on a block of rows are the two layers of the whole array at those rows. -/
theorem head_block (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (W : (⟨2, ![K, N]⟩ : Shape).Idx → EReal) (R : (⟨2, ![1, N]⟩ : Shape).Idx → EReal)
    (W' : (⟨2, ![N, N']⟩ : Shape).Idx → EReal) (R' : (⟨2, ![1, N']⟩ : Shape).Idx → EReal)
    (j : (⟨2, ![m, N']⟩ : Shape).Idx) (i : (⟨2, ![M, N']⟩ : Shape).Idx)
    (h0 : ∀ k : Fin K, x0 (ix2 (j 0) k) = A (ix2 (i 0) k)) (h1 : x1 = W) (h2 : x2 = R)
    (h3 : ∀ k : Fin N, x3 (ix2 k (j 1)) = W' (ix2 k (i 1)))
    (h4 : x4 (ix2 (0 : Fin 1) (j 1)) = R' (ix2 (0 : Fin 1) (i 1))) :
    lin (relu (lin x0 x1 (rowVec x2))) x3 (rowVec x4) j = lin (relu (lin A W (rowVec R))) W' (rowVec R') i := by
  subst h1
  subst h2
  show (∑ k : Fin N, relu (lin x0 x1 (rowVec x2)) (ix2 (j 0) k) * x3 (ix2 k (j 1))) + x4 (ix2 (0 : Fin 1) (j 1))
    = (∑ k : Fin N, relu (lin A x1 (rowVec x2)) (ix2 (i 0) k) * W' (ix2 k (i 1))) + R' (ix2 (0 : Fin 1) (i 1))
  rw [h4]
  refine congrArg (fun z => z + R' (ix2 (0 : Fin 1) (i 1))) (Finset.sum_congr rfl fun k _ => ?_)
  rw [h3 k]
  exact congrArg (fun z => z * W' (ix2 k (i 1)))
    (layer_block x0 x1 x2 A x1 x2 (ix2 (j 0) k) (ix2 (i 0) k) h0 (fun _ => rfl) rfl)

end Cert.Lib.RowLayers

end
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibBlockOps.lean ====
/-
  Rank-two blocks read at an entry, at the ideal values.

  * The product into zero of an `M × K` array with an `N × K` array, each contracted on its last axis: entry `(p, q)` is
    the inner product of row `p` of the first with row `q` of the second.
  * The same product plus a `1 × N` bias row repeated down the rows: a linear layer whose weight is stored output-major.
  * A reduction along the lanes of an `M × N` array: row `p`'s maximum is the fold of `max` over its `N` entries, its
    sum their sum.
  * `M` row values set up as an `M × 1` column and repeated along `N` lanes: entry `(p, q)` is row `p`'s value.
-/
import Idealize.ShloMosaic.Lib.ValueIdx
import Idealize.ShloMosaic.Lib.ValueLayout
import Idealize.ShloMosaic.Lib.Pipeline.Value
import Idealize.ShloMosaic.PureOps.Ideal.Laws
import proofs.«172584_j2791728742833_2_alg».proof.Proof.LibDotRows

noncomputable section

open scoped BigOperators

namespace Cert.Lib.BlockOps

open Idealize.ShloMosaic Idealize.ShloMosaic.ValueIdx

variable {M K N : Nat}

/-- The product of two arrays given by rows, at entry `(p, q)`: the inner product of the two rows. -/
theorem matmul_rows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec l r
        (constant ⟨2, ![M, N]⟩ .f32 0x00000000#32) (ix2 p q)
      = ∑ k : Fin K, l (ix2 p k) * r (ix2 q k) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [Cert.Lib.DotRows.lhsIdx_rows w p q k, Cert.Lib.DotRows.rhsIdx_rows w p q k]

/-- A linear layer with the weight stored output-major, at entry `(p, q)`: `∑ k, l (p, k) · r (q, k) + b q`. -/
theorem linRows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (⟨[1], [1], [0], [0], [], [], w⟩ : DotDims ⟨2, ![M, K]⟩ ⟨2, ![N, K]⟩ ⟨2, ![M, N]⟩) prec l r
          (constant ⟨2, ![M, N]⟩ .f32 0x00000000#32))
        (broadcastTo ⟨2, ![M, N]⟩ (shapeCast ⟨2, ![1, N]⟩ b hc) hb) (ix2 p q)
      = (∑ k : Fin K, l (ix2 p k) * r (ix2 q k)) + b (ix2 (0 : Fin 1) q) := by
  rw [addf_apply, matmul_rows_apply, shapeCast_self, broadcastTo_1b_ab_apply]

/-- Over row `p`, the index with `k` put on the lane axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A row's maximum: the fold of `max`, from the seed's value, over the row's entries. -/
theorem rowMax_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun k => src (ix2 p k)) := by
  rw [Ideal.multiReduction_maximumf_single]
  exact congrArg (fun f => (Finset.univ : Finset (Fin N)).fold max (FloatOps.ofBits φ acc) f)
    (funext fun k => congrArg src (lift_row h p k))

/-- A row's sum. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- `M` row values as an `M × 1` column repeated along `N` lanes: at `(p, q)`, row `p`'s value. -/
theorem colSpread_apply {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ v hc) hb (ix2 p q) = v (ix1 p) := by
  refine (broadcastTo_apply _ hb (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

end Cert.Lib.BlockOps

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.LibLogSoftmax.lean ====
/-
  Dense layers with a positive part and the row-wise log-softmax, as whole-array functions on the extended reals.

  A matrix with `M` rows and `N` columns is a function of its two coordinates. A dense block is two linear
  layers, each followed by the positive part: `mlp z Wa ba Wb bb = relu (relu (z · Wa + ba) · Wb + bb)`. A classifier head
  is a linear layer followed by the logarithm of the softmax along each row, in the numerically shifted
  form: with `mx p` the largest entry of row `p` (folded from the word of −∞),
  `logSoftmax L (p, q) = (L (p, q) − mx p) − log (∑ k, exp (L (p, k) − mx p))`.

  Every entry of these functions depends on one row of the first operand only. So a block of rows of a taller array,
  pushed through the same layers, computes the entries of the whole array's layers at those rows: `mlp_rows`,
  `logSoftmax_rows`, `head_rows`.

  Also here: how a vector unit spells the row-wise shifted log-softmax (a lane maximum and a lane sum kept as columns
  and spread back over the lanes), read at an entry.
-/
import Idealize.ShloMosaic.Lib.ValueIdx
import Idealize.ShloMosaic.Lib.Pipeline.Value
import Idealize.ShloMosaic.PureOps.Ideal.Laws
import proofs.«172584_j2791728742833_2_alg».proof.Proof.LibRowLayers
import proofs.«172584_j2791728742833_2_alg».proof.Proof.LibBlockOps
import proofs.«172584_j2791728742833_2_alg».proof.Proof.LibColumn

noncomputable section

open scoped BigOperators

namespace Cert.Lib.LogSoftmax

open Idealize.ShloMosaic Idealize.ShloMosaic.ValueIdx Cert.Lib.BiasDot Cert.Lib.Dense Cert.Lib.RowLayers

variable {m M K N N' : Nat}

/-- Two linear layers, each followed by the positive part. -/
def mlp (z : (⟨2, ![M, K]⟩ : Shape).Idx → EReal) (Wa : (⟨2, ![K, N]⟩ : Shape).Idx → EReal)
    (ba : (⟨1, ![N]⟩ : Shape).Idx → EReal) (Wb : (⟨2, ![N, N']⟩ : Shape).Idx → EReal)
    (bb : (⟨1, ![N']⟩ : Shape).Idx → EReal) : (⟨2, ![M, N']⟩ : Shape).Idx → EReal :=
  relu (lin (relu (lin z Wa ba)) Wb bb)

/-- The dense block on a block of rows is the dense block of the whole array at those rows. -/
theorem mlp_rows (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (p : Fin m) (p' : Fin M) (q : Fin N')
    (h0 : ∀ k : Fin K, x0 (ix2 p k) = A (ix2 p' k)) :
    mlp x0 x1 (rowVec x2) x3 (rowVec x4) (ix2 p q) = mlp A x1 (rowVec x2) x3 (rowVec x4) (ix2 p' q) :=
  congrArg (fun z => max z 0)
    (head_block x0 x1 x2 x3 x4 A x1 x2 x3 x4 (ix2 p q) (ix2 p' q) h0 rfl rfl (fun _ => rfl) rfl)

/-- The dense block on a block of rows, at an index `j` of the block, is the dense block of the whole array at an index
    `i` in the same column whose row the block's row `j 0` is. -/
theorem mlp_at (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (j : (⟨2, ![m, N']⟩ : Shape).Idx) (i : (⟨2, ![M, N']⟩ : Shape).Idx)
    (h0 : ∀ k : Fin K, x0 (ix2 (j 0) k) = A (ix2 (i 0) k)) (hq : (j 1).val = (i 1).val) :
    mlp x0 x1 (rowVec x2) x3 (rowVec x4) j = mlp A x1 (rowVec x2) x3 (rowVec x4) i := by
  have e : j 1 = i 1 := Fin.ext hq
  exact congrArg (fun z => max z 0)
    (head_block x0 x1 x2 x3 x4 A x1 x2 x3 x4 j i h0 rfl rfl (fun k => by rw [e]) (by rw [e]))

/-- The largest entry of row `p`: the fold of `max` over the row, from the value of the word of −∞. -/
def rowMax (L : (⟨2, ![M, N]⟩ : Shape).Idx → EReal) (p : Fin M) : EReal :=
  (Finset.univ : Finset (Fin N)).fold max (Ideal.ofBits .f32 0xFF800000#32) (fun k => L (ix2 p k))

/-- The logarithm of the softmax along each row, shifted by the row's largest entry. -/
def logSoftmax (L : (⟨2, ![M, N]⟩ : Shape).Idx → EReal) : (⟨2, ![M, N]⟩ : Shape).Idx → EReal :=
  fun i => (L i - rowMax L (i 0)) - Ideal.log (∑ k : Fin N, Ideal.exp (L (ix2 (i 0) k) - rowMax L (i 0)))

theorem logSoftmax_apply (L : (⟨2, ![M, N]⟩ : Shape).Idx → EReal) (p : Fin M) (q : Fin N) :
    logSoftmax L (ix2 p q) = (L (ix2 p q) - rowMax L p) - Ideal.log (∑ k : Fin N, Ideal.exp (L (ix2 p k) - rowMax L p)) := rfl

/-- A row of the log-softmax depends on that row only. -/
theorem logSoftmax_rows (x : (⟨2, ![m, N]⟩ : Shape).Idx → EReal) (A : (⟨2, ![M, N]⟩ : Shape).Idx → EReal)
    (p : Fin m) (p' : Fin M) (q : Fin N) (h : ∀ k : Fin N, x (ix2 p k) = A (ix2 p' k)) :
    logSoftmax x (ix2 p q) = logSoftmax A (ix2 p' q) := by
  have hm : rowMax x p = rowMax A p' :=
    congrArg (fun f => (Finset.univ : Finset (Fin N)).fold max (Ideal.ofBits .f32 0xFF800000#32) f) (funext h)
  rw [logSoftmax_apply, logSoftmax_apply, hm, h q]
  exact congrArg (fun s => (A (ix2 p' q) - rowMax A p') - Ideal.log s) (Finset.sum_congr rfl fun k _ => by rw [h k])

/-- The last layer: a linear layer, then the log-softmax along each row. -/
def head (h : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  logSoftmax (lin h W b)

/-- The last layer on a block of rows is the last layer of the whole array at those rows. -/
theorem head_rows (x0 : (⟨2, ![m, K]⟩ : Shape).Idx → EReal) (x1 : (⟨2, ![K, N]⟩ : Shape).Idx → EReal)
    (b : (⟨1, ![N]⟩ : Shape).Idx → EReal) (A : (⟨2, ![M, K]⟩ : Shape).Idx → EReal) (p : Fin m) (p' : Fin M) (q : Fin N)
    (h0 : ∀ k : Fin K, x0 (ix2 p k) = A (ix2 p' k)) :
    head x0 x1 b (ix2 p q) = head A x1 b (ix2 p' q) := by
  refine logSoftmax_rows (lin x0 x1 b) (lin A x1 b) p p' q (fun k => ?_)
  rw [lin_apply, lin_apply]
  exact congrArg (fun z => z + b (ix1 k)) (Finset.sum_congr rfl fun k' _ => by rw [h0 k'])

/-- The last layer on a block of rows, at an index `j` of the block, is the last layer of the whole array at an index `i`
    in the same column whose row the block's row `j 0` is. -/
theorem head_at (x0 : (⟨2, ![m, K]⟩ : Shape).Idx → EReal) (x1 : (⟨2, ![K, N]⟩ : Shape).Idx → EReal)
    (b : (⟨1, ![N]⟩ : Shape).Idx → EReal) (A : (⟨2, ![M, K]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (hq : (j 1).val = (i 1).val) :
    head x0 x1 b j = head A x1 b i := by
  have e : j 1 = i 1 := Fin.ext hq
  refine (congrArg (head x0 x1 b) (eq_ix2 j)).trans ((head_rows x0 x1 b A (j 0) (i 0) (j 1) h0).trans ?_)
  refine congrArg (head A x1 b) ?_
  rw [e]
  exact (eq_ix2 i).symm

/-! ## The vector unit's spelling -/

/-- A `1 × N` row repeated down `M` rows reads, at `(p, q)`, the row at `q`. -/
theorem rowSpread_apply {α : Type} (R : (⟨2, ![1, N]⟩ : Shape).Idx → α)
    (hb : (⟨2, ![1, N]⟩ : Shape).Broadcasts ⟨2, ![M, N]⟩) (p : Fin M) (q : Fin N) :
    broadcastTo ⟨2, ![M, N]⟩ R hb (ix2 p q) = R (ix2 (0 : Fin 1) q) := by
  refine broadcastTo_apply _ hb (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- A product into zero plus a loaded `1 × N` bias row repeated down the rows is the linear layer, whatever formats the
    two operands were narrowed to. -/
theorem lin_body {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (b : FVec Ideal ⟨2, ![1, N]⟩ .f32)
    (hbr : (⟨2, ![1, N]⟩ : Shape).Broadcasts ⟨2, ![M, N]⟩) :
    addf (FloatOps.matmul d none l r (constant ⟨2, ![M, N]⟩ .f32 0x00000000#32)) (broadcastTo ⟨2, ![M, N]⟩ b hbr)
      = lin l r (rowVec b) := by
  subst hd
  funext i
  obtain ⟨p, q, rfl⟩ : ∃ (p : Fin M) (q : Fin N), i = ix2 p q := ⟨i 0, i 1, eq_ix2 i⟩
  rw [addf_apply, rowSpread_apply, Cert.Lib.PlainDot.matmul_zero_apply]
  rfl

/-- The maximum with a splat zero is the positive part. -/
theorem relu_body {s : Shape} (X : FVec Ideal s .f32) :
    maximumf X (broadcast s (Scalar.ofBits (F := Ideal) .f32 0x00000000#32)) = relu X := by
  funext i
  rw [maximumf_apply, broadcast_apply]
  show max _ (Ideal.ofBits .f32 0x00000000#32) = _
  rw [Ideal.ofBits_zero_f32]
  rfl

/-- The row-wise shifted log-softmax as a vector unit computes it: the lane maximum and the lane sum of exponentials are
    kept as `M × 1` columns and spread back over the `N` lanes. -/
theorem logSoftmax_body (L : FVec Ideal ⟨2, ![M, N]⟩ .f32) (hr : (⟨2, ![M, N]⟩ : Shape).Reduces [1] ⟨1, ![M]⟩)
    (hφ : FKind.Formats .f32) (hm : (0xFF800000#32 : BitVec FTy.f32.bits) = FKind.maximumf.neutral .f32 hφ)
    (ha : (0x00000000#32 : BitVec FTy.f32.bits) = FKind.add.neutral .f32 hφ)
    (hc : (⟨1, ![M]⟩ : Shape).ShapeCasts ⟨2, ![M, 1]⟩) (hb : (⟨2, ![M, 1]⟩ : Shape).Broadcasts ⟨2, ![M, N]⟩) :
    subf (subf L (broadcastTo ⟨2, ![M, N]⟩ (shapeCast ⟨2, ![M, 1]⟩ (multiReduction .maximumf [1] ⟨1, ![M]⟩ L 0xFF800000#32 hr hφ hm) hc) hb))
      (broadcastTo ⟨2, ![M, N]⟩ (log (shapeCast ⟨2, ![M, 1]⟩
        (multiReduction .add [1] ⟨1, ![M]⟩
          (exp (subf L (broadcastTo ⟨2, ![M, N]⟩ (shapeCast ⟨2, ![M, 1]⟩ (multiReduction .maximumf [1] ⟨1, ![M]⟩ L 0xFF800000#32 hr hφ hm) hc) hb)))
          0x00000000#32 hr hφ ha) hc)) hb)
      = logSoftmax L := by
  have hmax : ∀ (p : Fin M) (q : Fin N),
      broadcastTo ⟨2, ![M, N]⟩ (shapeCast ⟨2, ![M, 1]⟩ (multiReduction .maximumf [1] ⟨1, ![M]⟩ L 0xFF800000#32 hr hφ hm) hc) hb (ix2 p q)
        = rowMax L p := by
    intro p q
    rw [Cert.Lib.BlockOps.colSpread_apply, Cert.Lib.BlockOps.rowMax_apply]
    rfl
  funext i
  obtain ⟨p, q, rfl⟩ : ∃ (p : Fin M) (q : Fin N), i = ix2 p q := ⟨i 0, i 1, eq_ix2 i⟩
  rw [subf_apply, subf_apply, hmax, Cert.Lib.Column.colBroadcast_apply, logSoftmax_apply]
  refine congrArg (fun s => (L (ix2 p q) - rowMax L p) - s) ?_
  show FloatOps.log (shapeCast ⟨2, ![M, 1]⟩ _ hc (ix2 p (0 : Fin 1))) = _
  rw [Cert.Lib.Column.col_apply, Cert.Lib.BlockOps.rowSum_apply]
  refine congrArg Ideal.log (Finset.sum_congr rfl fun k _ => ?_)
  show FloatOps.exp (subf L _ (ix2 p k)) = _
  rw [subf_apply, hmax]
  rfl

end Cert.Lib.LogSoftmax

end
-- ==== Proof.LibHostLogSoftmax.lean ====
/-
  The host's spelling of a linear layer and of the row-wise log-softmax, read as the whole-array functions.

  The host writes a linear layer as a `dot_general` plus the bias broadcast in two steps to the matrix's shape, and the
  row-wise log-softmax as: the row maximum by a `reduce` from −∞ (then once more the maximum with a broadcast −∞,
  which changes nothing, the fold having started there), the difference, the exponential, the row sum by a `reduce` from
  zero, the logarithm, and the second difference — the maximum and the sum each set up as an `M × 1` column and
  repeated along the row. Entry by entry these are `lin` and `logSoftmax`.
-/
import Idealize.ShloMosaic.Lib.ValueIdx
import Idealize.ShloMosaic.Lib.Pipeline.Value
import Idealize.ShloMosaic.Lib.IdealHost
import Idealize.ShloMosaic.PureOps.Ideal.Laws
import proofs.«172584_j2791728742833_2_alg».proof.Proof.LibLogSoftmax

noncomputable section

open scoped BigOperators

namespace Cert.Lib.LogSoftmax

open Idealize.ShloMosaic Idealize.ShloMosaic.ValueIdx Cert.Lib.BiasDot Cert.Lib.Dense Cert.Lib.RowLayers

variable {M K N : Nat}

/-- The host's linear layer without a positive part: product, bias broadcast in two steps, sum. -/
theorem host_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W)
        (broadcastInDim ⟨2, ![M, N]⟩ ![0, 1] h2 (broadcastInDim ⟨2, ![1, N]⟩ ![1] h1 B))
      = lin X W B := by
  subst hd
  funext i
  obtain ⟨p, q, rfl⟩ : ∃ (p : Fin M) (q : Fin N), i = ix2 p q := ⟨i 0, i 1, eq_ix2 i⟩
  rw [addf_apply, hostRow_apply]
  exact congrArg (fun z => z + B (ix1 q)) (Cert.Lib.PlainDot.dotGeneral_apply none _ X W p q)

/-- A vector of `M` row values set up as an `M × 1` column: at `(p, 0)`, the vector at `p`. -/
theorem colIn_apply {α : Type} (v : (⟨1, ![M]⟩ : Shape).Idx → α)
    (hb1 : (⟨1, ![M]⟩ : Shape).BroadcastsInDim ⟨2, ![M, 1]⟩ ![0]) (p : Fin M) :
    broadcastInDim ⟨2, ![M, 1]⟩ ![0] hb1 v (ix2 p (0 : Fin 1)) = v (ix1 p) := by
  refine broadcastInDim_apply ![0] hb1 v (ix2 p (0 : Fin 1)) (ix1 p) (fun a => ?_)
  match a with
  | ⟨0, _⟩ =>
    show p.val = if M = 1 then 0 else p.val
    split
    · have := p.isLt; omega
    · rfl

/-- An `M × 1` column repeated along `N` columns: at `(p, q)`, the column at `(p, 0)`. -/
theorem spreadIn_apply {α : Type} (v : (⟨2, ![M, 1]⟩ : Shape).Idx → α)
    (hb2 : (⟨2, ![M, 1]⟩ : Shape).BroadcastsInDim ⟨2, ![M, N]⟩ ![0, 1]) (p : Fin M) (q : Fin N) :
    broadcastInDim ⟨2, ![M, N]⟩ ![0, 1] hb2 v (ix2 p q) = v (ix2 p (0 : Fin 1)) := by
  refine broadcastInDim_apply ![0, 1] hb2 v (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- The host's row-wise shifted log-softmax is `logSoftmax`. -/
theorem host_logSoftmax (L : FVec Ideal ⟨2, ![M, N]⟩ .f32)
    (hr' : (⟨2, ![M, N]⟩ : Shape).ReducesTo [1] ⟨1, ![M]⟩) (hr : (⟨2, ![M, N]⟩ : Shape).Reduces [1] ⟨1, ![M]⟩)
    (hu : 0 < (⟨0, ![]⟩ : Shape).numel)
    (hb0 : (⟨0, ![]⟩ : Shape).BroadcastsInDim ⟨1, ![M]⟩ ![])
    (hb1 : (⟨1, ![M]⟩ : Shape).BroadcastsInDim ⟨2, ![M, 1]⟩ ![0])
    (hb2 : (⟨2, ![M, 1]⟩ : Shape).BroadcastsInDim ⟨2, ![M, N]⟩ ![0, 1]) :
    subf (subf L (broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf L (constant (F := Ideal) ⟨0, ![]⟩ .f32 0xFF800000#32) hr' hu)))))
      (broadcastInDim ⟨2, ![M, N]⟩ ![0, 1] hb2 (Host.log (broadcastInDim ⟨2, ![M, 1]⟩ ![0] hb1
        (Host.reduceAdd
          (Host.exp (subf L (broadcastInDim ⟨2, ![M, N]⟩ ![0, 1] hb2 (broadcastInDim ⟨2, ![M, 1]⟩ ![0] hb1
            (maximumf (broadcastInDim ⟨1, ![M]⟩ ![] hb0 (constant (F := Ideal) ⟨0, ![]⟩ .f32 0xFF800000#32))
              (Host.reduce FloatOps.maximumf L (constant (F := Ideal) ⟨0, ![]⟩ .f32 0xFF800000#32) hr' hu))))))
          (constant (F := Ideal) ⟨0, ![]⟩ .f32 0x00000000#32) hr' hu))))
      = logSoftmax L := by
  have hmax : ∀ (p : Fin M) (q : Fin N),
      broadcastInDim ⟨2, ![M, N]⟩ ![0, 1] hb2 (broadcastInDim ⟨2, ![M, 1]⟩ ![0] hb1
          (maximumf (broadcastInDim ⟨1, ![M]⟩ ![] hb0 (constant (F := Ideal) ⟨0, ![]⟩ .f32 0xFF800000#32))
            (Host.reduce FloatOps.maximumf L (constant (F := Ideal) ⟨0, ![]⟩ .f32 0xFF800000#32) hr' hu))) (ix2 p q)
        = rowMax L p := by
    intro p q
    rw [spreadIn_apply, colIn_apply, maximumf_apply, broadcastInDim_scalar_apply,
      Host.reduce_eq_fold_single FloatOps.maximumf L _ hr' hr hu (ix1 p)]
    have e : (L ∘ hr.lift (ix1 p)) = fun k : Fin N => L (ix2 p k) :=
      funext fun k => congrArg L (Cert.Lib.BlockOps.lift_row hr p k)
    rw [e]
    show max (Ideal.ofBits .f32 0xFF800000#32)
        ((Finset.univ : Finset (Fin N)).fold max (Ideal.ofBits .f32 0xFF800000#32) (fun k => L (ix2 p k))) = _
    exact max_eq_right ((Finset.le_fold_max _).mpr (Or.inl le_rfl))
  funext i
  obtain ⟨p, q, rfl⟩ : ∃ (p : Fin M) (q : Fin N), i = ix2 p q := ⟨i 0, i 1, eq_ix2 i⟩
  rw [subf_apply, subf_apply, hmax, spreadIn_apply, logSoftmax_apply]
  refine congrArg (fun s => (L (ix2 p q) - rowMax L p) - s) ?_
  show FloatOps.hostUnary .log (broadcastInDim (s := ⟨1, ![M]⟩) ⟨2, ![M, 1]⟩ ![0] hb1 _ (ix2 p (0 : Fin 1))) = _
  rw [colIn_apply]
  show Ideal.log (Ideal.hostReduceAdd hr' _ (Ideal.ofBits .f32 0x00000000#32) (ix1 p)) = _
  rw [Ideal.hostReduceAdd_single hr' hr, Ideal.ofBits_zero_f32, zero_add]
  refine congrArg Ideal.log (Finset.sum_congr (s₁ := (Finset.univ : Finset (Fin N))) rfl fun k _ => ?_)
  show FloatOps.hostUnary .exp (subf L _ (hr.lift (ix1 p) k)) = _
  rw [Cert.Lib.BlockOps.lift_row hr p k, subf_apply, hmax]
  rfl

end Cert.Lib.LogSoftmax

end
-- ==== Proof.LibProductRows.lean ====
/-
  Matrix products and linear layers on a block of rows, as whole-array functions on the extended reals.

  * A matrix unit's product of two operands narrowed to a shorter float format, accumulated into zero, is the plain
    product `mm` of the operands: narrowing is the identity on extended reals.
  * An entry of a product depends on one row of the left operand and one column of the right: a block of rows of a
    taller array computes the entries of the whole array's product at those rows (`mm_block`), and the same for a
    product plus a 1 x N bias row (`lin_block`).
  * The host's product plus a bias broadcast in two steps is the linear layer `lin`, and a linear layer is the product
    with the row added.
-/
import Idealize.ShloMosaic.Lib.ValueIdx
import Idealize.ShloMosaic.Lib.Pipeline.Value
import Idealize.ShloMosaic.PureOps.Ideal.Laws
import proofs.«172584_j2791728742833_2_alg».proof.Proof.LibRowLayers

noncomputable section

open scoped BigOperators

namespace Cert.Lib.ProductRows

open Idealize.ShloMosaic Idealize.ShloMosaic.ValueIdx Cert.Lib.BiasDot Cert.Lib.Dense Cert.Lib.RowLayers

variable {m M K N : Nat}

/-- The product into zero of two narrowed operands is the plain product of the operands. -/
theorem narrowMatmul_eq_mm (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32)
    (hb0 hb1 : FTy.bf16.bits < FTy.f32.bits) :
    FloatOps.matmul d none (truncf .bf16 x0 hb0) (truncf .bf16 x1 hb1) (constant ⟨2, ![M, N]⟩ .f32 0x00000000#32)
      = mm x0 x1 := by
  subst hd
  funext i
  obtain ⟨p, q, rfl⟩ : ∃ (p : Fin M) (q : Fin N), i = ix2 p q := ⟨i 0, i 1, eq_ix2 i⟩
  rw [Cert.Lib.PlainDot.matmul_zero_apply]
  rfl

/-- A block of rows of a product: entry `j` of the block's product is entry `i` of the array's when the block's row
    `j 0` is the array's row `i 0` and the right operands agree on the column. -/
theorem mm_block (x0 : (⟨2, ![m, K]⟩ : Shape).Idx → EReal) (x1 : (⟨2, ![K, N]⟩ : Shape).Idx → EReal)
    (A : (⟨2, ![M, K]⟩ : Shape).Idx → EReal) (W : (⟨2, ![K, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1))) :
    mm x0 x1 j = mm A W i :=
  Finset.sum_congr rfl fun k _ => by rw [h0 k, h1 k]

/-- The same for a product plus a 1 x N bias row. -/
theorem lin_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    lin x0 x1 (rowVec x2) j = lin A W (rowVec R) i := by
  show (∑ k : Fin K, x0 (ix2 (j 0) k) * x1 (ix2 k (j 1))) + x2 (ix2 (0 : Fin 1) (j 1))
    = (∑ k : Fin K, A (ix2 (i 0) k) * W (ix2 k (i 1))) + R (ix2 (0 : Fin 1) (i 1))
  rw [h2]
  exact congrArg (fun z => z + R (ix2 (0 : Fin 1) (i 1))) (Finset.sum_congr rfl fun k _ => by rw [h0 k, h1 k])

/-- The host's product plus a bias vector broadcast to a row and then down the rows is the linear layer. -/
theorem host_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W)
        (broadcastInDim ⟨2, ![M, N]⟩ ![0, 1] h2 (broadcastInDim ⟨2, ![1, N]⟩ ![1] h1 B))
      = lin X W B := by
  rw [host_addRow, host_mm d hd]
  rfl

end Cert.Lib.ProductRows

end
-- ==== Proof.LibRowScatter.lean ====
/-
  A row gather and a row scatter-add, read at an index.

  For a table `x` of `N` rows and `C` columns and a column `idx` of `M` integer words:

  * the gather of rows takes result row `e` from the operand row `idx[e]` read as a signed integer and clamped into
    `[0, N − 1]`: entry `(e, c)` of the result is `x (gatherRow idx e, c)`;
  * the scatter-add of rows adds update row `e` into the operand row `idx[e]` read as a signed integer and not
    clamped (an update whose row is outside `[0, N − 1]` is dropped): entry `(n, c)` of the result is
    `x (n, c) + ∑ e ∈ landsOn idx N n, upd (e, c)`, the sum over the update rows whose index is `n`.

  Neither the row `gatherRow idx e` nor the set `landsOn idx N n` depends on the number of columns or on the entries.
-/
import Idealize.ShloMosaic.Lib.ValueIdx
import Idealize.ShloMosaic.PureOps.Ideal.Laws
import Idealize.ShloMosaic.Lib.Pipeline.Value

noncomputable section

open scoped BigOperators

namespace Cert.Lib.RowScatter

open Idealize.ShloMosaic Idealize.ShloMosaic.ValueIdx

/-! ## The gather of rows -/

section Gather
variable {α : Type}

/-- The dimension numbers of a gather of whole rows: operand `[N, C]`, start indices `[M, 1]`, result `[M, C]`;
    the result's axis 1 is the offset axis, the operand's axis 0 is collapsed and is the one the start index names,
    the index vector lies along axis 1 of the start indices, and a slice is one row, `1 × C`. Their conditions `wf`
    are decided on literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The operand row that result row `e` reads: the word `idx (e, 0)` as a signed integer, negative values taken to
    `0`, then cut to at most `N − 1`. It depends on neither the number of columns nor the entries. -/
def gatherRow (N : Nat) (hN : 0 < N) {M w : Nat} (idx : IVec ⟨2, ![M, 1]⟩ w) (e : Fin M) : Fin N :=
  ⟨min (idx (ix2 e (0 : Fin 1))).toInt.toNat (N - 1), by omega⟩

/-- On the row axis the operand index of result entry `(e, c)` is the clamped start index: no batching coordinate,
    and no offset coordinate on a collapsed axis. -/
theorem gather_operandIdx_zero {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 0).val = min (idx (ix2 e (0 : Fin 1))).toInt.toNat (N - 1) := by
  show (rowGatherDims N M C wf).start (ix2 e c) idx 0 + (rowGatherDims N M C wf).batchCoord (ix2 e c) 0
    + (rowGatherDims N M C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N M C wf).startIndexMap from List.mem_singleton.mpr rfl)]
  have hsi : (rowGatherDims N M C wf).siIdx (ix2 e c) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand index of result entry `(e, c)` is `c`: the start is `0` on an axis the start
    index does not name, and the offset coordinate is the result's column. -/
theorem gather_operandIdx_one {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (c : Fin C) :
    ((rowGatherDims N M C wf).operandIdx (ix2 e c) idx 1).val = c.val := by
  show (rowGatherDims N M C wf).start (ix2 e c) idx 1 + (rowGatherDims N M C wf).batchCoord (ix2 e c) 1
    + (rowGatherDims N M C wf).offCoord (ix2 e c) 1 = _
  rw [GatherDims.batchCoord_eq_zero _ _ _ List.not_mem_nil]
  have hs : (rowGatherDims N M C wf).start (ix2 e c) idx 1 = 0 := by
    unfold GatherDims.start
    rw [dif_neg (fun h => absurd (List.mem_singleton.mp h) (show ¬ ((1 : Fin 2) = 0) by decide))]
  rw [hs]
  simp only [Nat.add_zero, Nat.zero_add]
  unfold GatherDims.offCoord
  rw [dif_pos ((GatherDims.mem_sKept _ _).mpr
    ⟨fun h => absurd (List.mem_singleton.mp h) (show ¬ ((1 : Fin 2) = 0) by decide), List.not_mem_nil⟩)]
  rfl

/-- THE GATHER OF ROWS READ AT `(e, c)`: the operand at row `gatherRow N hN idx e` — the start index `idx (e, 0)` read
    signed and clamped into `[0, N − 1]` — and column `c`. -/
theorem gather_rows_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowGatherDims N M C wf) x idx (ix2 e c) = x (ix2 (gatherRow N hN idx e) c) := by
  unfold Host.gather
  congr 1
  funext a
  match a with
  | ⟨0, _⟩ => exact Fin.ext (gather_operandIdx_zero wf idx e c)
  | ⟨1, _⟩ => exact Fin.ext (gather_operandIdx_one wf idx e c)

end Gather

/-! ## The scatter-add of rows -/

section Scatter

/-- The dimension numbers of a scatter of whole rows: operand `[N, C]`, scatter indices `[M, 1]`, updates `[M, C]`;
    the updates' axis 1 is the window axis, the operand's axis 0 is inserted and is the one the scatter index names,
    and the index vector lies along axis 1 of the scatter indices. Their conditions `wf` are decided on literal
    shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The update rows that land on operand row `n`: the rows `e` whose index word `idx (e, 0)`, read as a signed
    integer and not clamped, is `n`. It depends on neither the number of columns nor the entries. -/
def landsOn {M w : Nat} (idx : IVec ⟨2, ![M, 1]⟩ w) (N : Nat) (n : Fin N) : Finset (Fin M) :=
  Finset.univ.filter (fun e => (idx (ix2 e (0 : Fin 1))).toInt = (n.val : Int))

/-- An axis is among the kept axes exactly when it is not among the removed ones. -/
theorem mem_kept {s : Shape} (axes : List (Fin s.rank)) (a : Fin s.rank) : a ∈ s.kept axes ↔ a ∉ axes := by
  simp [Shape.kept, List.mem_filter, List.mem_finRange]

/-- An update index `j` lands at the operand index `i` exactly when, on every axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have h' := Option.some.inj h
      have h2 : (d.start j idx a + (d.window j a : Int)).toNat = (i a).val := congrArg Fin.val (congrFun h' a)
      have := hb a
      omega
    · cases h
  · intro h
    have hb : ∀ a, 0 ≤ d.start j idx a + (d.window j a : Int) ∧ d.start j idx a + (d.window j a : Int) < s.size a := by
      intro a
      rw [h a]
      exact ⟨Int.natCast_nonneg _, by exact_mod_cast (i a).isLt⟩
    rw [dif_pos hb]
    congr 1
    funext a
    apply Fin.ext
    show (d.start j idx a + (d.window j a : Int)).toNat = (i a).val
    rw [h a]
    exact Int.toNat_natCast _

/-- On the row axis the start of update entry `(e, c)` is the index word `idx (e, 0)` read as a signed integer. -/
theorem scatter_start_zero {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e c)
      ⟨List.idxOf (0 : Fin 2) (rowScatterDims N M C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter index does not name, the start is `0`. -/
theorem scatter_start_one {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (rowScatterDims N M C wf).start (ix2 e c) idx 1 = 0 := by
  unfold ScatterDims.start
  rw [dif_neg (fun h => absurd (List.mem_singleton.mp h) (show ¬ ((1 : Fin 2) = 0) by decide))]

/-- On the row axis, an inserted one, the window coordinate is `0`. -/
theorem scatter_window_zero {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 0 = 0 := by
  unfold ScatterDims.window
  rw [dif_neg (fun h => (mem_kept _ _).mp h (List.mem_singleton.mpr rfl))]

/-- On the column axis the window coordinate of update entry `(e, c)` is `c`. -/
theorem scatter_window_one {N M C : Nat} (wf : ScatterDims.WF ⟨2, ![N, C]⟩ ⟨2, ![M, 1]⟩ ⟨2, ![M, C]⟩ [1] [0] [0] 1)
    (e : Fin M) (c : Fin C) :
    (rowScatterDims N M C wf).window (ix2 e c) 1 = c.val := by
  unfold ScatterDims.window
  rw [dif_pos ((mem_kept _ _).mpr
    (fun h => absurd (List.mem_singleton.mp h) (show ¬ ((1 : Fin 2) = 0) by decide)))]
  rfl

/-- Update entry `(e, c')` lands at operand entry `(n, c)` exactly when the columns agree and the signed index word
    of row `e` is `n`. -/
theorem resultIdx?_rows {N M C w : Nat} (wf : ScatterDims.WF ⟨2, ![N, C]⟩ ⟨2, ![M, 1]⟩ ⟨2, ![M, C]⟩ [1] [0] [0] 1)
    (idx : IVec ⟨2, ![M, 1]⟩ w) (e : Fin M) (c' c : Fin C) (n : Fin N) :
    (rowScatterDims N M C wf).resultIdx? (ix2 e c') idx = some (ix2 n c)
      ↔ c' = c ∧ (idx (ix2 e (0 : Fin 1))).toInt = (n.val : Int) := by
  rw [resultIdx?_eq_some_iff]
  rw [Fin.forall_fin_two]
  rw [scatter_start_zero, scatter_window_zero, scatter_start_one, scatter_window_one]
  show ((idx (ix2 e (0 : Fin 1))).toInt + ((0 : Nat) : Int) = (n.val : Int)
    ∧ (0 : Int) + (c'.val : Int) = (c.val : Int)) ↔ _
  constructor
  · rintro ⟨h0, h1⟩
    exact ⟨Fin.ext (by omega), by omega⟩
  · rintro ⟨rfl, h⟩
    exact ⟨by omega, by omega⟩

/-- THE SCATTER-ADD OF ROWS READ AT `(n, c)`: the operand's entry plus the sum, over the update rows `e` whose signed
    index word is `n`, of the update's entry `(e, c)`. -/
theorem scatterAdd_rows_apply {N M C w : Nat}
    (wf : ScatterDims.WF ⟨2, ![N, C]⟩ ⟨2, ![M, 1]⟩ ⟨2, ![M, C]⟩ [1] [0] [0] 1)
    (x : FVec Ideal ⟨2, ![N, C]⟩ .f32) (idx : IVec ⟨2, ![M, 1]⟩ w) (upd : FVec Ideal ⟨2, ![M, C]⟩ .f32)
    (n : Fin N) (c : Fin C) :
    Host.scatterAdd (F := Ideal) (rowScatterDims N M C wf) x idx upd (ix2 n c)
      = x (ix2 n c) + ∑ e ∈ landsOn idx N n, upd (ix2 e c) := by
  unfold Host.scatterAdd
  rw [Ideal.hostScatterAdd_def]
  unfold Ideal.hostScatterAdd
  congr 1
  rw [Finset.sum_filter, sum_idx2]
  unfold landsOn
  rw [Finset.sum_filter]
  refine Finset.sum_congr rfl (fun e _ => ?_)
  simp only [resultIdx?_rows]
  by_cases hP : (idx (ix2 e (0 : Fin 1))).toInt = (n.val : Int)
  · simp [hP]
  · simp [hP]

end Scatter

end Cert.Lib.RowScatter

end
-- ==== Proof.LibAggregate.lean ====
/-
  The normalised aggregation of a graph layer, read at an entry.

  For a table `h` of `N` rows and `C` columns, a column `src` of `M` source words, a column `dst` of `M` destination
  words and a weight `w e` per edge `e`, the aggregation gathers row `src e` of `h` for every edge, scales it by `w e`
  and adds it into row `dst e` of a table of zeros. Entry `(n, c)` of the result is
  `0 + ∑ e ∈ edges landing on n, h (row read by e, c) · w e`:
  neither the set of edges landing on `n` nor the row an edge reads depends on the column or on the number of columns, which
  is what lets two tables laid side by side be aggregated at once.
-/
import proofs.«172584_j2791728742833_2_alg».proof.Proof.LibRowScatter

noncomputable section

open scoped BigOperators

namespace Cert.Lib.Aggregate

open Idealize.ShloMosaic Idealize.ShloMosaic.ValueIdx Cert.Lib.RowScatter

/-- A vector of `M` entries made a column and spread along `C` columns, read at `(e, c)`: entry `e`. -/
theorem spread_apply {α : Type} {M C : Nat} (hM : M ≠ 1)
    (h₁ : (⟨1, ![M]⟩ : Shape).BroadcastsInDim ⟨2, ![M, 1]⟩ (![0] : Fin 1 → Fin 2))
    (h₂ : (⟨2, ![M, 1]⟩ : Shape).BroadcastsInDim ⟨2, ![M, C]⟩ (![0, 1] : Fin 2 → Fin 2))
    (v : (⟨1, ![M]⟩ : Shape).Idx → α) (e : Fin M) (c : Fin C) :
    broadcastInDim ⟨2, ![M, C]⟩ ![0, 1] h₂ (broadcastInDim ⟨2, ![M, 1]⟩ ![0] h₁ v) (ix2 e c) = v (ix1 e) := by
  rw [broadcastInDim_apply ![0, 1] h₂ _ (ix2 e c) (ix2 e (0 : Fin 1)) (fun a => by
      match a with
      | ⟨0, _⟩ => show e.val = if M = 1 then 0 else e.val; rw [if_neg hM]
      | ⟨1, _⟩ => show 0 = if (1 : Nat) = 1 then 0 else c.val; rw [if_pos rfl]),
    broadcastInDim_apply ![0] h₁ v (ix2 e (0 : Fin 1)) (ix1 e) (fun a => by
      match a with
      | ⟨0, _⟩ => show e.val = if M = 1 then 0 else e.val; rw [if_neg hM])]

/-- A vector of `M` words made a column, read at `(e, 0)`: word `e`. -/
theorem column_apply {α : Type} {M : Nat} (hM : M ≠ 1)
    (h₁ : (⟨1, ![M]⟩ : Shape).BroadcastsInDim ⟨2, ![M, 1]⟩ (![0] : Fin 1 → Fin 2))
    (v : (⟨1, ![M]⟩ : Shape).Idx → α) (e : Fin M) :
    broadcastInDim ⟨2, ![M, 1]⟩ ![0] h₁ v (ix2 e (0 : Fin 1)) = v (ix1 e) :=
  broadcastInDim_apply ![0] h₁ v (ix2 e (0 : Fin 1)) (ix1 e) (fun a => by
    match a with
    | ⟨0, _⟩ => show e.val = if M = 1 then 0 else e.val; rw [if_neg hM])

/-- The aggregation as the host spells it: a scatter-add, into a table of zeros, of the gathered rows each scaled by its
    edge's weight. -/
def aggregate {N M C : Nat}
    (wfS : ScatterDims.WF ⟨2, ![N, C]⟩ ⟨2, ![M, 1]⟩ ⟨2, ![M, C]⟩ [1] [0] [0] 1)
    (wfG : GatherDims.WF ⟨2, ![N, C]⟩ ⟨2, ![M, 1]⟩ ⟨2, ![M, C]⟩ [1] [0] [] [0] [] 1 ![1, C])
    (hz : (⟨0, ![]⟩ : Shape).BroadcastsInDim ⟨2, ![N, C]⟩ (![] : Fin 0 → Fin 2))
    (h₁ : (⟨1, ![M]⟩ : Shape).BroadcastsInDim ⟨2, ![M, 1]⟩ (![0] : Fin 1 → Fin 2))
    (h₂ : (⟨2, ![M, 1]⟩ : Shape).BroadcastsInDim ⟨2, ![M, C]⟩ (![0, 1] : Fin 2 → Fin 2))
    (h : FVec Ideal ⟨2, ![N, C]⟩ .f32) (src dst : IVec ⟨2, ![M, 1]⟩ 32) (w : FVec Ideal ⟨1, ![M]⟩ .f32) :
    FVec Ideal ⟨2, ![N, C]⟩ .f32 :=
  Host.scatterAdd (F := Ideal) (rowScatterDims N M C wfS)
    (broadcastInDim ⟨2, ![N, C]⟩ ![] hz (constant (F := Ideal) ⟨0, ![]⟩ .f32 0x00000000#32)) dst
    (mulf (Host.gather (rowGatherDims N M C wfG) h src)
      (broadcastInDim ⟨2, ![M, C]⟩ ![0, 1] h₂ (broadcastInDim ⟨2, ![M, 1]⟩ ![0] h₁ w)))

/-- THE AGGREGATION READ AT `(n, c)`: the zero word plus the sum, over the edges whose signed destination word is `n`,
    of the table's entry at the edge's clamped source row and column `c` times the edge's weight. -/
theorem aggregate_apply {N M C : Nat} (hN : 0 < N) (hM : M ≠ 1)
    (wfS : ScatterDims.WF ⟨2, ![N, C]⟩ ⟨2, ![M, 1]⟩ ⟨2, ![M, C]⟩ [1] [0] [0] 1)
    (wfG : GatherDims.WF ⟨2, ![N, C]⟩ ⟨2, ![M, 1]⟩ ⟨2, ![M, C]⟩ [1] [0] [] [0] [] 1 ![1, C])
    (hz : (⟨0, ![]⟩ : Shape).BroadcastsInDim ⟨2, ![N, C]⟩ (![] : Fin 0 → Fin 2))
    (h₁ : (⟨1, ![M]⟩ : Shape).BroadcastsInDim ⟨2, ![M, 1]⟩ (![0] : Fin 1 → Fin 2))
    (h₂ : (⟨2, ![M, 1]⟩ : Shape).BroadcastsInDim ⟨2, ![M, C]⟩ (![0, 1] : Fin 2 → Fin 2))
    (h : FVec Ideal ⟨2, ![N, C]⟩ .f32) (src dst : IVec ⟨2, ![M, 1]⟩ 32) (w : FVec Ideal ⟨1, ![M]⟩ .f32)
    (n : Fin N) (c : Fin C) :
    aggregate wfS wfG hz h₁ h₂ h src dst w (ix2 n c)
      = Ideal.ofBits .f32 0x00000000#32 + ∑ e ∈ landsOn dst N n, h (ix2 (gatherRow N hN src e) c) * w (ix1 e) := by
  unfold aggregate
  rw [scatterAdd_rows_apply]
  congr 1
  refine Finset.sum_congr rfl fun e _ => ?_
  show (Host.gather (rowGatherDims N M C wfG) h src (ix2 e c) : EReal)
      * broadcastInDim ⟨2, ![M, C]⟩ ![0, 1] h₂ (broadcastInDim ⟨2, ![M, 1]⟩ ![0] h₁ w) (ix2 e c) = _
  rw [gather_rows_apply hN, spread_apply hM]

end Cert.Lib.Aggregate

end
-- ==== Proof.LibGcnEpilogue.lean ====
/-
  The epilogue of a graph-convolution layer as whole-array functions on the extended reals.

  A layer receives the aggregated neighbour rows `a`, the node rows `h` themselves and, per node `n`, the factor
  `d n` of its self-loop. Its combined input is `comb a h d (n, k) = a (n, k) + h (n, k) · d n`. The three layers of the
  network finish differently:
    * the first multiplies the combined input by `W1`, adds `b1`, takes the positive part and multiplies by `W2`;
    * the second adds `b2` to the combined input, takes the positive part and multiplies by `W3`;
    * the third adds `b3` to the combined input and takes the row-wise logarithm of the softmax.
  Every entry of each depends on ONE row of `a`, `h` and `d` only, so a block of rows pushed through a layer computes the
  entries of the whole array's layer at those rows (`layer1_rows`, `layer2_rows`, `layer3_rows`).

  Also here: how a vector unit and how the host spell the combined input, the added bias row and the positive part, each
  read whole as one of these functions.
-/
import Idealize.ShloMosaic.Lib.ValueIdx
import Idealize.ShloMosaic.Lib.Pipeline.Value
import Idealize.ShloMosaic.PureOps.Ideal.Laws
import proofs.«172584_j2791728742833_2_alg».proof.Proof.LibLogSoftmax
import proofs.«172584_j2791728742833_2_alg».proof.Proof.LibHostLogSoftmax
import proofs.«172584_j2791728742833_2_alg».proof.Proof.LibProductRows
import proofs.«172584_j2791728742833_2_alg».proof.Proof.LibAggregate

noncomputable section

open scoped BigOperators

namespace Cert.Gcn

open Idealize.ShloMosaic Idealize.ShloMosaic.ValueIdx Cert.Lib.BiasDot Cert.Lib.Dense Cert.Lib.RowLayers Cert.Lib.LogSoftmax

variable {m M K N N' : Nat}

/-- An `M × 1` column read as a vector of length `M`. -/
def colVec (D : (⟨2, ![M, 1]⟩ : Shape).Idx → EReal) : (⟨1, ![M]⟩ : Shape).Idx → EReal :=
  fun j => D (ix2 (j 0) (0 : Fin 1))

/-- The aggregated neighbour rows plus the node's own row times the node's factor. -/
def comb (a h : (⟨2, ![M, N]⟩ : Shape).Idx → EReal) (d : (⟨1, ![M]⟩ : Shape).Idx → EReal) :
    (⟨2, ![M, N]⟩ : Shape).Idx → EReal := fun i => a i + h i * d (ix1 (i 0))

theorem comb_apply (a h : (⟨2, ![M, N]⟩ : Shape).Idx → EReal) (d : (⟨1, ![M]⟩ : Shape).Idx → EReal) (p : Fin M) (q : Fin N) :
    comb a h d (ix2 p q) = a (ix2 p q) + h (ix2 p q) * d (ix1 p) := rfl

/-- A row of the combined input depends on that row of the three operands only. -/
theorem comb_rows (x0 x1 : (⟨2, ![m, N]⟩ : Shape).Idx → EReal) (x2 : (⟨2, ![m, 1]⟩ : Shape).Idx → EReal)
    (A0 A1 : (⟨2, ![M, N]⟩ : Shape).Idx → EReal) (D : (⟨2, ![M, 1]⟩ : Shape).Idx → EReal) (p : Fin m) (p' : Fin M)
    (h0 : ∀ k : Fin N, x0 (ix2 p k) = A0 (ix2 p' k)) (h1 : ∀ k : Fin N, x1 (ix2 p k) = A1 (ix2 p' k))
    (h2 : x2 (ix2 p (0 : Fin 1)) = D (ix2 p' (0 : Fin 1))) (k : Fin N) :
    comb x0 x1 (colVec x2) (ix2 p k) = comb A0 A1 (colVec D) (ix2 p' k) := by
  show x0 (ix2 p k) + x1 (ix2 p k) * x2 (ix2 p (0 : Fin 1)) = A0 (ix2 p' k) + A1 (ix2 p' k) * D (ix2 p' (0 : Fin 1))
  rw [h0 k, h1 k, h2]

/-- The first layer: the combined input through a linear layer, the positive part, then a product. -/
def layer1 (a x : (⟨2, ![M, K]⟩ : Shape).Idx → EReal) (D : (⟨2, ![M, 1]⟩ : Shape).Idx → EReal)
    (W1 : (⟨2, ![K, N]⟩ : Shape).Idx → EReal) (B1 : (⟨2, ![1, N]⟩ : Shape).Idx → EReal)
    (W2 : (⟨2, ![N, N']⟩ : Shape).Idx → EReal) : (⟨2, ![M, N']⟩ : Shape).Idx → EReal :=
  mm (relu (lin (comb a x (colVec D)) W1 (rowVec B1))) W2

/-- The second layer: the combined input plus the bias row, the positive part, then a product. -/
def layer2 (a h : (⟨2, ![M, N]⟩ : Shape).Idx → EReal) (D : (⟨2, ![M, 1]⟩ : Shape).Idx → EReal)
    (B : (⟨2, ![1, N]⟩ : Shape).Idx → EReal) (W : (⟨2, ![N, N']⟩ : Shape).Idx → EReal) :
    (⟨2, ![M, N']⟩ : Shape).Idx → EReal :=
  mm (relu (addRow (comb a h (colVec D)) (rowVec B))) W

/-- The third layer: the combined input plus the bias row, then the row-wise logarithm of the softmax. -/
def layer3 (a h : (⟨2, ![M, N]⟩ : Shape).Idx → EReal) (D : (⟨2, ![M, 1]⟩ : Shape).Idx → EReal)
    (B : (⟨2, ![1, N]⟩ : Shape).Idx → EReal) : (⟨2, ![M, N]⟩ : Shape).Idx → EReal :=
  logSoftmax (addRow (comb a h (colVec D)) (rowVec B))

/-- The first layer on a block of rows is the first layer of the whole arrays at those rows. -/
theorem layer1_rows (x0 x1 : (⟨2, ![m, K]⟩ : Shape).Idx → EReal) (x2 : (⟨2, ![m, 1]⟩ : Shape).Idx → EReal)
    (A0 A1 : (⟨2, ![M, K]⟩ : Shape).Idx → EReal) (D : (⟨2, ![M, 1]⟩ : Shape).Idx → EReal)
    (W1 : (⟨2, ![K, N]⟩ : Shape).Idx → EReal) (B1 : (⟨2, ![1, N]⟩ : Shape).Idx → EReal)
    (W2 : (⟨2, ![N, N']⟩ : Shape).Idx → EReal) (p : Fin m) (p' : Fin M) (q : Fin N')
    (h0 : ∀ k : Fin K, x0 (ix2 p k) = A0 (ix2 p' k)) (h1 : ∀ k : Fin K, x1 (ix2 p k) = A1 (ix2 p' k))
    (h2 : x2 (ix2 p (0 : Fin 1)) = D (ix2 p' (0 : Fin 1))) :
    layer1 x0 x1 x2 W1 B1 W2 (ix2 p q) = layer1 A0 A1 D W1 B1 W2 (ix2 p' q) := by
  show (∑ k : Fin N, relu (lin (comb x0 x1 (colVec x2)) W1 (rowVec B1)) (ix2 p k) * W2 (ix2 k q))
    = ∑ k : Fin N, relu (lin (comb A0 A1 (colVec D)) W1 (rowVec B1)) (ix2 p' k) * W2 (ix2 k q)
  refine Finset.sum_congr rfl fun k _ => congrArg (fun z => z * W2 (ix2 k q)) ?_
  exact layer_block (comb x0 x1 (colVec x2)) W1 B1 (comb A0 A1 (colVec D)) W1 B1 (ix2 p k) (ix2 p' k)
    (comb_rows x0 x1 x2 A0 A1 D p p' h0 h1 h2) (fun _ => rfl) rfl

/-- A row of the biased, rectified combined input depends on that row only. -/
theorem hidden_rows (x0 x1 : (⟨2, ![m, N]⟩ : Shape).Idx → EReal) (x2 : (⟨2, ![m, 1]⟩ : Shape).Idx → EReal)
    (A0 A1 : (⟨2, ![M, N]⟩ : Shape).Idx → EReal) (D : (⟨2, ![M, 1]⟩ : Shape).Idx → EReal)
    (B : (⟨2, ![1, N]⟩ : Shape).Idx → EReal) (p : Fin m) (p' : Fin M)
    (h0 : ∀ k : Fin N, x0 (ix2 p k) = A0 (ix2 p' k)) (h1 : ∀ k : Fin N, x1 (ix2 p k) = A1 (ix2 p' k))
    (h2 : x2 (ix2 p (0 : Fin 1)) = D (ix2 p' (0 : Fin 1))) (k : Fin N) :
    addRow (comb x0 x1 (colVec x2)) (rowVec B) (ix2 p k) = addRow (comb A0 A1 (colVec D)) (rowVec B) (ix2 p' k) := by
  show comb x0 x1 (colVec x2) (ix2 p k) + rowVec B (ix1 k) = comb A0 A1 (colVec D) (ix2 p' k) + rowVec B (ix1 k)
  rw [comb_rows x0 x1 x2 A0 A1 D p p' h0 h1 h2 k]

/-- The second layer on a block of rows is the second layer of the whole arrays at those rows. -/
theorem layer2_rows (x0 x1 : (⟨2, ![m, N]⟩ : Shape).Idx → EReal) (x2 : (⟨2, ![m, 1]⟩ : Shape).Idx → EReal)
    (A0 A1 : (⟨2, ![M, N]⟩ : Shape).Idx → EReal) (D : (⟨2, ![M, 1]⟩ : Shape).Idx → EReal)
    (B : (⟨2, ![1, N]⟩ : Shape).Idx → EReal) (W : (⟨2, ![N, N']⟩ : Shape).Idx → EReal) (p : Fin m) (p' : Fin M) (q : Fin N')
    (h0 : ∀ k : Fin N, x0 (ix2 p k) = A0 (ix2 p' k)) (h1 : ∀ k : Fin N, x1 (ix2 p k) = A1 (ix2 p' k))
    (h2 : x2 (ix2 p (0 : Fin 1)) = D (ix2 p' (0 : Fin 1))) :
    layer2 x0 x1 x2 B W (ix2 p q) = layer2 A0 A1 D B W (ix2 p' q) := by
  show (∑ k : Fin N, max (addRow (comb x0 x1 (colVec x2)) (rowVec B) (ix2 p k)) 0 * W (ix2 k q))
    = ∑ k : Fin N, max (addRow (comb A0 A1 (colVec D)) (rowVec B) (ix2 p' k)) 0 * W (ix2 k q)
  refine Finset.sum_congr rfl fun k _ => ?_
  rw [hidden_rows x0 x1 x2 A0 A1 D B p p' h0 h1 h2 k]

/-- The third layer on a block of rows is the third layer of the whole arrays at those rows. -/
theorem layer3_rows (x0 x1 : (⟨2, ![m, N]⟩ : Shape).Idx → EReal) (x2 : (⟨2, ![m, 1]⟩ : Shape).Idx → EReal)
    (A0 A1 : (⟨2, ![M, N]⟩ : Shape).Idx → EReal) (D : (⟨2, ![M, 1]⟩ : Shape).Idx → EReal)
    (B : (⟨2, ![1, N]⟩ : Shape).Idx → EReal) (p : Fin m) (p' : Fin M) (q : Fin N)
    (h0 : ∀ k : Fin N, x0 (ix2 p k) = A0 (ix2 p' k)) (h1 : ∀ k : Fin N, x1 (ix2 p k) = A1 (ix2 p' k))
    (h2 : x2 (ix2 p (0 : Fin 1)) = D (ix2 p' (0 : Fin 1))) :
    layer3 x0 x1 x2 B (ix2 p q) = layer3 A0 A1 D B (ix2 p' q) :=
  logSoftmax_rows _ _ p p' q (hidden_rows x0 x1 x2 A0 A1 D B p p' h0 h1 h2)

/-! ## The vector unit's spelling -/

/-- The combined input as a vector unit computes it: the `m × 1` column of factors spread over the lanes. -/
theorem comb_body (x0 x1 : FVec Ideal ⟨2, ![m, N]⟩ .f32) (x2 : FVec Ideal ⟨2, ![m, 1]⟩ .f32)
    (hb : (⟨2, ![m, 1]⟩ : Shape).Broadcasts ⟨2, ![m, N]⟩) :
    addf x0 (mulf x1 (broadcastTo ⟨2, ![m, N]⟩ x2 hb)) = comb x0 x1 (colVec x2) := by
  funext i
  obtain ⟨p, q, rfl⟩ : ∃ (p : Fin m) (q : Fin N), i = ix2 p q := ⟨i 0, i 1, eq_ix2 i⟩
  rw [addf_apply, mulf_apply, Cert.Lib.Column.colBroadcast_apply]
  rfl

/-- A loaded `1 × N` bias row repeated down the rows and added. -/
theorem addRow_body (X : FVec Ideal ⟨2, ![m, N]⟩ .f32) (R : FVec Ideal ⟨2, ![1, N]⟩ .f32)
    (hb : (⟨2, ![1, N]⟩ : Shape).Broadcasts ⟨2, ![m, N]⟩) :
    addf X (broadcastTo ⟨2, ![m, N]⟩ R hb) = addRow X (rowVec R) := by
  funext i
  obtain ⟨p, q, rfl⟩ : ∃ (p : Fin m) (q : Fin N), i = ix2 p q := ⟨i 0, i 1, eq_ix2 i⟩
  rw [addf_apply, rowSpread_apply]
  rfl

/-- The word of −∞ denotes the least extended real. -/
theorem ofBits_neg_inf_f32 : Ideal.ofBits .f32 0xFF800000#32 = ⊥ := by simp [Ideal.ofBits, Ideal.ieee]

/-- The maximum with a splat −∞ changes nothing. -/
theorem max_neg_inf_body {s : Shape} (X : FVec Ideal s .f32) :
    maximumf (broadcast s (Scalar.ofBits (F := Ideal) .f32 0xFF800000#32)) X = X := by
  funext i
  rw [maximumf_apply, broadcast_apply]
  show max (Ideal.ofBits .f32 0xFF800000#32) (X i) = X i
  rw [ofBits_neg_inf_f32]
  exact max_eq_right bot_le

/-! ## The host's spelling -/

/-- The combined input as the host computes it: the vector of factors made a column and spread along the columns. -/
theorem host_comb (hM : M ≠ 1) (a h : FVec Ideal ⟨2, ![M, N]⟩ .f32) (d : FVec Ideal ⟨1, ![M]⟩ .f32)
    (h₁ : (⟨1, ![M]⟩ : Shape).BroadcastsInDim ⟨2, ![M, 1]⟩ (![0] : Fin 1 → Fin 2))
    (h₂ : (⟨2, ![M, 1]⟩ : Shape).BroadcastsInDim ⟨2, ![M, N]⟩ (![0, 1] : Fin 2 → Fin 2)) :
    addf a (mulf h (broadcastInDim ⟨2, ![M, N]⟩ ![0, 1] h₂ (broadcastInDim ⟨2, ![M, 1]⟩ ![0] h₁ d))) = comb a h d := by
  funext i
  obtain ⟨p, q, rfl⟩ : ∃ (p : Fin M) (q : Fin N), i = ix2 p q := ⟨i 0, i 1, eq_ix2 i⟩
  rw [addf_apply, mulf_apply, Cert.Lib.Aggregate.spread_apply hM]
  rfl

/-- The host's positive part: the maximum with a broadcast zero. -/
theorem host_relu {s : Shape} (X : FVec Ideal s .f32) (dims : Fin 0 → Fin s.rank)
    (h0 : (⟨0, ![]⟩ : Shape).BroadcastsInDim s dims) :
    maximumf X (broadcastInDim s dims h0 (constant (F := Ideal) ⟨0, ![]⟩ .f32 0x00000000#32)) = relu X := by
  funext i
  rw [maximumf_apply]
  show max (X i) (broadcastInDim s dims h0 (constant (F := Ideal) ⟨0, ![]⟩ .f32 0x00000000#32) i) = max (X i) 0
  rw [hostZero_apply]

/-- A vector of length `M` reshaped to an `M × 1` column and read back as a vector is the vector. -/
theorem colVec_reshape (d : (⟨1, ![M]⟩ : Shape).Idx → EReal) (hc : (⟨1, ![M]⟩ : Shape).ShapeCasts ⟨2, ![M, 1]⟩) :
    colVec (shapeCast ⟨2, ![M, 1]⟩ d hc) = d := by
  funext j
  refine (Cert.Lib.Column.col_apply d hc (j 0)).trans (congrArg d ?_)
  funext a
  match a with
  | ⟨0, _⟩ => rfl

/-- A vector reshaped to a column is the vector set up as a column by a broadcast along a new unit axis. -/
theorem reshape_col_eq {α : Type} (hM : M ≠ 1) (v : (⟨1, ![M]⟩ : Shape).Idx → α)
    (hc : (⟨1, ![M]⟩ : Shape).ShapeCasts ⟨2, ![M, 1]⟩)
    (h₁ : (⟨1, ![M]⟩ : Shape).BroadcastsInDim ⟨2, ![M, 1]⟩ (![0] : Fin 1 → Fin 2)) :
    shapeCast ⟨2, ![M, 1]⟩ v hc = broadcastInDim ⟨2, ![M, 1]⟩ ![0] h₁ v := by
  funext i
  obtain ⟨p, q, rfl⟩ : ∃ (p : Fin M) (q : Fin 1), i = ix2 p q := ⟨i 0, i 1, eq_ix2 i⟩
  have hq : q = 0 := Subsingleton.elim _ _
  subst hq
  rw [Cert.Lib.Column.col_apply, Cert.Lib.Aggregate.column_apply hM]

end Cert.Gcn

end
-- ==== Proof.Region0.lean ====
/-
  Region 0 (the first layer's kernel): what its output array ends holding.

  The grid has 20 points; point `t` takes rows `5000·t … 5000·t + 4999` of the aggregated input, of the input and of the
  column of self-loop factors, the two weights and the bias row whole, and writes the same rows of the output. Its body
  is the first layer of a block of rows, so by row-locality the output array ends holding the first layer of the whole
  arrays as the region finds them.
-/
import proofs.«172584_j2791728742833_2_alg».proof.Proof.Gen.KernelIdeal.Frame
import proofs.«172584_j2791728742833_2_alg».proof.Proof.LibGcnEpilogue

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.BiasDot Cert.Lib.Dense Cert.Lib.RowLayers Cert.Lib.LogSoftmax Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's stored value is the first layer of its loaded blocks. -/
theorem pay_eq (x0 x1 : Vec Ideal S5000x10 .f32) (x2 : Vec Ideal S5000x1 .f32) (x3 : Vec Ideal S10x64 .f32)
    (x4 : Vec Ideal S1x64 .f32) (x5 : Vec Ideal S64x64 .f32) :
    k0_pay1 x0 x1 x2 x3 x4 x5 = layer1 (M := 5000) (K := 10) (N := 64) (N' := 64) x0 x1 x2 x3 x4 x5 := by
  unfold k0_pay1
  dsimp only [Idealize.ShloMosaic.matmul]
  rw [reluLayer_eq dot_S5000x10_S10x64_S5000x64_1_0_0_1_n_n rfl,
    Cert.Lib.ProductRows.narrowMatmul_eq_mm dot_S5000x64_S64x64_S5000x64_1_0_0_1_n_n rfl, shapeCast_self, shapeCast_self,
    comb_body]
  rfl

/-- The printed index maps over the grid: the row-blocked windows move with the output, the others stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The whole first-layer weight is its window's block at every point. -/
theorem blk3 (c : Dev nD) (t : Fin cfg0.N) : iblk0 V c 3 t = (V c main_arg2 : S10x64.Idx → Elt Ideal .f32) := by
  obtain ⟨-, -, -, -, -, -, e0, e1, -⟩ := idx_facts t
  funext y
  show V c main_arg2 (((cfg0.win 3).blk t).view.emb y) = V c main_arg2 y
  refine congrArg _ ?_
  funext a; apply Fin.ext
  match a with
  | ⟨0, _⟩ => show win0_3.index t (0 : Fin 2) * 10 + 1 * (y 0).val = (y 0).val; omega
  | ⟨1, _⟩ => show win0_3.index t (1 : Fin 2) * 64 + 1 * (y 1).val = (y 1).val; omega

/-- The whole bias row is its window's block at every point. -/
theorem blk4 (c : Dev nD) (t : Fin cfg0.N) : iblk0 V c 4 t = (V c main_v41 : S1x64.Idx → Elt Ideal .f32) := by
  obtain ⟨-, -, -, -, -, -, -, -, e0, e1, -⟩ := idx_facts t
  funext y
  show V c main_v41 (((cfg0.win 4).blk t).view.emb y) = V c main_v41 y
  refine congrArg _ ?_
  funext a; apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- The whole second-layer weight is its window's block at every point. -/
theorem blk5 (c : Dev nD) (t : Fin cfg0.N) : iblk0 V c 5 t = (V c main_arg4 : S64x64.Idx → Elt Ideal .f32) := by
  obtain ⟨-, -, -, -, -, -, -, -, -, -, e0, e1, -⟩ := idx_facts t
  funext y
  show V c main_arg4 (((cfg0.win 5).blk t).view.emb y) = V c main_arg4 y
  refine congrArg _ ?_
  funext a; apply Fin.ext
  match a with
  | ⟨0, _⟩ => show win0_5.index t (0 : Fin 2) * 64 + 1 * (y 0).val = (y 0).val; omega
  | ⟨1, _⟩ => show win0_5.index t (1 : Fin 2) * 64 + 1 * (y 1).val = (y 1).val; omega

/-- The first layer of the whole arrays as the region finds them. -/
abbrev G (c : Dev nD) : S100000x64.Idx → Elt Ideal .f32 :=
  layer1 (M := 100000) (K := 10) (N := 64) (N' := 64) (V c main_v40) (V c main_arg0) (V c main_v12) (V c main_arg2)
    (V c main_v41) (V c main_arg4)

/-- What point `t` writes back is block `t` of the first layer of the whole arrays. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x10) hz, View.ld_unit_zero (S := S5000x1) hz, View.ld_unit_zero (S := S10x64) hz,
    View.ld_unit_zero (S := S1x64) hz, View.ld_unit_zero (S := S64x64) hz]
  rw [pay_eq, blk3, blk4, blk5]
  obtain ⟨a0, a1, b0, b1, d0, d1, -, -, -, -, -, -, o0, o1⟩ := idx_facts t
  funext j
  show layer1 (M := 5000) (K := 10) (N := 64) (N' := 64) (iblk0 V c 0 t) (iblk0 V c 1 t) (iblk0 V c 2 t) (V c main_arg2) (V c main_v41) (V c main_arg4) j
    = G V c (((cfg0.win 6).blk t).view.emb j)
  have hj0 : (j 0).val < 5000 := (j 0).isLt
  have hj1 : (j 1).val < 64 := (j 1).isLt
  refine (congrArg (layer1 (M := 5000) (K := 10) (N := 64) (N' := 64) (iblk0 V c 0 t) (iblk0 V c 1 t) (iblk0 V c 2 t) (V c main_arg2) (V c main_v41) (V c main_arg4)) (eq_ix2 j)).trans ?_
  have hi : ((cfg0.win 6).blk t).view.emb j = ix2 (⟨t.val * 5000 + (j 0).val, by have := t.isLt; have : cfg0.N = 20 := N_0; omega⟩ : Fin 100000) (j 1) := by
    funext a; apply Fin.ext
    match a with
    | ⟨0, _⟩ => show win0_6.index t (0 : Fin 2) * 5000 + 1 * (j 0).val = t.val * 5000 + (j 0).val; omega
    | ⟨1, _⟩ => show win0_6.index t (1 : Fin 2) * 64 + 1 * (j 1).val = (j 1).val; omega
  rw [hi]
  refine layer1_rows (m := 5000) (M := 100000) (K := 10) (N := 64) (N' := 64) (iblk0 V c 0 t) (iblk0 V c 1 t) (iblk0 V c 2 t)
    (V c main_v40) (V c main_arg0) (V c main_v12) (V c main_arg2) (V c main_v41) (V c main_arg4) (j 0) _ (j 1) (fun k => ?_) (fun k => ?_) ?_
  · show V c main_v40 (((cfg0.win 0).blk t).view.emb (ix2 (j 0) k)) = V c main_v40 (ix2 _ k)
    refine congrArg _ ?_
    funext a; apply Fin.ext
    match a with
    | ⟨0, _⟩ => show win0_0.index t (0 : Fin 2) * 5000 + 1 * (j 0).val = t.val * 5000 + (j 0).val; omega
    | ⟨1, _⟩ => show win0_0.index t (1 : Fin 2) * 10 + 1 * k.val = k.val; omega
  · show V c main_arg0 (((cfg0.win 1).blk t).view.emb (ix2 (j 0) k)) = V c main_arg0 (ix2 _ k)
    refine congrArg _ ?_
    funext a; apply Fin.ext
    match a with
    | ⟨0, _⟩ => show win0_1.index t (0 : Fin 2) * 5000 + 1 * (j 0).val = t.val * 5000 + (j 0).val; omega
    | ⟨1, _⟩ => show win0_1.index t (1 : Fin 2) * 10 + 1 * k.val = k.val; omega
  · show V c main_v12 (((cfg0.win 2).blk t).view.emb (ix2 (j 0) (0 : Fin 1))) = V c main_v12 (ix2 _ (0 : Fin 1))
    refine congrArg _ ?_
    funext a; apply Fin.ext
    match a with
    | ⟨0, _⟩ => show win0_2.index t (0 : Fin 2) * 5000 + 1 * (j 0).val = t.val * 5000 + (j 0).val; omega
    | ⟨1, _⟩ => show win0_2.index t (1 : Fin 2) * 1 + 1 * 0 = 0; omega

/-- An index of the output array is in point `t`'s block iff its coordinates are in the block's ranges. -/
theorem mem_blk (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v42).slice (win0_6.rect t)).set ↔ _
  rw [View.set_slice_whole, Rect.mem_set_unit]
  exact Iff.rfl

/-- Every row of the output array is in the block of the point `row / 5000`. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  let t : Fin cfg0.N := ⟨(i 0).val / 5000, by omega⟩
  refine ⟨t, flush0_6 t, ?_⟩
  obtain ⟨-, -, -, -, -, -, -, -, -, -, -, -, o0, o1⟩ := idx_facts t
  have ht : t.val = (i 0).val / 5000 := rfl
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- THE OUTPUT ARRAY after the region: the first layer of the arrays as the region finds them. -/
theorem final (c : Dev nD) : (dat0 V c).arrAt 6 cfg0.N = G V c :=
  (dat0 V c).arrAt_eq_of_cover 6 (G V c) (fun t _ => flushed_eq V c t) (cover)

end Cert.KernelIdeal.Region0

end
-- ==== Proof.Region1.lean ====
/-
  Region 1 (the second layer's kernel): what its output array ends holding.

  The grid has 20 points; point `t` takes rows `5000·t … 5000·t + 4999` of the aggregated rows, of the node rows and of the
  column of self-loop factors, the remaining operands whole, and writes the same rows of the output. Its body is the second layer of a block of rows, so by row-locality the output array ends holding the second layer of the whole arrays as the region finds them.
-/
import proofs.«172584_j2791728742833_2_alg».proof.Proof.Gen.KernelIdeal.Frame
import proofs.«172584_j2791728742833_2_alg».proof.Proof.LibGcnEpilogue

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.BiasDot Cert.Lib.Dense Cert.Lib.RowLayers Cert.Lib.LogSoftmax Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's stored value is the second layer of its loaded blocks. -/
theorem pay_eq (x0 x1 : Vec Ideal S5000x64 .f32) (x2 : Vec Ideal S5000x1 .f32) (x3 : Vec Ideal S1x64 .f32)
    (x4 : Vec Ideal S64x4 .f32) :
    k1_pay1 x0 x1 x2 x3 x4 = layer2 (M := 5000) (N := 64) (N' := 4) x0 x1 x2 x3 x4 := by
  unfold k1_pay1
  dsimp only [Idealize.ShloMosaic.matmul]
  rw [Cert.Lib.ProductRows.narrowMatmul_eq_mm dot_S5000x64_S64x4_S5000x4_1_0_0_1_n_n rfl]
  simp only [shapeCast_self]
  rw [comb_body, addRow_body, relu_body]
  rfl

/-- The printed index maps over the grid: the row-blocked windows move with the output, the others stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The whole bias row is its window's block at every point. -/
theorem blk3 (c : Dev nD) (t : Fin cfg1.N) : iblk1 V c 3 t = (V c main_v55 : S1x64.Idx → Elt Ideal .f32) := by
  obtain ⟨-, -, -, -, -, -, e0, e1, -⟩ := idx_facts t
  funext y
  show V c main_v55 (((cfg1.win 3).blk t).view.emb y) = V c main_v55 y
  refine congrArg _ ?_
  funext a; apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- The whole third-layer weight is its window's block at every point. -/
theorem blk4 (c : Dev nD) (t : Fin cfg1.N) : iblk1 V c 4 t = (V c main_arg6 : S64x4.Idx → Elt Ideal .f32) := by
  obtain ⟨-, -, -, -, -, -, -, -, e0, e1, -⟩ := idx_facts t
  funext y
  show V c main_arg6 (((cfg1.win 4).blk t).view.emb y) = V c main_arg6 y
  refine congrArg _ ?_
  funext a; apply Fin.ext
  match a with
  | ⟨0, _⟩ => show win1_4.index t (0 : Fin 2) * 64 + 1 * (y 0).val = (y 0).val; omega
  | ⟨1, _⟩ => show win1_4.index t (1 : Fin 2) * 4 + 1 * (y 1).val = (y 1).val; omega

/-- The second layer of the whole arrays as the region finds them. -/
abbrev G (c : Dev nD) : S100000x4.Idx → Elt Ideal .f32 :=
  layer2 (M := 100000) (N := 64) (N' := 4) (V c main_v54) (V c main_v42) (V c main_v12) (V c main_v55) (V c main_arg6)

/-- What point `t` writes back is block `t` of the second layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x1) hz, View.ld_unit_zero (S := S1x64) hz,
    View.ld_unit_zero (S := S64x4) hz]
  rw [pay_eq, blk3, blk4]
  obtain ⟨a0, a1, b0, b1, d0, d1, -, -, -, -, o0, o1⟩ := idx_facts t
  funext j
  show layer2 (M := 5000) (N := 64) (N' := 4) (iblk1 V c 0 t) (iblk1 V c 1 t) (iblk1 V c 2 t) (V c main_v55) (V c main_arg6) j
    = G V c (((cfg1.win 5).blk t).view.emb j)
  have hj0 : (j 0).val < 5000 := (j 0).isLt
  have hj1 : (j 1).val < 4 := (j 1).isLt
  refine (congrArg (layer2 (M := 5000) (N := 64) (N' := 4) (iblk1 V c 0 t) (iblk1 V c 1 t) (iblk1 V c 2 t) (V c main_v55) (V c main_arg6)) (eq_ix2 j)).trans ?_
  have hi : ((cfg1.win 5).blk t).view.emb j = ix2 (⟨t.val * 5000 + (j 0).val, by have := t.isLt; have : cfg1.N = 20 := N_1; omega⟩ : Fin 100000) (j 1) := by
    funext a; apply Fin.ext
    match a with
    | ⟨0, _⟩ => show win1_5.index t (0 : Fin 2) * 5000 + 1 * (j 0).val = t.val * 5000 + (j 0).val; omega
    | ⟨1, _⟩ => show win1_5.index t (1 : Fin 2) * 4 + 1 * (j 1).val = (j 1).val; omega
  rw [hi]
  refine layer2_rows (m := 5000) (M := 100000) (N := 64) (N' := 4) (iblk1 V c 0 t) (iblk1 V c 1 t) (iblk1 V c 2 t)
    (V c main_v54) (V c main_v42) (V c main_v12) (V c main_v55) (V c main_arg6) (j 0) _ (j 1) (fun k => ?_) (fun k => ?_) ?_
  · show V c main_v54 (((cfg1.win 0).blk t).view.emb (ix2 (j 0) k)) = V c main_v54 (ix2 _ k)
    refine congrArg _ ?_
    funext a; apply Fin.ext
    match a with
    | ⟨0, _⟩ => show win1_0.index t (0 : Fin 2) * 5000 + 1 * (j 0).val = t.val * 5000 + (j 0).val; omega
    | ⟨1, _⟩ => show win1_0.index t (1 : Fin 2) * 64 + 1 * k.val = k.val; omega
  · show V c main_v42 (((cfg1.win 1).blk t).view.emb (ix2 (j 0) k)) = V c main_v42 (ix2 _ k)
    refine congrArg _ ?_
    funext a; apply Fin.ext
    match a with
    | ⟨0, _⟩ => show win1_1.index t (0 : Fin 2) * 5000 + 1 * (j 0).val = t.val * 5000 + (j 0).val; omega
    | ⟨1, _⟩ => show win1_1.index t (1 : Fin 2) * 64 + 1 * k.val = k.val; omega
  · show V c main_v12 (((cfg1.win 2).blk t).view.emb (ix2 (j 0) (0 : Fin 1))) = V c main_v12 (ix2 _ (0 : Fin 1))
    refine congrArg _ ?_
    funext a; apply Fin.ext
    match a with
    | ⟨0, _⟩ => show win1_2.index t (0 : Fin 2) * 5000 + 1 * (j 0).val = t.val * 5000 + (j 0).val; omega
    | ⟨1, _⟩ => show win1_2.index t (1 : Fin 2) * 1 + 1 * 0 = 0; omega

/-- An index of the output array is in point `t`'s block iff its coordinates are in the block's ranges. -/
theorem mem_blk (t : Fin cfg1.N) (i : S100000x4.Idx) :
    i ∈ ((cfg1.win 5).blk t).view.set ↔ ∀ a : Fin 2, win1_5.index t a * S5000x4.size a ≤ (i a).val ∧ (i a).val < win1_5.index t a * S5000x4.size a + S5000x4.size a := by
  show i ∈ ((View.whole main_v56).slice (win1_5.rect t)).set ↔ _
  rw [View.set_slice_whole, Rect.mem_set_unit]
  exact Iff.rfl

/-- Every row of the output array is in the block of the point `row / 5000`. -/
theorem cover (i : S100000x4.Idx) : ∃ t : Fin cfg1.N, (cfg1.win 5).flush t = true ∧ i ∈ ((cfg1.win 5).blk t).view.set := by
  have hi0 : (i 0).val < 100000 := (i 0).isLt
  have hi1 : (i 1).val < 4 := (i 1).isLt
  have hN : cfg1.N = 20 := N_1
  let t : Fin cfg1.N := ⟨(i 0).val / 5000, by omega⟩
  refine ⟨t, flush1_5 t, ?_⟩
  obtain ⟨-, -, -, -, -, -, -, -, -, -, o0, o1⟩ := idx_facts t
  have ht : t.val = (i 0).val / 5000 := rfl
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 4 ≤ (i 1).val ∧ (i 1).val < win1_5.index t (1 : Fin 2) * 4 + 4; omega

/-- THE OUTPUT ARRAY after the region: the second layer of the arrays as the region finds them. -/
theorem final (c : Dev nD) : (dat1 V c).arrAt 5 cfg1.N = G V c :=
  (dat1 V c).arrAt_eq_of_cover 5 (G V c) (fun t _ => flushed_eq V c t) (cover)

end Cert.KernelIdeal.Region1

end
-- ==== Proof.Region2.lean ====
/-
  Region 2 (the third layer's kernel): what its output array ends holding.

  The grid has 20 points; point `t` takes rows `5000·t … 5000·t + 4999` of the aggregated rows, of the node rows and of the
  column of self-loop factors, the remaining operands whole, and writes the same rows of the output. Its body is the third layer of a block of rows (the row-wise logarithm of the softmax reads one row), so by row-locality the output array ends holding the third layer of the whole arrays as the region finds them.
-/
import proofs.«172584_j2791728742833_2_alg».proof.Proof.Gen.KernelIdeal.Frame
import proofs.«172584_j2791728742833_2_alg».proof.Proof.LibGcnEpilogue

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.BiasDot Cert.Lib.Dense Cert.Lib.RowLayers Cert.Lib.LogSoftmax Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's stored value is the third layer of its loaded blocks: the extra maximum with a splat −∞ changes nothing,
    and the lane maximum and lane sum kept as columns are the row-wise shifted logarithm of the softmax. -/
theorem pay_eq (x0 x1 : Vec Ideal S5000x4 .f32) (x2 : Vec Ideal S5000x1 .f32) (x3 : Vec Ideal S1x4 .f32) :
    k2_pay1 x0 x1 x2 x3 = layer3 (M := 5000) (N := 4) x0 x1 x2 x3 := by
  unfold k2_pay1
  dsimp only
  simp only [shapeCast_self]
  rw [max_neg_inf_body, comb_body, addRow_body]
  exact logSoftmax_body (M := 5000) (N := 4) _ reduces_S5000x4_S5000 (.inl rfl) rfl rfl shapeCasts_S5000_S5000x1
    broadcasts_S5000x1_S5000x4

/-- The printed index maps over the grid: the row-blocked windows move with the output, the bias row stays. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The whole bias row is its window's block at every point. -/
theorem blk3 (c : Dev nD) (t : Fin cfg2.N) : iblk2 V c 3 t = (V c main_v69 : S1x4.Idx → Elt Ideal .f32) := by
  obtain ⟨-, -, -, -, -, -, e0, e1, -⟩ := idx_facts t
  funext y
  show V c main_v69 (((cfg2.win 3).blk t).view.emb y) = V c main_v69 y
  refine congrArg _ ?_
  funext a; apply Fin.ext
  match a with
  | ⟨0, _⟩ => show win2_3.index t (0 : Fin 2) * 1 + 1 * (y 0).val = (y 0).val; omega
  | ⟨1, _⟩ => show win2_3.index t (1 : Fin 2) * 4 + 1 * (y 1).val = (y 1).val; omega

/-- The third layer of the whole arrays as the region finds them. -/
abbrev G (c : Dev nD) : S100000x4.Idx → Elt Ideal .f32 :=
  layer3 (M := 100000) (N := 4) (V c main_v68) (V c main_v56) (V c main_v12) (V c main_v69)

/-- What point `t` writes back is block `t` of the third layer of the whole arrays. -/
theorem flushed_eq (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4]
  unfold out2_4
  rw [View.canon_unit_zero hz]
  simp only [View.ld_unit_zero (S := S5000x4) hz, View.ld_unit_zero (S := S5000x1) hz, View.ld_unit_zero (S := S1x4) hz]
  rw [pay_eq, blk3]
  obtain ⟨a0, a1, b0, b1, d0, d1, -, -, o0, o1⟩ := idx_facts t
  funext j
  show layer3 (M := 5000) (N := 4) (iblk2 V c 0 t) (iblk2 V c 1 t) (iblk2 V c 2 t) (V c main_v69) j
    = G V c (((cfg2.win 4).blk t).view.emb j)
  have hj0 : (j 0).val < 5000 := (j 0).isLt
  have hj1 : (j 1).val < 4 := (j 1).isLt
  refine (congrArg (layer3 (M := 5000) (N := 4) (iblk2 V c 0 t) (iblk2 V c 1 t) (iblk2 V c 2 t) (V c main_v69)) (eq_ix2 j)).trans ?_
  have hi : ((cfg2.win 4).blk t).view.emb j = ix2 (⟨t.val * 5000 + (j 0).val, by have := t.isLt; have : cfg2.N = 20 := N_2; omega⟩ : Fin 100000) (j 1) := by
    funext a; apply Fin.ext
    match a with
    | ⟨0, _⟩ => show win2_4.index t (0 : Fin 2) * 5000 + 1 * (j 0).val = t.val * 5000 + (j 0).val; omega
    | ⟨1, _⟩ => show win2_4.index t (1 : Fin 2) * 4 + 1 * (j 1).val = (j 1).val; omega
  rw [hi]
  refine layer3_rows (m := 5000) (M := 100000) (N := 4) (iblk2 V c 0 t) (iblk2 V c 1 t) (iblk2 V c 2 t)
    (V c main_v68) (V c main_v56) (V c main_v12) (V c main_v69) (j 0) _ (j 1) (fun k => ?_) (fun k => ?_) ?_
  · show V c main_v68 (((cfg2.win 0).blk t).view.emb (ix2 (j 0) k)) = V c main_v68 (ix2 _ k)
    refine congrArg _ ?_
    funext a; apply Fin.ext
    match a with
    | ⟨0, _⟩ => show win2_0.index t (0 : Fin 2) * 5000 + 1 * (j 0).val = t.val * 5000 + (j 0).val; omega
    | ⟨1, _⟩ => show win2_0.index t (1 : Fin 2) * 4 + 1 * k.val = k.val; omega
  · show V c main_v56 (((cfg2.win 1).blk t).view.emb (ix2 (j 0) k)) = V c main_v56 (ix2 _ k)
    refine congrArg _ ?_
    funext a; apply Fin.ext
    match a with
    | ⟨0, _⟩ => show win2_1.index t (0 : Fin 2) * 5000 + 1 * (j 0).val = t.val * 5000 + (j 0).val; omega
    | ⟨1, _⟩ => show win2_1.index t (1 : Fin 2) * 4 + 1 * k.val = k.val; omega
  · show V c main_v12 (((cfg2.win 2).blk t).view.emb (ix2 (j 0) (0 : Fin 1))) = V c main_v12 (ix2 _ (0 : Fin 1))
    refine congrArg _ ?_
    funext a; apply Fin.ext
    match a with
    | ⟨0, _⟩ => show win2_2.index t (0 : Fin 2) * 5000 + 1 * (j 0).val = t.val * 5000 + (j 0).val; omega
    | ⟨1, _⟩ => show win2_2.index t (1 : Fin 2) * 1 + 1 * 0 = 0; omega

/-- An index of the output array is in point `t`'s block iff its coordinates are in the block's ranges. -/
theorem mem_blk (t : Fin cfg2.N) (i : S100000x4.Idx) :
    i ∈ ((cfg2.win 4).blk t).view.set ↔ ∀ a : Fin 2, win2_4.index t a * S5000x4.size a ≤ (i a).val ∧ (i a).val < win2_4.index t a * S5000x4.size a + S5000x4.size a := by
  show i ∈ ((View.whole main_v70).slice (win2_4.rect t)).set ↔ _
  rw [View.set_slice_whole, Rect.mem_set_unit]
  exact Iff.rfl

/-- Every row of the output array is in the block of the point `row / 5000`. -/
theorem cover (i : S100000x4.Idx) : ∃ t : Fin cfg2.N, (cfg2.win 4).flush t = true ∧ i ∈ ((cfg2.win 4).blk t).view.set := by
  have hi0 : (i 0).val < 100000 := (i 0).isLt
  have hi1 : (i 1).val < 4 := (i 1).isLt
  have hN : cfg2.N = 20 := N_2
  let t : Fin cfg2.N := ⟨(i 0).val / 5000, by omega⟩
  refine ⟨t, flush2_4 t, ?_⟩
  obtain ⟨-, -, -, -, -, -, -, -, o0, o1⟩ := idx_facts t
  have ht : t.val = (i 0).val / 5000 := rfl
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 4 ≤ (i 1).val ∧ (i 1).val < win2_4.index t (1 : Fin 2) * 4 + 4; omega

/-- THE OUTPUT ARRAY after the region: the third layer of the arrays as the region finds them. -/
theorem final (c : Dev nD) : (dat2 V c).arrAt 4 cfg2.N = G V c :=
  (dat2 V c).arrAt_eq_of_cover 4 (G V c) (fun t _ => flushed_eq V c t) (cover)

end Cert.KernelIdeal.Region2

end
-- ==== Proof.LibScatter1.lean ====
/-
  A scatter-add into a column, read at an index.

  For a column `x` of `N` entries, a column `idx` of `M` integer words (shape `[M, 1]`) and `M` updates, the
  scatter-add puts update `e` onto the operand entry `idx[e]` read as a signed integer and not clamped (an update
  whose entry is outside `[0, N − 1]` is dropped): entry `n` of the result is
  `x n + ∑ e ∈ landsOn idx N n, upd e`, the sum over the updates whose index is `n` — the same set of updates a
  scatter-add of whole rows sends to row `n`.
-/
import Idealize.ShloMosaic.Lib.ValueIdx
import Idealize.ShloMosaic.PureOps.Ideal.Laws
import Idealize.ShloMosaic.Lib.Pipeline.Value
import proofs.«172584_j2791728742833_2_alg».proof.Proof.LibRowScatter

noncomputable section

open scoped BigOperators

namespace Cert.Lib.Scatter1

open Idealize.ShloMosaic Idealize.ShloMosaic.ValueIdx Cert.Lib.RowScatter

/-- The indices of a column of `M` entries are the numbers below `M`. -/
def idx1Equiv (M : Nat) : Fin M ≃ (⟨1, ![M]⟩ : Shape).Idx where
  toFun := ix1
  invFun j := j 0
  left_inv _ := rfl
  right_inv j := (eq_ix1 j).symm

/-- A sum over the indices of a column is the sum over its entries' numbers. -/
theorem sum_idx1 {A : Type*} [AddCommMonoid A] {M : Nat} (f : (⟨1, ![M]⟩ : Shape).Idx → A) :
    ∑ i, f i = ∑ e : Fin M, f (ix1 e) :=
  (Equiv.sum_comp (idx1Equiv M) f).symm

/-- The dimension numbers of a scatter of single entries into a column: operand `[N]`, scatter indices `[M, 1]`,
    updates `[M]`; no window axis, the operand's axis 0 inserted and named by the scatter index, the index vector along
    axis 1 of the scatter indices. Their conditions `wf` are decided on literal shapes. -/
abbrev scatter1Dims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The start of update `e` is the index word `idx (e, 0)` read as a signed integer. -/
theorem scatter1_start {N M w : Nat} (wf : ScatterDims.WF ⟨1, ![N]⟩ ⟨2, ![M, 1]⟩ ⟨1, ![M]⟩ [] [0] [0] 1)
    (idx : IVec ⟨2, ![M, 1]⟩ w) (e : Fin M) :
    (scatter1Dims N M wf).start (ix1 e) idx 0 = (idx (ix2 e (0 : Fin 1))).toInt := by
  unfold ScatterDims.start
  rw [dif_pos (show (0 : Fin 1) ∈ (scatter1Dims N M wf).scatterDimsToOperandDims from List.mem_singleton.mpr rfl)]
  have hsi : (scatter1Dims N M wf).siIdx (ix1 e)
      ⟨List.idxOf (0 : Fin 1) (scatter1Dims N M wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the one axis, an inserted one, the window coordinate is `0`. -/
theorem scatter1_window {N M : Nat} (wf : ScatterDims.WF ⟨1, ![N]⟩ ⟨2, ![M, 1]⟩ ⟨1, ![M]⟩ [] [0] [0] 1) (e : Fin M) :
    (scatter1Dims N M wf).window (ix1 e) 0 = 0 := by
  unfold ScatterDims.window
  rw [dif_neg (fun h => (mem_kept _ _).mp h (List.mem_singleton.mpr rfl))]

/-- Update `e` lands at operand entry `n` exactly when its signed index word is `n`. -/
theorem resultIdx?_one {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (scatter1Dims N M wf).resultIdx? (ix1 e) idx = some (ix1 n)
      ↔ (idx (ix2 e (0 : Fin 1))).toInt = (n.val : Int) := by
  rw [resultIdx?_eq_some_iff]
  constructor
  · intro h
    have h0 := h 0
    rw [scatter1_start, scatter1_window] at h0
    change (idx (ix2 e (0 : Fin 1))).toInt + ((0 : Nat) : Int) = (n.val : Int) at h0
    omega
  · intro h a
    obtain rfl : a = 0 := Subsingleton.elim _ _
    rw [scatter1_start, scatter1_window]
    show _ + ((0 : Nat) : Int) = (n.val : Int)
    omega

/-- THE SCATTER-ADD INTO A COLUMN READ AT `n`: the operand's entry plus the sum, over the updates `e` whose signed
    index word is `n`, of update `e`. -/
theorem scatterAdd1_apply {N M w : Nat}
    (wf : ScatterDims.WF ⟨1, ![N]⟩ ⟨2, ![M, 1]⟩ ⟨1, ![M]⟩ [] [0] [0] 1)
    (x : FVec Ideal ⟨1, ![N]⟩ .f32) (idx : IVec ⟨2, ![M, 1]⟩ w) (upd : FVec Ideal ⟨1, ![M]⟩ .f32) (n : Fin N) :
    Host.scatterAdd (F := Ideal) (scatter1Dims N M wf) x idx upd (ix1 n)
      = x (ix1 n) + ∑ e ∈ landsOn idx N n, upd (ix1 e) := by
  unfold Host.scatterAdd
  rw [Ideal.hostScatterAdd_def]
  unfold Ideal.hostScatterAdd
  congr 1
  rw [Finset.sum_filter, sum_idx1]
  unfold landsOn
  rw [Finset.sum_filter]
  refine Finset.sum_congr rfl (fun e _ => ?_)
  simp only [resultIdx?_one]

end Cert.Lib.Scatter1

end
-- ==== Proof.LibGather1.lean ====
/-
  A gather from a column, read at an index, and two facts about the row a gather reads.

  For a column `x` of `N` entries and a column `idx` of `M` integer words (shape `[M, 1]`), the gather takes result entry
  `e` from the operand entry `idx[e]` read as a signed integer and clamped into `[0, N − 1]`: entry `e` of the result is
  `x (gatherRow idx e)`, the same clamped row that a gather of whole rows reads.

  * An index word whose signed reading is `n < N` makes the gather read row `n`: the clamp does nothing.
  * The usual wrap of a possibly negative index, `select (w < 0) (w + k) w`, leaves a non-negative word as it is.
-/
import Idealize.ShloMosaic.Lib.ValueIdx
import Idealize.ShloMosaic.Lib.Pipeline.Value
import proofs.«172584_j2791728742833_2_alg».proof.Proof.LibRowScatter

noncomputable section

namespace Cert.Lib.Gather1

open Idealize.ShloMosaic Idealize.ShloMosaic.ValueIdx Cert.Lib.RowScatter

section Gather
variable {α : Type}

/-- The dimension numbers of a gather of single entries from a column: operand `[N]`, start indices `[M, 1]`, result
    `[M]`; no offset axis, the operand's axis 0 collapsed and named by the start index, the index vector along axis 1
    of the start indices, a slice one entry. Their conditions `wf` are decided on literal shapes. -/
abbrev gather1Dims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER FROM A COLUMN READ AT `e`: the operand at `gatherRow N hN idx e`, the start index `idx (e, 0)` read signed
    and clamped into `[0, N − 1]`. -/
theorem gather1_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gather1Dims N M wf) x idx (ix1 e) = x (ix1 (gatherRow N hN idx e)) := by
  unfold Host.gather
  congr 1
  funext a
  obtain rfl : a = 0 := Subsingleton.elim _ _
  refine Fin.ext ?_
  show (gather1Dims N M wf).start (ix1 e) idx 0 + (gather1Dims N M wf).batchCoord (ix1 e) 0
    + (gather1Dims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather1Dims N M wf).startIndexMap from List.mem_singleton.mpr rfl)]
  have hsi : (gather1Dims N M wf).siIdx (ix1 e) ⟨List.idxOf (0 : Fin 1) (gather1Dims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-- An index word whose signed reading is the row `n` makes a gather read row `n`. -/
theorem gatherRow_eq_of_toInt {N M w : Nat} (hN : 0 < N) (idx : IVec ⟨2, ![M, 1]⟩ w) (e : Fin M) (n : Fin N)
    (h : (idx (ix2 e (0 : Fin 1))).toInt = (n.val : Int)) : gatherRow N hN idx e = n := by
  refine Fin.ext ?_
  show min (idx (ix2 e (0 : Fin 1))).toInt.toNat (N - 1) = n.val
  rw [h, Int.toNat_natCast]
  have := n.isLt
  omega

/-- The wrap of a possibly negative index leaves a word whose signed reading is not negative as it is. -/
theorem select_wrap_of_nonneg (x k : BitVec 32) (h : 0 ≤ x.toInt) :
    Scalar.select (IntOp.cmpi .slt x 0#32) (IntOp.addi x k) x = x := by
  have hs : x.slt 0#32 = false := by
    rw [Bool.eq_false_iff]
    intro hs
    have hlt := BitVec.slt_iff_toInt_lt.mp hs
    rw [BitVec.toInt_zero] at hlt
    omega
  show Scalar.select (BitVec.ofBool (x.slt 0#32)) (IntOp.addi x k) x = x
  rw [hs]
  exact select_zero _ _

end Cert.Lib.Gather1

end
-- ==== Proof.Network.lean ====
/-
  The three-layer graph network as whole-array functions of its eight arguments, in the two arrangements.

  The edge table `ei` has a row of source words and a row of destination words, one column per edge. From it:
    * `srcC`, `dstWC` — the source / destination words with a negative word wrapped by the number of nodes, as columns
      (what a gather reads its row number from); `dstC` — the destination words as they are (what a scatter-add lands by);
    * `dis n` — the reciprocal square root of one plus the number of edges landing on `n`;
    * `wE e` — the edge's weight, `dis` at its source times `dis` at its destination; `dsq n = dis n · dis n`, the
      node's self-loop factor;
    * `aggC h` — the aggregation of a table `h` with `C` columns: row `src e` of `h` times `wE e`, added into row `dst e`.
  The reference arrangement multiplies by a layer's weight first and aggregates the product; the kernel arrangement
  aggregates the 10-column input first and multiplies afterwards (layer 1 only), and spells the edge weights as a
  reshaped column. `refNet` and `kerNet` are the two results.
-/
import Idealize.ShloMosaic.Lib.ValueIdx
import Idealize.ShloMosaic.Lib.Pipeline.Value
import Idealize.ShloMosaic.PureOps.Ideal.Laws
import proofs.«172584_j2791728742833_2_alg».proof.Proof.LibGcnEpilogue
import proofs.«172584_j2791728742833_2_alg».proof.Proof.LibScatter1
import proofs.«172584_j2791728742833_2_alg».proof.Proof.LibGather1

noncomputable section

open scoped BigOperators

namespace Cert.Gcn.Net

open Idealize.ShloMosaic Idealize.ShloMosaic.ValueIdx Cert.Lib.RowScatter Cert.Lib.Aggregate Cert.Lib.Dense Cert.Lib.BiasDot
open Cert.Lib.RowLayers Cert.Lib.LogSoftmax Cert.Lib.Scatter1 Cert.Lib.Gather1 Cert.Gcn

/-- The edge table, one of its rows, a vector over the edges, a column over the edges, a vector over the nodes. -/
abbrev SEI : Shape := ⟨2, ![2, 1600000]⟩
abbrev SR : Shape := ⟨2, ![1, 1600000]⟩
abbrev SE : Shape := ⟨1, ![1600000]⟩
abbrev SEc : Shape := ⟨2, ![1600000, 1]⟩
abbrev SN : Shape := ⟨1, ![100000]⟩
abbrev SNc : Shape := ⟨2, ![100000, 1]⟩
abbrev S0 : Shape := ⟨0, ![]⟩

theorem hSlice0 : SEI.Slices ![0, 0] SR := by decide
theorem hSlice1 : SEI.Slices ![1, 0] SR := by decide
theorem hRowVec : SR.ShapeCasts SE := by decide
theorem hS0E : S0.BroadcastsInDim SE (![] : Fin 0 → Fin SE.rank) := by decide
theorem hS0N : S0.BroadcastsInDim SN (![] : Fin 0 → Fin SN.rank) := by decide
theorem hCol : SE.BroadcastsInDim SEc (![0] : Fin 1 → Fin SEc.rank) := by decide
theorem hColCast : SE.ShapeCasts SEc := by decide
theorem hNCast : SN.ShapeCasts SNc := by decide
theorem hNCol : SN.BroadcastsInDim SNc (![0] : Fin 1 → Fin SNc.rank) := by decide
theorem wfS1 : ScatterDims.WF SN SEc SE [] [0] [0] 1 := by decide
theorem wfG1 : GatherDims.WF SN SEc SE [] [0] [] [0] [] 1 ![1] := by decide

/-- The source words, one per edge. -/
def srcV (ei : IVec SEI 32) : IVec SE 32 := shapeCast SE (extractStridedSlice SR ![0, 0] ei hSlice0) hRowVec
/-- The destination words, one per edge. -/
def dstV (ei : IVec SEI 32) : IVec SE 32 := shapeCast SE (extractStridedSlice SR ![1, 0] ei hSlice1) hRowVec

/-- A negative word wrapped by the number of nodes. -/
def wrap (v : IVec SE 32) : IVec SE 32 :=
  select (cmpi .slt v (broadcastInDim SE ![] hS0E (constantI S0 32 0#32)))
    (addi v (broadcastInDim SE ![] hS0E (constantI S0 32 100000#32))) v

/-- A vector over the edges set up as a column. -/
def col (v : IVec SE 32) : IVec SEc 32 := broadcastInDim SEc ![0] hCol v

def srcC (ei : IVec SEI 32) : IVec SEc 32 := col (wrap (srcV ei))
def dstWC (ei : IVec SEI 32) : IVec SEc 32 := col (wrap (dstV ei))
def dstC (ei : IVec SEI 32) : IVec SEc 32 := col (dstV ei)

/-- One plus the number of edges landing on each node. -/
def deg (ei : IVec SEI 32) : FVec Ideal SN .f32 :=
  addf (Host.scatterAdd (F := Ideal) (scatter1Dims 100000 1600000 wfS1)
      (broadcastInDim SN ![] hS0N (constant (F := Ideal) S0 .f32 0x00000000#32)) (dstC ei)
      (broadcastInDim SE ![] hS0E (constant (F := Ideal) S0 .f32 0x3F800000#32)))
    (broadcastInDim SN ![] hS0N (constant (F := Ideal) S0 .f32 0x3F800000#32))

/-- Its reciprocal square root. -/
def dis (ei : IVec SEI 32) : FVec Ideal SN .f32 := Host.rsqrt (deg ei)

/-- The edge weights: the factor at the source times the factor at the destination. -/
def wE (ei : IVec SEI 32) : FVec Ideal SE .f32 :=
  mulf (Host.gather (gather1Dims 100000 1600000 wfG1) (dis ei) (srcC ei))
    (Host.gather (gather1Dims 100000 1600000 wfG1) (dis ei) (dstWC ei))

/-- The self-loop factors. -/
def dsq (ei : IVec SEI 32) : FVec Ideal SN .f32 := mulf (dis ei) (dis ei)

/-- The self-loop factors as the kernel lays them out: a reshaped column. -/
def dsqCol (ei : IVec SEI 32) : FVec Ideal SNc .f32 := shapeCast SNc (dsq ei) hNCast

/-- The edge weights as the kernel lays them out: a reshaped column. -/
def wCol (ei : IVec SEI 32) : FVec Ideal SEc .f32 := shapeCast SEc (wE ei) hColCast

theorem wCol_eq (ei : IVec SEI 32) : wCol ei = broadcastInDim SEc ![0] hCol (wE ei) :=
  reshape_col_eq (M := 1600000) (by decide) (wE ei) hColCast hCol

theorem colVec_dsqCol (ei : IVec SEI 32) : colVec (dsqCol ei) = dsq ei := colVec_reshape (dsq ei) hNCast

section Agg
variable {C : Nat}
  (wfS : ScatterDims.WF ⟨2, ![100000, C]⟩ SEc ⟨2, ![1600000, C]⟩ [1] [0] [0] 1)
  (wfG : GatherDims.WF ⟨2, ![100000, C]⟩ SEc ⟨2, ![1600000, C]⟩ [1] [0] [] [0] [] 1 ![1, C])
  (hz : S0.BroadcastsInDim ⟨2, ![100000, C]⟩ (![] : Fin 0 → Fin 2))
  (h₂ : SEc.BroadcastsInDim ⟨2, ![1600000, C]⟩ (![0, 1] : Fin 2 → Fin 2))

/-- The aggregation over the graph of a table with `C` columns (the host's spelling, the weights set up as a column
    by a broadcast). -/
def agg (h : FVec Ideal ⟨2, ![100000, C]⟩ .f32) (ei : IVec SEI 32) : FVec Ideal ⟨2, ![100000, C]⟩ .f32 :=
  aggregate wfS wfG hz hCol h₂ h (srcC ei) (dstC ei) (wE ei)

/-- The same with the weights laid out as a reshaped column. -/
def aggK (h : FVec Ideal ⟨2, ![100000, C]⟩ .f32) (ei : IVec SEI 32) : FVec Ideal ⟨2, ![100000, C]⟩ .f32 :=
  Host.scatterAdd (F := Ideal) (rowScatterDims 100000 1600000 C wfS)
    (broadcastInDim ⟨2, ![100000, C]⟩ ![] hz (constant (F := Ideal) S0 .f32 0x00000000#32)) (dstC ei)
    (mulf (Host.gather (rowGatherDims 100000 1600000 C wfG) h (srcC ei))
      (broadcastInDim ⟨2, ![1600000, C]⟩ ![0, 1] h₂ (wCol ei)))

theorem aggK_eq (h : FVec Ideal ⟨2, ![100000, C]⟩ .f32) (ei : IVec SEI 32) :
    aggK wfS wfG hz h₂ h ei = agg wfS wfG hz h₂ h ei := by
  unfold aggK agg aggregate
  rw [wCol_eq]
end Agg

theorem wfS10 : ScatterDims.WF ⟨2, ![100000, 10]⟩ SEc ⟨2, ![1600000, 10]⟩ [1] [0] [0] 1 := by decide
theorem wfG10 : GatherDims.WF ⟨2, ![100000, 10]⟩ SEc ⟨2, ![1600000, 10]⟩ [1] [0] [] [0] [] 1 ![1, 10] := by decide
theorem hz10 : S0.BroadcastsInDim ⟨2, ![100000, 10]⟩ (![] : Fin 0 → Fin 2) := by decide
theorem hb10 : SEc.BroadcastsInDim ⟨2, ![1600000, 10]⟩ (![0, 1] : Fin 2 → Fin 2) := by decide
theorem wfS64 : ScatterDims.WF ⟨2, ![100000, 64]⟩ SEc ⟨2, ![1600000, 64]⟩ [1] [0] [0] 1 := by decide
theorem wfG64 : GatherDims.WF ⟨2, ![100000, 64]⟩ SEc ⟨2, ![1600000, 64]⟩ [1] [0] [] [0] [] 1 ![1, 64] := by decide
theorem hz64 : S0.BroadcastsInDim ⟨2, ![100000, 64]⟩ (![] : Fin 0 → Fin 2) := by decide
theorem hb64 : SEc.BroadcastsInDim ⟨2, ![1600000, 64]⟩ (![0, 1] : Fin 2 → Fin 2) := by decide
theorem wfS4 : ScatterDims.WF ⟨2, ![100000, 4]⟩ SEc ⟨2, ![1600000, 4]⟩ [1] [0] [0] 1 := by decide
theorem wfG4 : GatherDims.WF ⟨2, ![100000, 4]⟩ SEc ⟨2, ![1600000, 4]⟩ [1] [0] [] [0] [] 1 ![1, 4] := by decide
theorem hz4 : S0.BroadcastsInDim ⟨2, ![100000, 4]⟩ (![] : Fin 0 → Fin 2) := by decide
theorem hb4 : SEc.BroadcastsInDim ⟨2, ![1600000, 4]⟩ (![0, 1] : Fin 2 → Fin 2) := by decide

abbrev agg10 := agg wfS10 wfG10 hz10 hb10
abbrev agg64 := agg wfS64 wfG64 hz64 hb64
abbrev agg4 := agg wfS4 wfG4 hz4 hb4
abbrev aggK10 := aggK wfS10 wfG10 hz10 hb10
abbrev aggK64 := aggK wfS64 wfG64 hz64 hb64
abbrev aggK4 := aggK wfS4 wfG4 hz4 hb4

theorem hB64 : (⟨1, ![64]⟩ : Shape).ShapeCasts ⟨2, ![1, 64]⟩ := by decide
theorem hB4 : (⟨1, ![4]⟩ : Shape).ShapeCasts ⟨2, ![1, 4]⟩ := by decide

section Nets
variable (x : FVec Ideal ⟨2, ![100000, 10]⟩ .f32) (ei : IVec SEI 32)
  (W1 : FVec Ideal ⟨2, ![10, 64]⟩ .f32) (b1 : FVec Ideal ⟨1, ![64]⟩ .f32)
  (W2 : FVec Ideal ⟨2, ![64, 64]⟩ .f32) (b2 : FVec Ideal ⟨1, ![64]⟩ .f32)
  (W3 : FVec Ideal ⟨2, ![64, 4]⟩ .f32) (b3 : FVec Ideal ⟨1, ![4]⟩ .f32)

/-! ### The reference arrangement -/

/-- A layer of the reference: the product with the weight aggregated, plus the self-loop, plus the bias. -/
def refLayer {K C : Nat} (ag : FVec Ideal ⟨2, ![100000, C]⟩ .f32 → IVec SEI 32 → FVec Ideal ⟨2, ![100000, C]⟩ .f32)
    (hin : FVec Ideal ⟨2, ![100000, K]⟩ .f32) (W : FVec Ideal ⟨2, ![K, C]⟩ .f32) (b : FVec Ideal ⟨1, ![C]⟩ .f32) :
    FVec Ideal ⟨2, ![100000, C]⟩ .f32 :=
  addRow (comb (ag (mm hin W) ei) (mm hin W) (dsq ei)) b

def refH1 : FVec Ideal ⟨2, ![100000, 64]⟩ .f32 := relu (refLayer ei agg64 x W1 b1)
def refH2 : FVec Ideal ⟨2, ![100000, 64]⟩ .f32 := relu (refLayer ei agg64 (refH1 x ei W1 b1) W2 b2)
def refNet : FVec Ideal ⟨2, ![100000, 4]⟩ .f32 := logSoftmax (refLayer ei agg4 (refH2 x ei W1 b1 W2 b2) W3 b3)

/-! ### The kernel arrangement -/

def kerH2 : FVec Ideal ⟨2, ![100000, 64]⟩ .f32 :=
  layer1 (aggK10 x ei) x (dsqCol ei) W1 (shapeCast ⟨2, ![1, 64]⟩ b1 hB64) W2
def kerH3 : FVec Ideal ⟨2, ![100000, 4]⟩ .f32 :=
  layer2 (aggK64 (kerH2 x ei W1 b1 W2) ei) (kerH2 x ei W1 b1 W2) (dsqCol ei) (shapeCast ⟨2, ![1, 64]⟩ b2 hB64) W3
def kerNet : FVec Ideal ⟨2, ![100000, 4]⟩ .f32 :=
  layer3 (aggK4 (kerH3 x ei W1 b1 W2 b2 W3) ei) (kerH3 x ei W1 b1 W2 b2 W3) (dsqCol ei) (shapeCast ⟨2, ![1, 4]⟩ b3 hB4)

end Nets

end Cert.Gcn.Net

end
-- ==== Proof.KernelTerm.lean ====
/-
  The kernel program's result as the network function `kerNet` of its launch arguments.

  The buffer contents at the six segment boundaries are a fold from the launch memory. Walking the fold: the first stretch
  of host operations computes the source and destination words, the edge weights as a column, the self-loop factors as a
  column, the aggregated 10-column input and the first bias as a row; region 0 leaves the first layer of those in its
  output array; the second stretch aggregates that array with the same edge weights; region 1 leaves the second layer; the
  third stretch aggregates again; region 2 leaves the third layer, the program's result. A buffer a segment does not write
  keeps its contents across the segment.
-/
import proofs.«172584_j2791728742833_2_alg».proof.Proof.KernelRun
import proofs.«172584_j2791728742833_2_alg».proof.Proof.Region0
import proofs.«172584_j2791728742833_2_alg».proof.Proof.Region1
import proofs.«172584_j2791728742833_2_alg».proof.Proof.Region2
import proofs.«172584_j2791728742833_2_alg».proof.Proof.Network

set_option maxRecDepth 16384

noncomputable section

namespace Cert.KernelIdeal.Walk

open Cert.KernelIdeal Cert.KernelIdeal.Gen
open Idealize.ShloMosaic Idealize.ShloMosaic.TcCoe Idealize.ShloMosaic.StableHlo Idealize.SL.Sem
open Cert.Gcn Cert.Gcn.Net

variable (m : (ℓ : Loc nD τ sig) → Buf (Elt Ideal) ℓ) (ρ : Dev nD → PrngReg) (c : Dev nD)

/-- The eight arguments as launched. -/
abbrev aX : FVec Ideal ⟨2, ![100000, 10]⟩ .f32 := m ((c : Thread nD τ).loc main_arg0)
abbrev aEI : IVec SEI 32 := m ((c : Thread nD τ).loc main_arg1)
abbrev aW1 : FVec Ideal ⟨2, ![10, 64]⟩ .f32 := m ((c : Thread nD τ).loc main_arg2)
abbrev aB1 : FVec Ideal ⟨1, ![64]⟩ .f32 := m ((c : Thread nD τ).loc main_arg3)
abbrev aW2 : FVec Ideal ⟨2, ![64, 64]⟩ .f32 := m ((c : Thread nD τ).loc main_arg4)
abbrev aB2 : FVec Ideal ⟨1, ![64]⟩ .f32 := m ((c : Thread nD τ).loc main_arg5)
abbrev aW3 : FVec Ideal ⟨2, ![64, 4]⟩ .f32 := m ((c : Thread nD τ).loc main_arg6)
abbrev aB3 : FVec Ideal ⟨1, ![4]⟩ .f32 := m ((c : Thread nD τ).loc main_arg7)

/-! ## After the first stretch (region 0's entry) -/

theorem W1_v1 : W1 m ρ c (Proc.devRef .tc main_v1) = srcV (aEI m c) := by
  show StableHlo.after hostOps0 (W0 m ρ c) (Proc.devRef .tc main_v1) = _
  after_results_simp <;> rfl
theorem W1_v3 : W1 m ρ c (Proc.devRef .tc main_v3) = dstV (aEI m c) := by
  show StableHlo.after hostOps0 (W0 m ρ c) (Proc.devRef .tc main_v3) = _
  after_results_simp <;> rfl
theorem W1_v28 : W1 m ρ c (Proc.devRef .tc main_v28) = wCol (aEI m c) := by
  show StableHlo.after hostOps0 (W0 m ρ c) (Proc.devRef .tc main_v28) = _
  after_results_simp <;> rfl
theorem W1_v12 : W1 m ρ c (Proc.devRef .tc main_v12) = dsqCol (aEI m c) := by
  show StableHlo.after hostOps0 (W0 m ρ c) (Proc.devRef .tc main_v12) = _
  after_results_simp <;> rfl
theorem W1_v40 : W1 m ρ c (Proc.devRef .tc main_v40) = aggK10 (aX m c) (aEI m c) := by
  show StableHlo.after hostOps0 (W0 m ρ c) (Proc.devRef .tc main_v40) = _
  after_results_simp <;> rfl
theorem W1_v41 : W1 m ρ c (Proc.devRef .tc main_v41) = shapeCast ⟨2, ![1, 64]⟩ (aB1 m c) hB64 := by
  show StableHlo.after hostOps0 (W0 m ρ c) (Proc.devRef .tc main_v41) = _
  after_results_simp <;> rfl
theorem W1_arg0 : W1 m ρ c (Proc.devRef .tc main_arg0) = aX m c := by
  show StableHlo.after hostOps0 (W0 m ρ c) (Proc.devRef .tc main_arg0) = _
  after_results_simp <;> rfl
theorem W1_arg2 : W1 m ρ c (Proc.devRef .tc main_arg2) = aW1 m c := by
  show StableHlo.after hostOps0 (W0 m ρ c) (Proc.devRef .tc main_arg2) = _
  after_results_simp <;> rfl
theorem W1_arg4 : W1 m ρ c (Proc.devRef .tc main_arg4) = aW2 m c := by
  show StableHlo.after hostOps0 (W0 m ρ c) (Proc.devRef .tc main_arg4) = _
  after_results_simp <;> rfl
theorem W1_arg5 : W1 m ρ c (Proc.devRef .tc main_arg5) = aB2 m c := by
  show StableHlo.after hostOps0 (W0 m ρ c) (Proc.devRef .tc main_arg5) = _
  after_results_simp <;> rfl
theorem W1_arg6 : W1 m ρ c (Proc.devRef .tc main_arg6) = aW3 m c := by
  show StableHlo.after hostOps0 (W0 m ρ c) (Proc.devRef .tc main_arg6) = _
  after_results_simp <;> rfl
theorem W1_arg7 : W1 m ρ c (Proc.devRef .tc main_arg7) = aB3 m c := by
  show StableHlo.after hostOps0 (W0 m ρ c) (Proc.devRef .tc main_arg7) = _
  after_results_simp <;> rfl

/-! ## After region 0 -/

/-- Region 0's output array: the first layer. -/
theorem W2_v42 : W2 m ρ c (Proc.devRef .tc main_v42) = kerH2 (aX m c) (aEI m c) (aW1 m c) (aB1 m c) (aW2 m c) := by
  refine (W2_arr m ρ c 6).trans ((Region0.final (V1 m ρ) c).trans ?_)
  show layer1 (W1 m ρ c (Proc.devRef .tc main_v40)) (W1 m ρ c (Proc.devRef .tc main_arg0)) (W1 m ρ c (Proc.devRef .tc main_v12))
    (W1 m ρ c (Proc.devRef .tc main_arg2)) (W1 m ρ c (Proc.devRef .tc main_v41)) (W1 m ρ c (Proc.devRef .tc main_arg4)) = _
  rw [W1_v40, W1_arg0, W1_v12, W1_arg2, W1_v41, W1_arg4]
  rfl
theorem W2_v1 : W2 m ρ c (Proc.devRef .tc main_v1) = srcV (aEI m c) :=
  (W2_of_ne m ρ c main_v1 (by decide)).trans (W1_v1 m ρ c)
theorem W2_v3 : W2 m ρ c (Proc.devRef .tc main_v3) = dstV (aEI m c) :=
  (W2_of_ne m ρ c main_v3 (by decide)).trans (W1_v3 m ρ c)
theorem W2_v28 : W2 m ρ c (Proc.devRef .tc main_v28) = wCol (aEI m c) :=
  (W2_of_ne m ρ c main_v28 (by decide)).trans (W1_v28 m ρ c)
theorem W2_v12 : W2 m ρ c (Proc.devRef .tc main_v12) = dsqCol (aEI m c) :=
  ((W2_arr m ρ c 2).trans (((dat0 (V1 m ρ) c).arrAt_in 2 rfl _).trans (A_eq0 (V1 m ρ) c 2))).trans (W1_v12 m ρ c)
theorem W2_arg5 : W2 m ρ c (Proc.devRef .tc main_arg5) = aB2 m c :=
  (W2_of_ne m ρ c main_arg5 (by decide)).trans (W1_arg5 m ρ c)
theorem W2_arg6 : W2 m ρ c (Proc.devRef .tc main_arg6) = aW3 m c :=
  (W2_of_ne m ρ c main_arg6 (by decide)).trans (W1_arg6 m ρ c)
theorem W2_arg7 : W2 m ρ c (Proc.devRef .tc main_arg7) = aB3 m c :=
  (W2_of_ne m ρ c main_arg7 (by decide)).trans (W1_arg7 m ρ c)

/-! ## After the second stretch (region 1's entry) -/

theorem W3_v54 : W3 m ρ c (Proc.devRef .tc main_v54)
    = aggK64 (kerH2 (aX m c) (aEI m c) (aW1 m c) (aB1 m c) (aW2 m c)) (aEI m c) := by
  show StableHlo.after hostOps1 (W2 m ρ c) (Proc.devRef .tc main_v54) = _
  after_results_simp
  rw [W2_v1, W2_v3, W2_v28, W2_v42]
  rfl
theorem W3_v42 : W3 m ρ c (Proc.devRef .tc main_v42) = kerH2 (aX m c) (aEI m c) (aW1 m c) (aB1 m c) (aW2 m c) := by
  show StableHlo.after hostOps1 (W2 m ρ c) (Proc.devRef .tc main_v42) = _
  after_results_simp
  exact W2_v42 m ρ c
theorem W3_v12 : W3 m ρ c (Proc.devRef .tc main_v12) = dsqCol (aEI m c) := by
  show StableHlo.after hostOps1 (W2 m ρ c) (Proc.devRef .tc main_v12) = _
  after_results_simp
  exact W2_v12 m ρ c
theorem W3_v55 : W3 m ρ c (Proc.devRef .tc main_v55) = shapeCast ⟨2, ![1, 64]⟩ (aB2 m c) hB64 := by
  show StableHlo.after hostOps1 (W2 m ρ c) (Proc.devRef .tc main_v55) = _
  after_results_simp
  rw [W2_arg5]
  rfl
theorem W3_arg6 : W3 m ρ c (Proc.devRef .tc main_arg6) = aW3 m c := by
  show StableHlo.after hostOps1 (W2 m ρ c) (Proc.devRef .tc main_arg6) = _
  after_results_simp
  exact W2_arg6 m ρ c
theorem W3_v1 : W3 m ρ c (Proc.devRef .tc main_v1) = srcV (aEI m c) := by
  show StableHlo.after hostOps1 (W2 m ρ c) (Proc.devRef .tc main_v1) = _
  after_results_simp
  exact W2_v1 m ρ c
theorem W3_v3 : W3 m ρ c (Proc.devRef .tc main_v3) = dstV (aEI m c) := by
  show StableHlo.after hostOps1 (W2 m ρ c) (Proc.devRef .tc main_v3) = _
  after_results_simp
  exact W2_v3 m ρ c
theorem W3_v28 : W3 m ρ c (Proc.devRef .tc main_v28) = wCol (aEI m c) := by
  show StableHlo.after hostOps1 (W2 m ρ c) (Proc.devRef .tc main_v28) = _
  after_results_simp
  exact W2_v28 m ρ c
theorem W3_arg7 : W3 m ρ c (Proc.devRef .tc main_arg7) = aB3 m c := by
  show StableHlo.after hostOps1 (W2 m ρ c) (Proc.devRef .tc main_arg7) = _
  after_results_simp
  exact W2_arg7 m ρ c

/-! ## After region 1 -/

/-- Region 1's output array: the second layer. -/
theorem W4_v56 : W4 m ρ c (Proc.devRef .tc main_v56)
    = kerH3 (aX m c) (aEI m c) (aW1 m c) (aB1 m c) (aW2 m c) (aB2 m c) (aW3 m c) := by
  refine (W4_arr m ρ c 5).trans ((Region1.final (V3 m ρ) c).trans ?_)
  show layer2 (W3 m ρ c (Proc.devRef .tc main_v54)) (W3 m ρ c (Proc.devRef .tc main_v42)) (W3 m ρ c (Proc.devRef .tc main_v12))
    (W3 m ρ c (Proc.devRef .tc main_v55)) (W3 m ρ c (Proc.devRef .tc main_arg6)) = _
  rw [W3_v54, W3_v42, W3_v12, W3_v55, W3_arg6]
  rfl
theorem W4_v1 : W4 m ρ c (Proc.devRef .tc main_v1) = srcV (aEI m c) :=
  (W4_of_ne m ρ c main_v1 (by decide)).trans (W3_v1 m ρ c)
theorem W4_v3 : W4 m ρ c (Proc.devRef .tc main_v3) = dstV (aEI m c) :=
  (W4_of_ne m ρ c main_v3 (by decide)).trans (W3_v3 m ρ c)
theorem W4_v28 : W4 m ρ c (Proc.devRef .tc main_v28) = wCol (aEI m c) :=
  (W4_of_ne m ρ c main_v28 (by decide)).trans (W3_v28 m ρ c)
theorem W4_v12 : W4 m ρ c (Proc.devRef .tc main_v12) = dsqCol (aEI m c) :=
  ((W4_arr m ρ c 2).trans (((dat1 (V3 m ρ) c).arrAt_in 2 rfl _).trans (A_eq1 (V3 m ρ) c 2))).trans (W3_v12 m ρ c)
theorem W4_arg7 : W4 m ρ c (Proc.devRef .tc main_arg7) = aB3 m c :=
  (W4_of_ne m ρ c main_arg7 (by decide)).trans (W3_arg7 m ρ c)

/-! ## After the third stretch (region 2's entry) -/

theorem W5_v68 : W5 m ρ c (Proc.devRef .tc main_v68)
    = aggK4 (kerH3 (aX m c) (aEI m c) (aW1 m c) (aB1 m c) (aW2 m c) (aB2 m c) (aW3 m c)) (aEI m c) := by
  show StableHlo.after hostOps2 (W4 m ρ c) (Proc.devRef .tc main_v68) = _
  after_results_simp
  rw [W4_v1, W4_v3, W4_v28, W4_v56]
  rfl
theorem W5_v56 : W5 m ρ c (Proc.devRef .tc main_v56)
    = kerH3 (aX m c) (aEI m c) (aW1 m c) (aB1 m c) (aW2 m c) (aB2 m c) (aW3 m c) := by
  show StableHlo.after hostOps2 (W4 m ρ c) (Proc.devRef .tc main_v56) = _
  after_results_simp
  exact W4_v56 m ρ c
theorem W5_v12 : W5 m ρ c (Proc.devRef .tc main_v12) = dsqCol (aEI m c) := by
  show StableHlo.after hostOps2 (W4 m ρ c) (Proc.devRef .tc main_v12) = _
  after_results_simp
  exact W4_v12 m ρ c
theorem W5_v69 : W5 m ρ c (Proc.devRef .tc main_v69) = shapeCast ⟨2, ![1, 4]⟩ (aB3 m c) hB4 := by
  show StableHlo.after hostOps2 (W4 m ρ c) (Proc.devRef .tc main_v69) = _
  after_results_simp
  rw [W4_arg7]
  rfl

/-! ## After region 2: the result -/

/-- THE RESULT: the program's result buffer ends holding the kernel arrangement's network function of the arguments. -/
theorem W6_v70 : W6 m ρ c (Proc.devRef .tc main_v70)
    = kerNet (aX m c) (aEI m c) (aW1 m c) (aB1 m c) (aW2 m c) (aB2 m c) (aW3 m c) (aB3 m c) := by
  refine (W6_arr m ρ c 4).trans ((Region2.final (V5 m ρ) c).trans ?_)
  show layer3 (W5 m ρ c (Proc.devRef .tc main_v68)) (W5 m ρ c (Proc.devRef .tc main_v56)) (W5 m ρ c (Proc.devRef .tc main_v12))
    (W5 m ρ c (Proc.devRef .tc main_v69)) = _
  rw [W5_v68, W5_v56, W5_v12, W5_v69]
  rfl

/-- The run: the result buffer ends at `kerNet` of the launch arguments, the arguments end as launched. -/
theorem run_value : θ_run defs (onTc (τ := τ) (main (F := Ideal))) ⟨m, fun _ => 0, ρ⟩ (fun r => ∀ c : Dev nD,
      r.2.mem ((c.tc : Thread nD τ).loc main_v70)
        = kerNet (aX m c) (aEI m c) (aW1 m c) (aB1 m c) (aW2 m c) (aB2 m c) (aW3 m c) (aB3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W6_v70 m ρ c), (h c).2⟩)
    (Cert.KernelIdeal.RunValue.run_named (F := Ideal) m ρ)

end Cert.KernelIdeal.Walk

end
-- ==== Proof.LibTyped.lean ====
/-
  The contents of a typed reference, transported to its buffer's type and back.

  A value of an outlined function is held at a typed reference: its contents are carried to the buffer's own
  type (`toBuf`) when written and back (`ofBuf`) when read, both along the reference's type equation. Carried
  there and back — a result written by one operation and read by the next — they are unchanged. Stated for any
  typed reference, so a rewriting pass can drop every such pair without computing a buffer's type.
-/
import Idealize.ShloMosaic.Lib.StableHlo

namespace Cert.Lib.Typed

open Idealize.ShloMosaic Idealize.ShloMosaic.StableHlo

variable {sig : RefSig} {Val : EltTy → Type} {T : BufTy}

/-- Written to the buffer's type and read back at the value's type: unchanged. -/
theorem ofBuf_toBuf (x : TRef sig T) (v : T.Contents Val) : x.ofBuf (x.toBuf v) = v := by
  obtain ⟨r, h, h1, h2⟩ := x
  subst h
  rfl

/-- Read at the value's type and written back to the buffer's type: unchanged. -/
theorem toBuf_ofBuf (x : TRef sig T) (v : x.ref.ty.Contents Val) : x.toBuf (x.ofBuf v) = v := by
  obtain ⟨r, h, h1, h2⟩ := x
  subst h
  rfl

end Cert.Lib.Typed
-- ==== Proof.RefTerm.lean ====
/-
  The value of the reference's fold of operations on the extended reals: the whole-array function `refNet` of the eight
  arguments.

  The 167 operations are cut into seven lists: the edge vectors and node factors, then for each of the three layers
  the layer up to its added bias and what follows it (the positive part, twice; the row-wise logarithm of the
  softmax). The fold over a concatenation is the fold over the second list from the fold over the first, so each
  list is read on its own, from ANY contents `V` of the buffers: the first writes the source and destination vectors
  of the edge table and the nodes' factors; a layer's list, from contents that hold those three, writes the layer of
  its input buffer; the short lists write the positive part, or the log-softmax, of their input buffer; and each
  leaves the buffers read later alone. Each reading unfolds its list's results once and is then the host's spelling of
  the named function.
-/
import proofs.«172584_j2791728742833_2_alg».proof.Proof.RefRun
import proofs.«172584_j2791728742833_2_alg».proof.Proof.Network
import proofs.«172584_j2791728742833_2_alg».proof.Proof.LibTyped

noncomputable section

namespace Cert.ReferenceIdeal.ValueP

open Cert.ReferenceIdeal Cert.ReferenceIdeal.Gen Idealize.ShloMosaic Idealize.ShloMosaic.TcCoe Idealize.SL.Sem Idealize.ShloMosaic.StableHlo
open Idealize.ShloMosaic.ValueIdx Cert.Lib.RowScatter Cert.Lib.Aggregate Cert.Lib.Dense Cert.Lib.BiasDot
open Cert.Lib.RowLayers Cert.Lib.LogSoftmax Cert.Lib.Scatter1 Cert.Lib.Gather1 Cert.Gcn Cert.Gcn.Net Cert.Lib.Typed

/-- The fold over a concatenation: the second list's fold from the first list's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-! ## The seven lists -/

section Lists
variable {F : FTy → Type} [FloatOps F]

/-- The first 14 operations: the two rows of the edge table as vectors and the nodes' normalising factors. -/
abbrev opsP : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)) ]

/-- The 44 operations of the first layer, through the added bias. -/
abbrev opsL1 : List (HloOp τ sig (Elt F)) :=
  [ binary main_arg0 main_arg2 main_v11 ((fun l r => Host.dotGeneral dot_S100000x10_S10x64_S100000x64_1_0_0_1_n_n none l r) : (⟨S100000x10, .f32⟩ : BufTy).Contents (Elt F) → (⟨S10x64, .f32⟩ : BufTy).Contents (Elt F) → (⟨S100000x64, .f32⟩ : BufTy).Contents (Elt F)),
    nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v14 (broadcastInDim S1600000 ![] bcast_S_S1600000 : (⟨S_, .i32⟩ : BufTy).Contents (Elt F) → (⟨S1600000, .i32⟩ : BufTy).Contents (Elt F)),
    binary main_v1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_v10 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v19 (broadcastInDim S1600000 ![] bcast_S_S1600000 : (⟨S_, .i32⟩ : BufTy).Contents (Elt F) → (⟨S1600000, .i32⟩ : BufTy).Contents (Elt F)),
    binary main_v3 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v21 (broadcastInDim S1600000 ![] bcast_S_S1600000 : (⟨S_, .i32⟩ : BufTy).Contents (Elt F) → (⟨S1600000, .i32⟩ : BufTy).Contents (Elt F)),
    binary main_v3 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v10 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v18 main_v25 main_v26 (mulf : (⟨S1600000, .f32⟩ : BufTy).Contents (Elt F) → (⟨S1600000, .f32⟩ : BufTy).Contents (Elt F) → (⟨S1600000, .f32⟩ : BufTy).Contents (Elt F)),
    nullary main_c_5 (constantI S_ 32 0#32),
    unary main_c_5 main_v27 (broadcastInDim S1600000 ![] bcast_S_S1600000 : (⟨S_, .i32⟩ : BufTy).Contents (Elt F) → (⟨S1600000, .i32⟩ : BufTy).Contents (Elt F)),
    binary main_v1 main_v27 main_v28 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v29 (broadcastInDim S1600000 ![] bcast_S_S1600000 : (⟨S_, .i32⟩ : BufTy).Contents (Elt F) → (⟨S1600000, .i32⟩ : BufTy).Contents (Elt F)),
    binary main_v1 main_v29 main_v30 (addi : (⟨S1600000, .i32⟩ : BufTy).Contents (Elt F) → (⟨S1600000, .i32⟩ : BufTy).Contents (Elt F) → (⟨S1600000, .i32⟩ : BufTy).Contents (Elt F)),
    ternary main_v28 main_v30 main_v1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v31 main_v32 (broadcastInDim S1600000x1 ![0] bcast_S1600000_S1600000x1_0 : (⟨S1600000, .i32⟩ : BufTy).Contents (Elt F) → (⟨S1600000x1, .i32⟩ : BufTy).Contents (Elt F)),
    binary main_v11 main_v32 main_v33 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v26 main_v34 (broadcastInDim S1600000x1 ![0] bcast_S1600000_S1600000x1_0 : (⟨S1600000, .f32⟩ : BufTy).Contents (Elt F) → (⟨S1600000x1, .f32⟩ : BufTy).Contents (Elt F)),
    unary main_v34 main_v35 (broadcastInDim S1600000x64 ![0, 1] bcast_S1600000x1_S1600000x64_0_1 : (⟨S1600000x1, .f32⟩ : BufTy).Contents (Elt F) → (⟨S1600000x64, .f32⟩ : BufTy).Contents (Elt F)),
    binary main_v33 main_v35 main_v36 (mulf : (⟨S1600000x64, .f32⟩ : BufTy).Contents (Elt F) → (⟨S1600000x64, .f32⟩ : BufTy).Contents (Elt F) → (⟨S1600000x64, .f32⟩ : BufTy).Contents (Elt F)),
    nullary main_cst_7 (constant S_ .f32 0x00000000#32),
    unary main_cst_7 main_v37 (broadcastInDim S100000x64 ![] bcast_S_S100000x64 : (⟨S_, .f32⟩ : BufTy).Contents (Elt F) → (⟨S100000x64, .f32⟩ : BufTy).Contents (Elt F)),
    unary main_v3 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v10 main_v10 main_v40 (mulf : (⟨S100000, .f32⟩ : BufTy).Contents (Elt F) → (⟨S100000, .f32⟩ : BufTy).Contents (Elt F) → (⟨S100000, .f32⟩ : BufTy).Contents (Elt F)),
    unary main_v40 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x64 ![0, 1] bcast_S100000x1_S100000x64_0_1 : (⟨S100000x1, .f32⟩ : BufTy).Contents (Elt F) → (⟨S100000x64, .f32⟩ : BufTy).Contents (Elt F)),
    binary main_v11 main_v42 main_v43 (mulf : (⟨S100000x64, .f32⟩ : BufTy).Contents (Elt F) → (⟨S100000x64, .f32⟩ : BufTy).Contents (Elt F) → (⟨S100000x64, .f32⟩ : BufTy).Contents (Elt F)),
    binary main_v39 main_v43 main_v44 (addf : (⟨S100000x64, .f32⟩ : BufTy).Contents (Elt F) → (⟨S100000x64, .f32⟩ : BufTy).Contents (Elt F) → (⟨S100000x64, .f32⟩ : BufTy).Contents (Elt F)),
    unary main_arg3 main_v45 (broadcastInDim S1x64 ![1] bcast_S64_S1x64_1 : (⟨S64, .f32⟩ : BufTy).Contents (Elt F) → (⟨S1x64, .f32⟩ : BufTy).Contents (Elt F)),
    unary main_v45 main_v46 (broadcastInDim S100000x64 ![0, 1] bcast_S1x64_S100000x64_0_1 : (⟨S1x64, .f32⟩ : BufTy).Contents (Elt F) → (⟨S100000x64, .f32⟩ : BufTy).Contents (Elt F)),
    binary main_v44 main_v46 main_v47 (addf : (⟨S100000x64, .f32⟩ : BufTy).Contents (Elt F) → (⟨S100000x64, .f32⟩ : BufTy).Contents (Elt F) → (⟨S100000x64, .f32⟩ : BufTy).Contents (Elt F)) ]

/-- The 3 operations of the first layer's positive part. -/
abbrev opsR1 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v47) (TRef.of (T := ⟨S100000x64, .f32⟩) main_call0_v0) (TRef.of (T := ⟨S100000x64, .f32⟩) main_v48) maximumf ]

/-- The 44 operations of the second layer, through the added bias. -/
abbrev opsL2 : List (HloOp τ sig (Elt F)) :=
  [ binary main_v48 main_arg4 main_v49 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_8 (constantI S_ 32 0#32),
    unary main_c_8 main_v50 (broadcastInDim S1600000 ![] bcast_S_S1600000 : (⟨S_, .i32⟩ : BufTy).Contents (Elt F) → (⟨S1600000, .i32⟩ : BufTy).Contents (Elt F)),
    binary main_v1 main_v50 main_v51 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v52 (broadcastInDim S1600000 ![] bcast_S_S1600000 : (⟨S_, .i32⟩ : BufTy).Contents (Elt F) → (⟨S1600000, .i32⟩ : BufTy).Contents (Elt F)),
    binary main_v1 main_v52 main_v53 (addi : (⟨S1600000, .i32⟩ : BufTy).Contents (Elt F) → (⟨S1600000, .i32⟩ : BufTy).Contents (Elt F) → (⟨S1600000, .i32⟩ : BufTy).Contents (Elt F)),
    ternary main_v51 main_v53 main_v1 main_v54 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v54 main_v55 (broadcastInDim S1600000x1 ![0] bcast_S1600000_S1600000x1_0 : (⟨S1600000, .i32⟩ : BufTy).Contents (Elt F) → (⟨S1600000x1, .i32⟩ : BufTy).Contents (Elt F)),
    binary main_v10 main_v55 main_v56 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_10 (constantI S_ 32 0#32),
    unary main_c_10 main_v57 (broadcastInDim S1600000 ![] bcast_S_S1600000 : (⟨S_, .i32⟩ : BufTy).Contents (Elt F) → (⟨S1600000, .i32⟩ : BufTy).Contents (Elt F)),
    binary main_v3 main_v57 main_v58 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v59 (broadcastInDim S1600000 ![] bcast_S_S1600000 : (⟨S_, .i32⟩ : BufTy).Contents (Elt F) → (⟨S1600000, .i32⟩ : BufTy).Contents (Elt F)),
    binary main_v3 main_v59 main_v60 (addi : (⟨S1600000, .i32⟩ : BufTy).Contents (Elt F) → (⟨S1600000, .i32⟩ : BufTy).Contents (Elt F) → (⟨S1600000, .i32⟩ : BufTy).Contents (Elt F)),
    ternary main_v58 main_v60 main_v3 main_v61 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v61 main_v62 (broadcastInDim S1600000x1 ![0] bcast_S1600000_S1600000x1_0 : (⟨S1600000, .i32⟩ : BufTy).Contents (Elt F) → (⟨S1600000x1, .i32⟩ : BufTy).Contents (Elt F)),
    binary main_v10 main_v62 main_v63 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v56 main_v63 main_v64 (mulf : (⟨S1600000, .f32⟩ : BufTy).Contents (Elt F) → (⟨S1600000, .f32⟩ : BufTy).Contents (Elt F) → (⟨S1600000, .f32⟩ : BufTy).Contents (Elt F)),
    nullary main_c_12 (constantI S_ 32 0#32),
    unary main_c_12 main_v65 (broadcastInDim S1600000 ![] bcast_S_S1600000 : (⟨S_, .i32⟩ : BufTy).Contents (Elt F) → (⟨S1600000, .i32⟩ : BufTy).Contents (Elt F)),
    binary main_v1 main_v65 main_v66 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v67 (broadcastInDim S1600000 ![] bcast_S_S1600000 : (⟨S_, .i32⟩ : BufTy).Contents (Elt F) → (⟨S1600000, .i32⟩ : BufTy).Contents (Elt F)),
    binary main_v1 main_v67 main_v68 (addi : (⟨S1600000, .i32⟩ : BufTy).Contents (Elt F) → (⟨S1600000, .i32⟩ : BufTy).Contents (Elt F) → (⟨S1600000, .i32⟩ : BufTy).Contents (Elt F)),
    ternary main_v66 main_v68 main_v1 main_v69 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v69 main_v70 (broadcastInDim S1600000x1 ![0] bcast_S1600000_S1600000x1_0 : (⟨S1600000, .i32⟩ : BufTy).Contents (Elt F) → (⟨S1600000x1, .i32⟩ : BufTy).Contents (Elt F)),
    binary main_v49 main_v70 main_v71 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v64 main_v72 (broadcastInDim S1600000x1 ![0] bcast_S1600000_S1600000x1_0 : (⟨S1600000, .f32⟩ : BufTy).Contents (Elt F) → (⟨S1600000x1, .f32⟩ : BufTy).Contents (Elt F)),
    unary main_v72 main_v73 (broadcastInDim S1600000x64 ![0, 1] bcast_S1600000x1_S1600000x64_0_1 : (⟨S1600000x1, .f32⟩ : BufTy).Contents (Elt F) → (⟨S1600000x64, .f32⟩ : BufTy).Contents (Elt F)),
    binary main_v71 main_v73 main_v74 (mulf : (⟨S1600000x64, .f32⟩ : BufTy).Contents (Elt F) → (⟨S1600000x64, .f32⟩ : BufTy).Contents (Elt F) → (⟨S1600000x64, .f32⟩ : BufTy).Contents (Elt F)),
    nullary main_cst_14 (constant S_ .f32 0x00000000#32),
    unary main_cst_14 main_v75 (broadcastInDim S100000x64 ![] bcast_S_S100000x64 : (⟨S_, .f32⟩ : BufTy).Contents (Elt F) → (⟨S100000x64, .f32⟩ : BufTy).Contents (Elt F)),
    unary main_v3 main_v76 (broadcastInDim S1600000x1 ![0] bcast_S1600000_S1600000x1_0 : (⟨S1600000, .i32⟩ : BufTy).Contents (Elt F) → (⟨S1600000x1, .i32⟩ : BufTy).Contents (Elt F)),
    ternary main_v75 main_v76 main_v74 main_v77 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v10 main_v10 main_v78 (mulf : (⟨S100000, .f32⟩ : BufTy).Contents (Elt F) → (⟨S100000, .f32⟩ : BufTy).Contents (Elt F) → (⟨S100000, .f32⟩ : BufTy).Contents (Elt F)),
    unary main_v78 main_v79 (broadcastInDim S100000x1 ![0] bcast_S100000_S100000x1_0 : (⟨S100000, .f32⟩ : BufTy).Contents (Elt F) → (⟨S100000x1, .f32⟩ : BufTy).Contents (Elt F)),
    unary main_v79 main_v80 (broadcastInDim S100000x64 ![0, 1] bcast_S100000x1_S100000x64_0_1 : (⟨S100000x1, .f32⟩ : BufTy).Contents (Elt F) → (⟨S100000x64, .f32⟩ : BufTy).Contents (Elt F)),
    binary main_v49 main_v80 main_v81 (mulf : (⟨S100000x64, .f32⟩ : BufTy).Contents (Elt F) → (⟨S100000x64, .f32⟩ : BufTy).Contents (Elt F) → (⟨S100000x64, .f32⟩ : BufTy).Contents (Elt F)),
    binary main_v77 main_v81 main_v82 (addf : (⟨S100000x64, .f32⟩ : BufTy).Contents (Elt F) → (⟨S100000x64, .f32⟩ : BufTy).Contents (Elt F) → (⟨S100000x64, .f32⟩ : BufTy).Contents (Elt F)),
    unary main_arg5 main_v83 (broadcastInDim S1x64 ![1] bcast_S64_S1x64_1 : (⟨S64, .f32⟩ : BufTy).Contents (Elt F) → (⟨S1x64, .f32⟩ : BufTy).Contents (Elt F)),
    unary main_v83 main_v84 (broadcastInDim S100000x64 ![0, 1] bcast_S1x64_S100000x64_0_1 : (⟨S1x64, .f32⟩ : BufTy).Contents (Elt F) → (⟨S100000x64, .f32⟩ : BufTy).Contents (Elt F)),
    binary main_v82 main_v84 main_v85 (addf : (⟨S100000x64, .f32⟩ : BufTy).Contents (Elt F) → (⟨S100000x64, .f32⟩ : BufTy).Contents (Elt F) → (⟨S100000x64, .f32⟩ : BufTy).Contents (Elt F)) ]

/-- The 3 operations of the second layer's positive part. -/
abbrev opsR2 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v85) (TRef.of (T := ⟨S100000x64, .f32⟩) main_call1_v0) (TRef.of (T := ⟨S100000x64, .f32⟩) main_v86) maximumf ]

/-- The 44 operations of the third layer, through the added bias. -/
abbrev opsL3 : List (HloOp τ sig (Elt F)) :=
  [ binary main_v86 main_arg6 main_v87 ((fun l r => Host.dotGeneral dot_S100000x64_S64x4_S100000x4_1_0_0_1_n_n none l r) : (⟨S100000x64, .f32⟩ : BufTy).Contents (Elt F) → (⟨S64x4, .f32⟩ : BufTy).Contents (Elt F) → (⟨S100000x4, .f32⟩ : BufTy).Contents (Elt F)),
    nullary main_c_15 (constantI S_ 32 0#32),
    unary main_c_15 main_v88 (broadcastInDim S1600000 ![] bcast_S_S1600000 : (⟨S_, .i32⟩ : BufTy).Contents (Elt F) → (⟨S1600000, .i32⟩ : BufTy).Contents (Elt F)),
    binary main_v1 main_v88 main_v89 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v90 (broadcastInDim S1600000 ![] bcast_S_S1600000 : (⟨S_, .i32⟩ : BufTy).Contents (Elt F) → (⟨S1600000, .i32⟩ : BufTy).Contents (Elt F)),
    binary main_v1 main_v90 main_v91 (addi : (⟨S1600000, .i32⟩ : BufTy).Contents (Elt F) → (⟨S1600000, .i32⟩ : BufTy).Contents (Elt F) → (⟨S1600000, .i32⟩ : BufTy).Contents (Elt F)),
    ternary main_v89 main_v91 main_v1 main_v92 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v92 main_v93 (broadcastInDim S1600000x1 ![0] bcast_S1600000_S1600000x1_0 : (⟨S1600000, .i32⟩ : BufTy).Contents (Elt F) → (⟨S1600000x1, .i32⟩ : BufTy).Contents (Elt F)),
    binary main_v10 main_v93 main_v94 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_17 (constantI S_ 32 0#32),
    unary main_c_17 main_v95 (broadcastInDim S1600000 ![] bcast_S_S1600000 : (⟨S_, .i32⟩ : BufTy).Contents (Elt F) → (⟨S1600000, .i32⟩ : BufTy).Contents (Elt F)),
    binary main_v3 main_v95 main_v96 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v97 (broadcastInDim S1600000 ![] bcast_S_S1600000 : (⟨S_, .i32⟩ : BufTy).Contents (Elt F) → (⟨S1600000, .i32⟩ : BufTy).Contents (Elt F)),
    binary main_v3 main_v97 main_v98 (addi : (⟨S1600000, .i32⟩ : BufTy).Contents (Elt F) → (⟨S1600000, .i32⟩ : BufTy).Contents (Elt F) → (⟨S1600000, .i32⟩ : BufTy).Contents (Elt F)),
    ternary main_v96 main_v98 main_v3 main_v99 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v99 main_v100 (broadcastInDim S1600000x1 ![0] bcast_S1600000_S1600000x1_0 : (⟨S1600000, .i32⟩ : BufTy).Contents (Elt F) → (⟨S1600000x1, .i32⟩ : BufTy).Contents (Elt F)),
    binary main_v10 main_v100 main_v101 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v94 main_v101 main_v102 (mulf : (⟨S1600000, .f32⟩ : BufTy).Contents (Elt F) → (⟨S1600000, .f32⟩ : BufTy).Contents (Elt F) → (⟨S1600000, .f32⟩ : BufTy).Contents (Elt F)),
    nullary main_c_19 (constantI S_ 32 0#32),
    unary main_c_19 main_v103 (broadcastInDim S1600000 ![] bcast_S_S1600000 : (⟨S_, .i32⟩ : BufTy).Contents (Elt F) → (⟨S1600000, .i32⟩ : BufTy).Contents (Elt F)),
    binary main_v1 main_v103 main_v104 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v105 (broadcastInDim S1600000 ![] bcast_S_S1600000 : (⟨S_, .i32⟩ : BufTy).Contents (Elt F) → (⟨S1600000, .i32⟩ : BufTy).Contents (Elt F)),
    binary main_v1 main_v105 main_v106 (addi : (⟨S1600000, .i32⟩ : BufTy).Contents (Elt F) → (⟨S1600000, .i32⟩ : BufTy).Contents (Elt F) → (⟨S1600000, .i32⟩ : BufTy).Contents (Elt F)),
    ternary main_v104 main_v106 main_v1 main_v107 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v107 main_v108 (broadcastInDim S1600000x1 ![0] bcast_S1600000_S1600000x1_0 : (⟨S1600000, .i32⟩ : BufTy).Contents (Elt F) → (⟨S1600000x1, .i32⟩ : BufTy).Contents (Elt F)),
    binary main_v87 main_v108 main_v109 ((fun x i => Host.gather gather_S100000x4_S1600000x1_S1600000x4_1_0_n_n_0_1_14 x i) : (⟨S100000x4, .f32⟩ : BufTy).Contents (Elt F) → (⟨S1600000x1, .i32⟩ : BufTy).Contents (Elt F) → (⟨S1600000x4, .f32⟩ : BufTy).Contents (Elt F)),
    unary main_v102 main_v110 (broadcastInDim S1600000x1 ![0] bcast_S1600000_S1600000x1_0 : (⟨S1600000, .f32⟩ : BufTy).Contents (Elt F) → (⟨S1600000x1, .f32⟩ : BufTy).Contents (Elt F)),
    unary main_v110 main_v111 (broadcastInDim S1600000x4 ![0, 1] bcast_S1600000x1_S1600000x4_0_1 : (⟨S1600000x1, .f32⟩ : BufTy).Contents (Elt F) → (⟨S1600000x4, .f32⟩ : BufTy).Contents (Elt F)),
    binary main_v109 main_v111 main_v112 (mulf : (⟨S1600000x4, .f32⟩ : BufTy).Contents (Elt F) → (⟨S1600000x4, .f32⟩ : BufTy).Contents (Elt F) → (⟨S1600000x4, .f32⟩ : BufTy).Contents (Elt F)),
    nullary main_cst_21 (constant S_ .f32 0x00000000#32),
    unary main_cst_21 main_v113 (broadcastInDim S100000x4 ![] bcast_S_S100000x4 : (⟨S_, .f32⟩ : BufTy).Contents (Elt F) → (⟨S100000x4, .f32⟩ : BufTy).Contents (Elt F)),
    unary main_v3 main_v114 (broadcastInDim S1600000x1 ![0] bcast_S1600000_S1600000x1_0 : (⟨S1600000, .i32⟩ : BufTy).Contents (Elt F) → (⟨S1600000x1, .i32⟩ : BufTy).Contents (Elt F)),
    ternary main_v113 main_v114 main_v112 main_v115 ((fun x i u => Host.scatterAdd scatter_S100000x4_S1600000x1_S1600000x4_1_0_0_1 x i u) : (⟨S100000x4, .f32⟩ : BufTy).Contents (Elt F) → (⟨S1600000x1, .i32⟩ : BufTy).Contents (Elt F) → (⟨S1600000x4, .f32⟩ : BufTy).Contents (Elt F) → (⟨S100000x4, .f32⟩ : BufTy).Contents (Elt F)),
    binary main_v10 main_v10 main_v116 (mulf : (⟨S100000, .f32⟩ : BufTy).Contents (Elt F) → (⟨S100000, .f32⟩ : BufTy).Contents (Elt F) → (⟨S100000, .f32⟩ : BufTy).Contents (Elt F)),
    unary main_v116 main_v117 (broadcastInDim S100000x1 ![0] bcast_S100000_S100000x1_0 : (⟨S100000, .f32⟩ : BufTy).Contents (Elt F) → (⟨S100000x1, .f32⟩ : BufTy).Contents (Elt F)),
    unary main_v117 main_v118 (broadcastInDim S100000x4 ![0, 1] bcast_S100000x1_S100000x4_0_1 : (⟨S100000x1, .f32⟩ : BufTy).Contents (Elt F) → (⟨S100000x4, .f32⟩ : BufTy).Contents (Elt F)),
    binary main_v87 main_v118 main_v119 (mulf : (⟨S100000x4, .f32⟩ : BufTy).Contents (Elt F) → (⟨S100000x4, .f32⟩ : BufTy).Contents (Elt F) → (⟨S100000x4, .f32⟩ : BufTy).Contents (Elt F)),
    binary main_v115 main_v119 main_v120 (addf : (⟨S100000x4, .f32⟩ : BufTy).Contents (Elt F) → (⟨S100000x4, .f32⟩ : BufTy).Contents (Elt F) → (⟨S100000x4, .f32⟩ : BufTy).Contents (Elt F)),
    unary main_arg7 main_v121 (broadcastInDim S1x4 ![1] bcast_S4_S1x4_1 : (⟨S4, .f32⟩ : BufTy).Contents (Elt F) → (⟨S1x4, .f32⟩ : BufTy).Contents (Elt F)),
    unary main_v121 main_v122 (broadcastInDim S100000x4 ![0, 1] bcast_S1x4_S100000x4_0_1 : (⟨S1x4, .f32⟩ : BufTy).Contents (Elt F) → (⟨S100000x4, .f32⟩ : BufTy).Contents (Elt F)),
    binary main_v120 main_v122 main_v123 (addf : (⟨S100000x4, .f32⟩ : BufTy).Contents (Elt F) → (⟨S100000x4, .f32⟩ : BufTy).Contents (Elt F) → (⟨S100000x4, .f32⟩ : BufTy).Contents (Elt F)) ]

/-- The last 15 operations: the row-wise logarithm of the softmax. -/
abbrev opsS : List (HloOp τ sig (Elt F)) :=
  [ TRef.nullary (TRef.of (T := ⟨S_, .f32⟩) main_call2_cst) (constant S_ .f32 0xFF800000#32),
    TRef.binary (TRef.of (T := ⟨S100000x4, .f32⟩) main_v123) (TRef.of (T := ⟨S_, .f32⟩) main_call2_cst) (TRef.of (T := ⟨S100000, .f32⟩) main_call2_v0) (fun x v => Host.reduce FloatOps.maximumf x v reducesTo_S100000x4_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x4, .f32⟩) main_call2_v4) (broadcastInDim S100000x4 ![0, 1] bcast_S100000x1_S100000x4_0_1),
    TRef.binary (TRef.of (T := ⟨S100000x4, .f32⟩) main_v123) (TRef.of (T := ⟨S100000x4, .f32⟩) main_call2_v4) (TRef.of (T := ⟨S100000x4, .f32⟩) main_call2_v5) subf,
    TRef.unary (TRef.of (T := ⟨S100000x4, .f32⟩) main_call2_v5) (TRef.of (T := ⟨S100000x4, .f32⟩) main_call2_v6) Host.exp,
    TRef.nullary (TRef.of (T := ⟨S_, .f32⟩) main_call2_cst_1) (constant S_ .f32 0x00000000#32),
    TRef.binary (TRef.of (T := ⟨S100000x4, .f32⟩) main_call2_v6) (TRef.of (T := ⟨S_, .f32⟩) main_call2_cst_1) (TRef.of (T := ⟨S100000, .f32⟩) main_call2_v7) (fun x v => Host.reduceAdd x v reducesTo_S100000x4_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x4, .f32⟩) main_call2_v10) (broadcastInDim S100000x4 ![0, 1] bcast_S100000x1_S100000x4_0_1),
    TRef.binary (TRef.of (T := ⟨S100000x4, .f32⟩) main_call2_v5) (TRef.of (T := ⟨S100000x4, .f32⟩) main_call2_v10) (TRef.of (T := ⟨S100000x4, .f32⟩) main_v124) subf ]

set_option maxRecDepth 8192 in
theorem ops_split : (ops : List (HloOp τ sig (Elt F)))
    = opsP ++ (opsL1 ++ (opsR1 ++ (opsL2 ++ (opsR2 ++ (opsL3 ++ opsS))))) := rfl

end Lists

/-! ## The host's spelling of a layer -/

/-- One layer of the reference before its activation, as the host spells it, is `refLayer`. -/
theorem host_refLayer {K C : Nat}
    (wfS : ScatterDims.WF ⟨2, ![100000, C]⟩ SEc ⟨2, ![1600000, C]⟩ [1] [0] [0] 1)
    (wfG : GatherDims.WF ⟨2, ![100000, C]⟩ SEc ⟨2, ![1600000, C]⟩ [1] [0] [] [0] [] 1 ![1, C])
    (hz : S0.BroadcastsInDim ⟨2, ![100000, C]⟩ (![] : Fin 0 → Fin 2))
    (h₂ : SEc.BroadcastsInDim ⟨2, ![1600000, C]⟩ (![0, 1] : Fin 2 → Fin 2))
    (d : DotDims ⟨2, ![100000, K]⟩ ⟨2, ![K, C]⟩ ⟨2, ![100000, C]⟩) (hd : d = DotDims.plain 100000 K C)
    (hn₁ : SN.BroadcastsInDim SNc (![0] : Fin 1 → Fin 2))
    (hn₂ : SNc.BroadcastsInDim ⟨2, ![100000, C]⟩ (![0, 1] : Fin 2 → Fin 2))
    (hb₁ : (⟨1, ![C]⟩ : Shape).BroadcastsInDim ⟨2, ![1, C]⟩ ![1])
    (hb₂ : (⟨2, ![1, C]⟩ : Shape).BroadcastsInDim ⟨2, ![100000, C]⟩ ![0, 1])
    (hin : FVec Ideal ⟨2, ![100000, K]⟩ .f32) (ei : IVec SEI 32)
    (W : FVec Ideal ⟨2, ![K, C]⟩ .f32) (b : FVec Ideal ⟨1, ![C]⟩ .f32) :
    addf (addf
        (Host.scatterAdd (F := Ideal) (rowScatterDims 100000 1600000 C wfS)
          (broadcastInDim ⟨2, ![100000, C]⟩ ![] hz (constant (F := Ideal) S0 .f32 0x00000000#32)) (dstC ei)
          (mulf (Host.gather (rowGatherDims 100000 1600000 C wfG) (Host.dotGeneral d none hin W) (srcC ei))
            (broadcastInDim ⟨2, ![1600000, C]⟩ ![0, 1] h₂ (broadcastInDim SEc ![0] hCol (wE ei)))))
        (mulf (Host.dotGeneral d none hin W)
          (broadcastInDim ⟨2, ![100000, C]⟩ ![0, 1] hn₂ (broadcastInDim SNc ![0] hn₁ (dsq ei)))))
      (broadcastInDim ⟨2, ![100000, C]⟩ ![0, 1] hb₂ (broadcastInDim ⟨2, ![1, C]⟩ ![1] hb₁ b))
    = refLayer ei (agg wfS wfG hz h₂) hin W b := by
  rw [host_mm d hd, host_addRow, host_comb (by decide)]
  rfl

/-! ## Each list read from any contents -/

/-- The source words. -/
theorem P_v1 (V : Valuation τ sig (Elt Ideal)) : after (opsP (F := Ideal)) V (Proc.devRef .tc main_v1) = srcV (V (Proc.devRef .tc main_arg1)) := by
  after_results_simp <;> rfl

/-- The destination words. -/
theorem P_v3 (V : Valuation τ sig (Elt Ideal)) : after (opsP (F := Ideal)) V (Proc.devRef .tc main_v3) = dstV (V (Proc.devRef .tc main_arg1)) := by
  after_results_simp <;> rfl

/-- The nodes' factors. -/
theorem P_v10 (V : Valuation τ sig (Elt Ideal)) : after (opsP (F := Ideal)) V (Proc.devRef .tc main_v10) = dis (V (Proc.devRef .tc main_arg1)) := by
  after_results_simp <;> rfl

/-! What each list leaves alone. -/

theorem P_arg0 (V : Valuation τ sig (Elt Ideal)) : after (opsP (F := Ideal)) V (Proc.devRef .tc main_arg0) = V (Proc.devRef .tc main_arg0) := by
  after_results_simp
theorem P_arg1 (V : Valuation τ sig (Elt Ideal)) : after (opsP (F := Ideal)) V (Proc.devRef .tc main_arg1) = V (Proc.devRef .tc main_arg1) := by
  after_results_simp
theorem P_arg2 (V : Valuation τ sig (Elt Ideal)) : after (opsP (F := Ideal)) V (Proc.devRef .tc main_arg2) = V (Proc.devRef .tc main_arg2) := by
  after_results_simp
theorem P_arg3 (V : Valuation τ sig (Elt Ideal)) : after (opsP (F := Ideal)) V (Proc.devRef .tc main_arg3) = V (Proc.devRef .tc main_arg3) := by
  after_results_simp
theorem P_arg4 (V : Valuation τ sig (Elt Ideal)) : after (opsP (F := Ideal)) V (Proc.devRef .tc main_arg4) = V (Proc.devRef .tc main_arg4) := by
  after_results_simp
theorem P_arg5 (V : Valuation τ sig (Elt Ideal)) : after (opsP (F := Ideal)) V (Proc.devRef .tc main_arg5) = V (Proc.devRef .tc main_arg5) := by
  after_results_simp
theorem P_arg6 (V : Valuation τ sig (Elt Ideal)) : after (opsP (F := Ideal)) V (Proc.devRef .tc main_arg6) = V (Proc.devRef .tc main_arg6) := by
  after_results_simp
theorem P_arg7 (V : Valuation τ sig (Elt Ideal)) : after (opsP (F := Ideal)) V (Proc.devRef .tc main_arg7) = V (Proc.devRef .tc main_arg7) := by
  after_results_simp
theorem L1_v1 (V : Valuation τ sig (Elt Ideal)) : after (opsL1 (F := Ideal)) V (Proc.devRef .tc main_v1) = V (Proc.devRef .tc main_v1) := by
  after_results_simp
theorem L1_v3 (V : Valuation τ sig (Elt Ideal)) : after (opsL1 (F := Ideal)) V (Proc.devRef .tc main_v3) = V (Proc.devRef .tc main_v3) := by
  after_results_simp
theorem L1_v10 (V : Valuation τ sig (Elt Ideal)) : after (opsL1 (F := Ideal)) V (Proc.devRef .tc main_v10) = V (Proc.devRef .tc main_v10) := by
  after_results_simp
theorem L1_arg4 (V : Valuation τ sig (Elt Ideal)) : after (opsL1 (F := Ideal)) V (Proc.devRef .tc main_arg4) = V (Proc.devRef .tc main_arg4) := by
  after_results_simp
theorem L1_arg5 (V : Valuation τ sig (Elt Ideal)) : after (opsL1 (F := Ideal)) V (Proc.devRef .tc main_arg5) = V (Proc.devRef .tc main_arg5) := by
  after_results_simp
theorem L1_arg6 (V : Valuation τ sig (Elt Ideal)) : after (opsL1 (F := Ideal)) V (Proc.devRef .tc main_arg6) = V (Proc.devRef .tc main_arg6) := by
  after_results_simp
theorem L1_arg7 (V : Valuation τ sig (Elt Ideal)) : after (opsL1 (F := Ideal)) V (Proc.devRef .tc main_arg7) = V (Proc.devRef .tc main_arg7) := by
  after_results_simp
theorem R1_v1 (V : Valuation τ sig (Elt Ideal)) : after (opsR1 (F := Ideal)) V (Proc.devRef .tc main_v1) = V (Proc.devRef .tc main_v1) := by
  after_results_simp
theorem R1_v3 (V : Valuation τ sig (Elt Ideal)) : after (opsR1 (F := Ideal)) V (Proc.devRef .tc main_v3) = V (Proc.devRef .tc main_v3) := by
  after_results_simp
theorem R1_v10 (V : Valuation τ sig (Elt Ideal)) : after (opsR1 (F := Ideal)) V (Proc.devRef .tc main_v10) = V (Proc.devRef .tc main_v10) := by
  after_results_simp
theorem R1_arg4 (V : Valuation τ sig (Elt Ideal)) : after (opsR1 (F := Ideal)) V (Proc.devRef .tc main_arg4) = V (Proc.devRef .tc main_arg4) := by
  after_results_simp
theorem R1_arg5 (V : Valuation τ sig (Elt Ideal)) : after (opsR1 (F := Ideal)) V (Proc.devRef .tc main_arg5) = V (Proc.devRef .tc main_arg5) := by
  after_results_simp
theorem R1_arg6 (V : Valuation τ sig (Elt Ideal)) : after (opsR1 (F := Ideal)) V (Proc.devRef .tc main_arg6) = V (Proc.devRef .tc main_arg6) := by
  after_results_simp
theorem R1_arg7 (V : Valuation τ sig (Elt Ideal)) : after (opsR1 (F := Ideal)) V (Proc.devRef .tc main_arg7) = V (Proc.devRef .tc main_arg7) := by
  after_results_simp
theorem L2_v1 (V : Valuation τ sig (Elt Ideal)) : after (opsL2 (F := Ideal)) V (Proc.devRef .tc main_v1) = V (Proc.devRef .tc main_v1) := by
  after_results_simp
theorem L2_v3 (V : Valuation τ sig (Elt Ideal)) : after (opsL2 (F := Ideal)) V (Proc.devRef .tc main_v3) = V (Proc.devRef .tc main_v3) := by
  after_results_simp
theorem L2_v10 (V : Valuation τ sig (Elt Ideal)) : after (opsL2 (F := Ideal)) V (Proc.devRef .tc main_v10) = V (Proc.devRef .tc main_v10) := by
  after_results_simp
theorem L2_arg6 (V : Valuation τ sig (Elt Ideal)) : after (opsL2 (F := Ideal)) V (Proc.devRef .tc main_arg6) = V (Proc.devRef .tc main_arg6) := by
  after_results_simp
theorem L2_arg7 (V : Valuation τ sig (Elt Ideal)) : after (opsL2 (F := Ideal)) V (Proc.devRef .tc main_arg7) = V (Proc.devRef .tc main_arg7) := by
  after_results_simp
theorem R2_v1 (V : Valuation τ sig (Elt Ideal)) : after (opsR2 (F := Ideal)) V (Proc.devRef .tc main_v1) = V (Proc.devRef .tc main_v1) := by
  after_results_simp
theorem R2_v3 (V : Valuation τ sig (Elt Ideal)) : after (opsR2 (F := Ideal)) V (Proc.devRef .tc main_v3) = V (Proc.devRef .tc main_v3) := by
  after_results_simp
theorem R2_v10 (V : Valuation τ sig (Elt Ideal)) : after (opsR2 (F := Ideal)) V (Proc.devRef .tc main_v10) = V (Proc.devRef .tc main_v10) := by
  after_results_simp
theorem R2_arg6 (V : Valuation τ sig (Elt Ideal)) : after (opsR2 (F := Ideal)) V (Proc.devRef .tc main_arg6) = V (Proc.devRef .tc main_arg6) := by
  after_results_simp
theorem R2_arg7 (V : Valuation τ sig (Elt Ideal)) : after (opsR2 (F := Ideal)) V (Proc.devRef .tc main_arg7) = V (Proc.devRef .tc main_arg7) := by
  after_results_simp

/-- The first layer before its positive part, from contents holding the two vectors of words and the factors. -/
theorem L1_v47 (V : Valuation τ sig (Elt Ideal)) (ei : IVec SEI 32)
    (h1 : V (Proc.devRef .tc main_v1) = srcV ei) (h3 : V (Proc.devRef .tc main_v3) = dstV ei) (h10 : V (Proc.devRef .tc main_v10) = dis ei) :
    after (opsL1 (F := Ideal)) V (Proc.devRef .tc main_v47)
      = refLayer ei agg64 (V (Proc.devRef .tc main_arg0)) (V (Proc.devRef .tc main_arg2)) (V (Proc.devRef .tc main_arg3)) := by
  after_results_simp
  rw [h1, h3, h10]
  exact host_refLayer wfS64 wfG64 hz64 hb64 dot_S100000x10_S10x64_S100000x64_1_0_0_1_n_n rfl
    bcast_S100000_S100000x1_0 bcast_S100000x1_S100000x64_0_1 bcast_S64_S1x64_1 bcast_S1x64_S100000x64_0_1
    (V (Proc.devRef .tc main_arg0)) ei (V (Proc.devRef .tc main_arg2)) (V (Proc.devRef .tc main_arg3))

/-- The second layer before its positive part. -/
theorem L2_v85 (V : Valuation τ sig (Elt Ideal)) (ei : IVec SEI 32)
    (h1 : V (Proc.devRef .tc main_v1) = srcV ei) (h3 : V (Proc.devRef .tc main_v3) = dstV ei) (h10 : V (Proc.devRef .tc main_v10) = dis ei) :
    after (opsL2 (F := Ideal)) V (Proc.devRef .tc main_v85)
      = refLayer ei agg64 (V (Proc.devRef .tc main_v48)) (V (Proc.devRef .tc main_arg4)) (V (Proc.devRef .tc main_arg5)) := by
  after_results_simp
  rw [h1, h3, h10]
  exact host_refLayer wfS64 wfG64 hz64 hb64 dot_S100000x64_S64x64_S100000x64_1_0_0_1_n_n rfl
    bcast_S100000_S100000x1_0 bcast_S100000x1_S100000x64_0_1 bcast_S64_S1x64_1 bcast_S1x64_S100000x64_0_1
    (V (Proc.devRef .tc main_v48)) ei (V (Proc.devRef .tc main_arg4)) (V (Proc.devRef .tc main_arg5))

/-- The third layer before the softmax. -/
theorem L3_v123 (V : Valuation τ sig (Elt Ideal)) (ei : IVec SEI 32)
    (h1 : V (Proc.devRef .tc main_v1) = srcV ei) (h3 : V (Proc.devRef .tc main_v3) = dstV ei) (h10 : V (Proc.devRef .tc main_v10) = dis ei) :
    after (opsL3 (F := Ideal)) V (Proc.devRef .tc main_v123)
      = refLayer ei agg4 (V (Proc.devRef .tc main_v86)) (V (Proc.devRef .tc main_arg6)) (V (Proc.devRef .tc main_arg7)) := by
  after_results_simp
  rw [h1, h3, h10]
  exact host_refLayer wfS4 wfG4 hz4 hb4 dot_S100000x64_S64x4_S100000x4_1_0_0_1_n_n rfl
    bcast_S100000_S100000x1_0 bcast_S100000x1_S100000x4_0_1 bcast_S4_S1x4_1 bcast_S1x4_S100000x4_0_1
    (V (Proc.devRef .tc main_v86)) ei (V (Proc.devRef .tc main_arg6)) (V (Proc.devRef .tc main_arg7))

/-- The first positive part. -/
theorem R1_v48 (V : Valuation τ sig (Elt Ideal)) :
    after (opsR1 (F := Ideal)) V (Proc.devRef .tc main_v48) = relu (V (Proc.devRef .tc main_v47)) := by
  after_results_simp
  simp only [ofBuf_toBuf]
  exact host_relu (V (Proc.devRef .tc main_v47)) ![] bcast_S_S100000x64

/-- The second positive part. -/
theorem R2_v86 (V : Valuation τ sig (Elt Ideal)) :
    after (opsR2 (F := Ideal)) V (Proc.devRef .tc main_v86) = relu (V (Proc.devRef .tc main_v85)) := by
  after_results_simp
  simp only [ofBuf_toBuf]
  exact host_relu (V (Proc.devRef .tc main_v85)) ![] bcast_S_S100000x64

theorem hRed4 : (⟨2, ![100000, 4]⟩ : Shape).Reduces [1] ⟨1, ![100000]⟩ := by decide

set_option maxRecDepth 8192 in
/-- The row-wise logarithm of the softmax. -/
theorem S_v124 (V : Valuation τ sig (Elt Ideal)) :
    after (opsS (F := Ideal)) V (Proc.devRef .tc main_v124) = logSoftmax (V (Proc.devRef .tc main_v123)) := by
  after_results_simp
  simp only [ofBuf_toBuf]
  exact host_logSoftmax (V (Proc.devRef .tc main_v123)) reducesTo_S100000x4_S100000_d1 hRed4 h_S_ bcast_S_S100000
    bcast_S100000_S100000x1_0 bcast_S100000x1_S100000x4_0_1

/-! ## The lists in turn, from the launch contents -/

section Chain
variable (W : Valuation τ sig (Elt Ideal))

local notation "U1" => after (opsP (F := Ideal)) W
local notation "U2" => after (opsL1 (F := Ideal)) (after (opsP (F := Ideal)) W)
local notation "U3" => after (opsR1 (F := Ideal)) (after (opsL1 (F := Ideal)) (after (opsP (F := Ideal)) W))
local notation "U4" => after (opsL2 (F := Ideal)) (after (opsR1 (F := Ideal)) (after (opsL1 (F := Ideal)) (after (opsP (F := Ideal)) W)))
local notation "U5" => after (opsR2 (F := Ideal)) (after (opsL2 (F := Ideal)) (after (opsR1 (F := Ideal)) (after (opsL1 (F := Ideal)) (after (opsP (F := Ideal)) W))))
local notation "U6" => after (opsL3 (F := Ideal)) (after (opsR2 (F := Ideal)) (after (opsL2 (F := Ideal)) (after (opsR1 (F := Ideal)) (after (opsL1 (F := Ideal)) (after (opsP (F := Ideal)) W)))))

theorem U2_v1 : U2 (Proc.devRef .tc main_v1) = srcV (W (Proc.devRef .tc main_arg1)) := (L1_v1 U1).trans (P_v1 W)
theorem U2_v3 : U2 (Proc.devRef .tc main_v3) = dstV (W (Proc.devRef .tc main_arg1)) := (L1_v3 U1).trans (P_v3 W)
theorem U2_v10 : U2 (Proc.devRef .tc main_v10) = dis (W (Proc.devRef .tc main_arg1)) := (L1_v10 U1).trans (P_v10 W)
theorem U2_arg4 : U2 (Proc.devRef .tc main_arg4) = W (Proc.devRef .tc main_arg4) := (L1_arg4 U1).trans (P_arg4 W)
theorem U2_arg5 : U2 (Proc.devRef .tc main_arg5) = W (Proc.devRef .tc main_arg5) := (L1_arg5 U1).trans (P_arg5 W)
theorem U2_arg6 : U2 (Proc.devRef .tc main_arg6) = W (Proc.devRef .tc main_arg6) := (L1_arg6 U1).trans (P_arg6 W)
theorem U2_arg7 : U2 (Proc.devRef .tc main_arg7) = W (Proc.devRef .tc main_arg7) := (L1_arg7 U1).trans (P_arg7 W)
theorem U3_v1 : U3 (Proc.devRef .tc main_v1) = srcV (W (Proc.devRef .tc main_arg1)) := (R1_v1 U2).trans (U2_v1 W)
theorem U3_v3 : U3 (Proc.devRef .tc main_v3) = dstV (W (Proc.devRef .tc main_arg1)) := (R1_v3 U2).trans (U2_v3 W)
theorem U3_v10 : U3 (Proc.devRef .tc main_v10) = dis (W (Proc.devRef .tc main_arg1)) := (R1_v10 U2).trans (U2_v10 W)
theorem U3_arg4 : U3 (Proc.devRef .tc main_arg4) = W (Proc.devRef .tc main_arg4) := (R1_arg4 U2).trans (U2_arg4 W)
theorem U3_arg5 : U3 (Proc.devRef .tc main_arg5) = W (Proc.devRef .tc main_arg5) := (R1_arg5 U2).trans (U2_arg5 W)
theorem U3_arg6 : U3 (Proc.devRef .tc main_arg6) = W (Proc.devRef .tc main_arg6) := (R1_arg6 U2).trans (U2_arg6 W)
theorem U3_arg7 : U3 (Proc.devRef .tc main_arg7) = W (Proc.devRef .tc main_arg7) := (R1_arg7 U2).trans (U2_arg7 W)
theorem U4_v1 : U4 (Proc.devRef .tc main_v1) = srcV (W (Proc.devRef .tc main_arg1)) := (L2_v1 U3).trans (U3_v1 W)
theorem U4_v3 : U4 (Proc.devRef .tc main_v3) = dstV (W (Proc.devRef .tc main_arg1)) := (L2_v3 U3).trans (U3_v3 W)
theorem U4_v10 : U4 (Proc.devRef .tc main_v10) = dis (W (Proc.devRef .tc main_arg1)) := (L2_v10 U3).trans (U3_v10 W)
theorem U4_arg6 : U4 (Proc.devRef .tc main_arg6) = W (Proc.devRef .tc main_arg6) := (L2_arg6 U3).trans (U3_arg6 W)
theorem U4_arg7 : U4 (Proc.devRef .tc main_arg7) = W (Proc.devRef .tc main_arg7) := (L2_arg7 U3).trans (U3_arg7 W)
theorem U5_v1 : U5 (Proc.devRef .tc main_v1) = srcV (W (Proc.devRef .tc main_arg1)) := (R2_v1 U4).trans (U4_v1 W)
theorem U5_v3 : U5 (Proc.devRef .tc main_v3) = dstV (W (Proc.devRef .tc main_arg1)) := (R2_v3 U4).trans (U4_v3 W)
theorem U5_v10 : U5 (Proc.devRef .tc main_v10) = dis (W (Proc.devRef .tc main_arg1)) := (R2_v10 U4).trans (U4_v10 W)
theorem U5_arg6 : U5 (Proc.devRef .tc main_arg6) = W (Proc.devRef .tc main_arg6) := (R2_arg6 U4).trans (U4_arg6 W)
theorem U5_arg7 : U5 (Proc.devRef .tc main_arg7) = W (Proc.devRef .tc main_arg7) := (R2_arg7 U4).trans (U4_arg7 W)

theorem U3_v48 : U3 (Proc.devRef .tc main_v48) = refH1 (W (Proc.devRef .tc main_arg0)) (W (Proc.devRef .tc main_arg1)) (W (Proc.devRef .tc main_arg2)) (W (Proc.devRef .tc main_arg3)) :=
  (R1_v48 U2).trans (congrArg relu
    ((L1_v47 U1 (W (Proc.devRef .tc main_arg1)) (P_v1 W) (P_v3 W) (P_v10 W)).trans (by rw [P_arg0, P_arg2, P_arg3])))

theorem U4_v85 : U4 (Proc.devRef .tc main_v85) = refLayer (W (Proc.devRef .tc main_arg1)) agg64 (refH1 (W (Proc.devRef .tc main_arg0)) (W (Proc.devRef .tc main_arg1)) (W (Proc.devRef .tc main_arg2)) (W (Proc.devRef .tc main_arg3))) (W (Proc.devRef .tc main_arg4)) (W (Proc.devRef .tc main_arg5)) :=
  (L2_v85 U3 (W (Proc.devRef .tc main_arg1)) (U3_v1 W) (U3_v3 W) (U3_v10 W)).trans (by rw [U3_v48, U3_arg4, U3_arg5])

theorem U5_v86 : U5 (Proc.devRef .tc main_v86) = refH2 (W (Proc.devRef .tc main_arg0)) (W (Proc.devRef .tc main_arg1)) (W (Proc.devRef .tc main_arg2)) (W (Proc.devRef .tc main_arg3)) (W (Proc.devRef .tc main_arg4)) (W (Proc.devRef .tc main_arg5)) :=
  (R2_v86 U4).trans (congrArg relu (U4_v85 W))

theorem U6_v123 : U6 (Proc.devRef .tc main_v123) = refLayer (W (Proc.devRef .tc main_arg1)) agg4 (refH2 (W (Proc.devRef .tc main_arg0)) (W (Proc.devRef .tc main_arg1)) (W (Proc.devRef .tc main_arg2)) (W (Proc.devRef .tc main_arg3)) (W (Proc.devRef .tc main_arg4)) (W (Proc.devRef .tc main_arg5))) (W (Proc.devRef .tc main_arg6)) (W (Proc.devRef .tc main_arg7)) :=
  (L3_v123 U5 (W (Proc.devRef .tc main_arg1)) (U5_v1 W) (U5_v3 W) (U5_v10 W)).trans (by rw [U5_v86, U5_arg6, U5_arg7])

/-- THE REFERENCE'S VALUE: the fold of the 167 operations over any launch contents has the result buffer at `refNet`
    of the eight argument buffers. -/
theorem result_eq :
    after (ops (F := Ideal)) W (Proc.devRef .tc main_v124)
      = refNet (W (Proc.devRef .tc main_arg0)) (W (Proc.devRef .tc main_arg1)) (W (Proc.devRef .tc main_arg2)) (W (Proc.devRef .tc main_arg3))
          (W (Proc.devRef .tc main_arg4)) (W (Proc.devRef .tc main_arg5)) (W (Proc.devRef .tc main_arg6)) (W (Proc.devRef .tc main_arg7)) := by
  rw [ops_split, after_append, after_append, after_append, after_append, after_append, after_append]
  exact (S_v124 U6).trans (congrArg logSoftmax (U6_v123 W))

end Chain

/-- On every device, from any memory with zero counters: every weakly fair execution of the reference terminates with
    the result buffer at `refNet` of the arguments' launch contents, the arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v124)
        = Cert.Gcn.Net.refNet (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (result_eq (launchContents m c)), (h c).2⟩) (run m ρ)

end Cert.ReferenceIdeal.ValueP

end
-- ==== Proof.LibSpread.lean ====
/-
  Spread and column forms of small arrays, read at an entry.

  * A scalar constant spread over any shape reads the constant's value (`splat_apply`).
  * A vector of length `M` made an `M × 1` column reads the vector (`col_apply`); spread further along `N` lanes it reads,
    at `(p, q)`, the vector at `p` (`colSpread_apply`).
  * An `M × 1` column, or a `1 × M` row, read back as a vector (`colVec_apply`, `rowVec_apply`).
  * Row 0 of a `2 × M` table of words, sliced off, read as a vector and made a column, is the column `srcCol` of the
    table's first row (`srcCol_eq`) — the index column of a scatter or gather keyed by an edge list's source row.
-/
import Idealize.ShloMosaic.Lib.ValueIdx
import Idealize.ShloMosaic.Lib.Pipeline.Value
import Idealize.ShloMosaic.PureOps.Ideal.Laws

noncomputable section

namespace Cert.Lib.Spread

open Idealize.ShloMosaic Idealize.ShloMosaic.ValueIdx

variable {α : Type} {M N : Nat}

/-- A scalar constant spread over any shape reads the constant's value. -/
theorem splat_apply {s : Shape} (h : (⟨0, ![]⟩ : Shape).BroadcastsInDim s (![] : Fin 0 → Fin s.rank))
    (w : BitVec 32) (i : s.Idx) :
    broadcastInDim s ![] h (constant (F := Ideal) ⟨0, ![]⟩ .f32 w) i = Ideal.ofBits .f32 w := by
  rw [broadcastInDim_apply _ h _ i (fun a => a.elim0) (fun a => a.elim0), constant_apply]

/-- A vector of length `M` made a column and spread along `N` lanes reads, at `(p, q)`, the vector at `p`. -/
theorem colSpread_apply (v : (⟨1, ![M]⟩ : Shape).Idx → α)
    (h1 : (⟨1, ![M]⟩ : Shape).BroadcastsInDim ⟨2, ![M, 1]⟩ (![0] : Fin 1 → Fin 2))
    (h2 : (⟨2, ![M, 1]⟩ : Shape).BroadcastsInDim ⟨2, ![M, N]⟩ (![0, 1] : Fin 2 → Fin 2)) (p : Fin M) (q : Fin N) :
    broadcastInDim ⟨2, ![M, N]⟩ ![0, 1] h2 (broadcastInDim ⟨2, ![M, 1]⟩ ![0] h1 v) (ix2 p q) = v (ix1 p) := by
  refine (broadcastInDim_apply _ h2 _ (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine broadcastInDim_apply _ h1 v (ix2 p (0 : Fin 1)) (ix1 p) (fun a => ?_)
    match a with
    | ⟨0, _⟩ =>
      show p.val = if M = 1 then 0 else p.val
      split
      · have := p.isLt; omega
      · rfl

/-- A vector of length `M` made a column reads, at `(e, 0)`, the vector at `e`. -/
theorem col_apply (v : (⟨1, ![M]⟩ : Shape).Idx → α)
    (h1 : (⟨1, ![M]⟩ : Shape).BroadcastsInDim ⟨2, ![M, 1]⟩ (![0] : Fin 1 → Fin 2)) (e : Fin M) :
    broadcastInDim ⟨2, ![M, 1]⟩ ![0] h1 v (ix2 e (0 : Fin 1)) = v (ix1 e) := by
  refine broadcastInDim_apply _ h1 v (ix2 e (0 : Fin 1)) (ix1 e) (fun a => ?_)
  match a with
  | ⟨0, _⟩ =>
    show e.val = if M = 1 then 0 else e.val
    split
    · have := e.isLt; omega
    · rfl

/-- An `M × 1` column read back as a vector reads, at `p`, the column at `(p, 0)`. -/
theorem colVec_apply (v : (⟨2, ![M, 1]⟩ : Shape).Idx → α) (h : (⟨2, ![M, 1]⟩ : Shape).ShapeCasts ⟨1, ![M]⟩) (p : Fin M) :
    shapeCast ⟨1, ![M]⟩ v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-- A `1 × M` row read back as a vector reads, at `e`, the row at `(0, e)`. -/
theorem rowVec_apply (v : (⟨2, ![1, M]⟩ : Shape).Idx → α) (h : (⟨2, ![1, M]⟩ : Shape).ShapeCasts ⟨1, ![M]⟩) (e : Fin M) :
    shapeCast ⟨1, ![M]⟩ v h (ix1 e) = v (ix2 (0 : Fin 1) e) :=
  shapeCast_apply v h (ix1 e) (ix2 (0 : Fin 1) e) (by
    rw [Shape.rowMajor_val_one, Shape.rowMajor_val_two]
    show 0 * M + e.val = e.val
    omega)

/-- The column of source words: row 0 of the `2 × M` edge index, one word per edge. -/
def srcCol (EI : (⟨2, ![2, M]⟩ : Shape).Idx → BitVec 32) : (⟨2, ![M, 1]⟩ : Shape).Idx → BitVec 32 :=
  fun i => EI (ix2 (0 : Fin 2) ⟨(i 0).val, (i 0).isLt⟩)

/-- Slicing row 0 off the edge index, reading it as a vector and making that a column gives `srcCol`. -/
theorem srcCol_eq (EI : (⟨2, ![2, M]⟩ : Shape).Idx → BitVec 32)
    (hs : (⟨2, ![2, M]⟩ : Shape).Slices ![0, 0] ⟨2, ![1, M]⟩) (hc : (⟨2, ![1, M]⟩ : Shape).ShapeCasts ⟨1, ![M]⟩)
    (h1 : (⟨1, ![M]⟩ : Shape).BroadcastsInDim ⟨2, ![M, 1]⟩ (![0] : Fin 1 → Fin 2)) :
    broadcastInDim ⟨2, ![M, 1]⟩ ![0] h1 (shapeCast ⟨1, ![M]⟩ (extractStridedSlice ⟨2, ![1, M]⟩ ![0, 0] EI hs) hc)
      = srcCol EI := by
  funext i
  obtain ⟨e, z, rfl⟩ : ∃ (e : Fin M) (z : Fin 1), i = ix2 e z := ⟨i 0, i 1, eq_ix2 i⟩
  obtain rfl : z = 0 := Subsingleton.elim _ _
  rw [col_apply, rowVec_apply]
  exact extractStridedSlice_apply ![0, 0] EI hs (ix2 (0 : Fin 1) e) (ix2 (0 : Fin 2) e) (fun a => by
    match a with
    | ⟨0, _⟩ => rfl
    | ⟨1, _⟩ => show e.val = 0 + e.val; omega)

end Cert.Lib.Spread

end
-- ==== Proof.LibRealOps.lean ====
/-
  The reals are closed under the ideal operations a normalisation uses.

  At the ideal instance a float is an extended real, and most laws that join two spellings of one formula (a variance,
  a product moved across a sum) hold only where every value is a REAL. These lemmas carry "is a real" through the
  operations, one value at a time, each naming the real the result is:
  * `rsqrt_coe_of_pos`: the reciprocal square root of a real `r > 0` is the real `(√r)⁻¹`, which is positive
    (`inv_sqrt_pos`); `rsqrt_add_eps`: so is that of `v + ε` for `v ≥ 0`, `ε > 0` (a variance plus its epsilon);
  * `coe_max`: the maximum of two reals; `dot_coe`: the inner product of two real rows; `sum_ones`: a sum of ones
    over a finite set is the number of its elements (a node's degree, counted by scattering ones);
  * `cmp_ogt_eq_one_iff`: the comparison `x > y` is the flag 1 exactly when `y < x`;
  * `gcn_coeff_coe`: the symmetric-normalisation coefficient `where(d > 0, rsqrt(max(d, 1)), 0)` of a real degree
    `d` is a real, and `gcn_coeff_nonneg`: it is non-negative — what lets it move across a neighbourhood sum.
-/
import Idealize.ShloMosaic.PureOps.Ideal
import Mathlib.Algebra.BigOperators.Fin
import Mathlib.Tactic.Linarith

noncomputable section

namespace ProofLib.RealOps

open Idealize.ShloMosaic

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The reciprocal square root of a positive real is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- That real is positive. -/
theorem inv_sqrt_pos {r : ℝ} (hr : 0 < r) : 0 < (Real.sqrt r)⁻¹ := inv_pos.mpr (Real.sqrt_pos.mpr hr)

/-- The reciprocal square root of `v + ε`, `v ≥ 0` and `ε > 0` reals: a variance plus its epsilon. -/
theorem rsqrt_add_eps {v eps : ℝ} (hv : 0 ≤ v) (he : 0 < eps) :
    Ideal.rsqrt ((v : EReal) + (eps : EReal)) = (((Real.sqrt (v + eps))⁻¹ : ℝ) : EReal) := by
  rw [← EReal.coe_add, rsqrt_coe_of_pos (add_pos_of_nonneg_of_pos hv he)]

/-- The maximum of two reals, in the extended reals, is their real maximum. -/
theorem coe_max (x y : ℝ) : ((max x y : ℝ) : EReal) = max (x : EReal) (y : EReal) :=
  EReal.coe_strictMono.monotone.map_max

/-- The inner product of two real rows is the real inner product. -/
theorem dot_coe (s : Finset ι) (a b : ι → ℝ) :
    ∑ k ∈ s, (a k : EReal) * (b k : EReal) = ((∑ k ∈ s, a k * b k : ℝ) : EReal) := by
  rw [coe_sum]; exact Finset.sum_congr rfl fun k _ => (EReal.coe_mul _ _).symm

/-- A sum of ones over a finite set is the number of its elements. -/
theorem sum_ones (s : Finset ι) : ∑ _i ∈ s, (1 : EReal) = ((s.card : ℝ) : EReal) := by
  have h1 : ∑ _i ∈ s, (1 : EReal) = ∑ _i ∈ s, ((1 : ℝ) : EReal) := by simp
  rw [h1, ← coe_sum]; simp

/-- The comparison `x > y` is the flag 1 exactly when `y < x`. -/
theorem cmp_ogt_eq_one_iff (x y : EReal) : Ideal.cmp .ogt x y = 1#1 ↔ y < x := by
  unfold Ideal.cmp
  by_cases h : y < x <;> simp [h]

/-- The symmetric-normalisation coefficient of a real degree `d`: `(√(max d 1))⁻¹` where `d > 0`, else `0`. -/
def gcnCoeff (d : ℝ) : ℝ := if 0 < d then (Real.sqrt (max d 1))⁻¹ else 0

/-- `where(d > 0, rsqrt(max(d, 1)), 0)` at a real `d` is the real `gcnCoeff d`. -/
theorem gcn_coeff_coe (d : ℝ) :
    Scalar.select (Ideal.cmp .ogt (d : EReal) 0) (Ideal.rsqrt (max (d : EReal) 1)) (0 : EReal) = ((gcnCoeff d : ℝ) : EReal) := by
  have h1 : (1 : EReal) = ((1 : ℝ) : EReal) := EReal.coe_one.symm
  have hpos : (0 : ℝ) < max d 1 := lt_of_lt_of_le one_pos (le_max_right d 1)
  unfold Scalar.select gcnCoeff
  by_cases hd : 0 < d
  · have hc : Ideal.cmp .ogt (d : EReal) 0 = (1 : BitVec 1) := (cmp_ogt_eq_one_iff _ _).mpr (by exact_mod_cast hd)
    rw [if_pos hc, if_pos hd, h1, ← coe_max, rsqrt_coe_of_pos hpos]
  · have hc : ¬ Ideal.cmp .ogt (d : EReal) 0 = (1 : BitVec 1) := fun e => hd (by exact_mod_cast (cmp_ogt_eq_one_iff _ _).mp e)
    rw [if_neg hc, if_neg hd, EReal.coe_zero]

/-- The coefficient is non-negative. -/
theorem gcn_coeff_nonneg (d : ℝ) : 0 ≤ gcnCoeff d := by
  unfold gcnCoeff
  split
  · exact inv_nonneg.mpr (Real.sqrt_nonneg _)
  · exact le_rfl

end ProofLib.RealOps

end
-- ==== Proof.Reals.lean ====
/-
  The node and edge factors of the normalisation are real numbers.

  The degree of a node is one plus a count of edges, a positive real; its reciprocal square root `dis n` is therefore a
  positive real, and so are the products `wE e = dis (src e) · dis (dst e)` and `dsq n = dis n · dis n`. These are the
  facts that let a factor move across a finite sum on the extended reals.
-/
import proofs.«172584_j2791728742833_2_alg».proof.Proof.Network
import proofs.«172584_j2791728742833_2_alg».proof.Proof.LibSpread
import proofs.«172584_j2791728742833_2_alg».proof.Proof.LibRealOps

noncomputable section

open scoped BigOperators

namespace Cert.Gcn.Net

open Idealize.ShloMosaic Idealize.ShloMosaic.ValueIdx Cert.Lib.RowScatter Cert.Lib.Scatter1 Cert.Lib.Gather1

/-- The word of 1.0 denotes the real one. -/
theorem ofBits_one_f32 : Ideal.ofBits .f32 0x3F800000#32 = 1 := IdealRules.sign_bit.ideal_onePat .f32

/-- The reciprocal square root of a count plus one is a real. -/
theorem rsqrt_count_real (c : ℕ) : ∃ r : ℝ, Ideal.rsqrt ((((c : ℝ) + 1 : ℝ)) : EReal) = (r : EReal) :=
  ⟨_, ProofLib.RealOps.rsqrt_coe_of_pos (add_pos_of_nonneg_of_pos (Nat.cast_nonneg c) one_pos)⟩

/-- The host's reciprocal square root of an array, at an entry that is a count plus one, is a real. -/
theorem hostRsqrt_real {s : Shape} (d : FVec Ideal s .f32) (i : s.Idx) (c : ℕ)
    (hc : d i = ((((c : ℝ) + 1 : ℝ)) : EReal)) : ∃ r : ℝ, Host.rsqrt d i = (r : EReal) := by
  obtain ⟨r, hr⟩ := rsqrt_count_real c
  refine ⟨r, ?_⟩
  show FloatOps.hostUnary .rsqrt (d i) = _
  rw [Ideal.hostUnary_rsqrt_def, hc, hr]

/-- The degree of node `n` is a count of edges plus one. -/
theorem deg_apply (ei : IVec SEI 32) (n : Fin 100000) :
    ∃ c : ℕ, deg ei (ix1 n) = ((((c : ℝ) + 1 : ℝ)) : EReal) := by
  have hs : ∀ e : Fin 1600000,
      broadcastInDim SE ![] hS0E (constant (F := Ideal) S0 .f32 0x3F800000#32) (ix1 e) = 1 :=
    fun e => (Cert.Lib.Spread.splat_apply hS0E _ _).trans ofBits_one_f32
  refine ⟨(landsOn (dstC ei) 100000 n).card, ?_⟩
  generalize hL : landsOn (dstC ei) 100000 n = L
  unfold deg
  rw [addf_apply, scatterAdd1_apply, Cert.Lib.Spread.splat_apply, Cert.Lib.Spread.splat_apply,
    Ideal.ofBits_zero_f32, zero_add, ofBits_one_f32, hL]
  simp only [hs]
  rw [ProofLib.RealOps.sum_ones]
  generalize L.card = c
  rw [EReal.coe_add, EReal.coe_one]

/-- The factor of node `n` is a real. -/
theorem dis_real (ei : IVec SEI 32) (i : SN.Idx) : ∃ r : ℝ, dis ei i = (r : EReal) := by
  obtain ⟨n, rfl⟩ : ∃ n : Fin 100000, i = ix1 n := ⟨i 0, eq_ix1 i⟩
  obtain ⟨c, hc⟩ := deg_apply ei n
  unfold dis
  exact hostRsqrt_real (deg ei) (ix1 n) c hc

/-- The weight of edge `e` is a real. -/
theorem wE_real (ei : IVec SEI 32) (i : SE.Idx) : ∃ r : ℝ, wE ei i = (r : EReal) := by
  obtain ⟨e, rfl⟩ : ∃ e : Fin 1600000, i = ix1 e := ⟨i 0, eq_ix1 i⟩
  unfold wE
  rw [mulf_apply, gather1_apply (by decide : 0 < 100000), gather1_apply (by decide : 0 < 100000)]
  obtain ⟨a, ha⟩ := dis_real ei (ix1 (gatherRow 100000 (by decide) (srcC ei) e))
  obtain ⟨b, hb⟩ := dis_real ei (ix1 (gatherRow 100000 (by decide) (dstWC ei) e))
  exact ⟨a * b, by rw [ha, hb, EReal.coe_mul]⟩

/-- The self-loop factor of node `n` is a real. -/
theorem dsq_real (ei : IVec SEI 32) (i : SN.Idx) : ∃ r : ℝ, dsq ei i = (r : EReal) := by
  obtain ⟨a, ha⟩ := dis_real ei i
  exact ⟨a * a, by unfold dsq; rw [mulf_apply, ha, EReal.coe_mul]⟩

end Cert.Gcn.Net

end
-- ==== Proof.LibAggLaw.lean ====
/-
  Aggregating before or after a product with a weight gives the same table.

  For a finite set `L` of edges, a row `A e` read by each edge, the node's own row `X`, edge weights `w e`, the node's
  self-loop factor `d` and a weight column `B`:
    `∑ k, ((∑ e ∈ L, A e k · w e) + X k · d) · B k = (∑ e ∈ L, (∑ k, A e k · B k) · w e) + (∑ k, X k · B k) · d`.
  It is distributivity and the exchange of two finite sums. On the extended reals these need every entry to be a real
  number (a sum that meets both infinities does not distribute), so the law is shown over the reals first and carried
  over to extended reals that are coercions of reals.
-/
import Mathlib.Algebra.BigOperators.Fin
import Mathlib.Algebra.BigOperators.Ring.Finset
import Mathlib.Tactic.Ring
import proofs.«172584_j2791728742833_2_alg».proof.Proof.LibRealOps

noncomputable section

open scoped BigOperators

namespace Cert.Gcn.Law

variable {ι κ : Type*} [Fintype κ]

/-- The law over the reals. -/
theorem law_real (L : Finset ι) (A : ι → κ → ℝ) (X B : κ → ℝ) (w : ι → ℝ) (d : ℝ) :
    ∑ k, ((∑ e ∈ L, A e k * w e) + X k * d) * B k
      = (∑ e ∈ L, (∑ k, A e k * B k) * w e) + (∑ k, X k * B k) * d := by
  simp only [add_mul, Finset.sum_add_distrib, Finset.sum_mul]
  rw [Finset.sum_comm]
  congr 1
  · refine Finset.sum_congr rfl fun e _ => Finset.sum_congr rfl fun k _ => ?_
    ring
  · refine Finset.sum_congr rfl fun k _ => ?_
    ring

/-- The law over extended reals that are reals; `z` is the zero a running sum starts from. -/
theorem law_ereal (L : Finset ι) (A : ι → κ → EReal) (X B : κ → EReal) (w : ι → EReal) (d z : EReal) (hz : z = 0)
    (hA : ∀ e k, ∃ r : ℝ, A e k = (r : EReal)) (hX : ∀ k, ∃ r : ℝ, X k = (r : EReal))
    (hB : ∀ k, ∃ r : ℝ, B k = (r : EReal)) (hw : ∀ e, ∃ r : ℝ, w e = (r : EReal)) (hd : ∃ r : ℝ, d = (r : EReal)) :
    ∑ k, ((z + ∑ e ∈ L, A e k * w e) + X k * d) * B k
      = (z + ∑ e ∈ L, (∑ k, A e k * B k) * w e) + (∑ k, X k * B k) * d := by
  choose a ha using hA
  choose x hx using hX
  choose b hb using hB
  choose v hv using hw
  obtain ⟨t, rfl⟩ := hd
  subst hz
  simp only [ha, hx, hb, hv, zero_add]
  simp only [← EReal.coe_mul, ← ProofLib.RealOps.coe_sum, ← EReal.coe_add]
  exact congrArg _ (law_real L a x b v t)

end Cert.Gcn.Law

end
-- ==== Proof.Bridge.lean ====
/-
  The two arrangements of the network compute the same table.

  Layers two and three are spelled alike in both arrangements once the kernel's reshaped column of self-loop factors is
  read back as the vector (`colVec_dsqCol`), its reshaped bias rows as the bias vectors (`rowVec_reshape`) and its
  reshaped column of edge weights as the broadcast one (`aggK_eq`). Layer one differs: the kernel aggregates the
  10-column input and multiplies by `W1` afterwards, the reference multiplies first and aggregates the 64-column
  product. The two agree by the law of `LibAggLaw.lean`, whose hypotheses hold because the input and `W1` are real by
  assumption and the edge weights and self-loop factors are real by `Reals.lean`.
-/
import proofs.«172584_j2791728742833_2_alg».proof.Proof.Network
import proofs.«172584_j2791728742833_2_alg».proof.Proof.Reals
import proofs.«172584_j2791728742833_2_alg».proof.Proof.LibAggLaw

noncomputable section

open scoped BigOperators

namespace Cert.Gcn.Net

open Idealize.ShloMosaic Idealize.ShloMosaic.ValueIdx Cert.Lib.RowScatter Cert.Lib.Aggregate Cert.Lib.Dense Cert.Lib.BiasDot
open Cert.Lib.RowLayers Cert.Lib.LogSoftmax Cert.Gcn

section Entries
variable {M K N : Nat}

/-- The combined input times a weight, at an entry. -/
theorem mm_comb_apply (a h : (⟨2, ![M, K]⟩ : Shape).Idx → EReal) (d : (⟨1, ![M]⟩ : Shape).Idx → EReal)
    (W : (⟨2, ![K, N]⟩ : Shape).Idx → EReal) (n : Fin M) (c : Fin N) :
    mm (comb a h d) W (ix2 n c) = ∑ k : Fin K, (a (ix2 n k) + h (ix2 n k) * d (ix1 n)) * W (ix2 k c) := rfl

/-- The combined input of a product, at an entry. -/
theorem comb_mm_apply (a : (⟨2, ![M, N]⟩ : Shape).Idx → EReal) (h : (⟨2, ![M, K]⟩ : Shape).Idx → EReal)
    (d : (⟨1, ![M]⟩ : Shape).Idx → EReal) (W : (⟨2, ![K, N]⟩ : Shape).Idx → EReal) (n : Fin M) (c : Fin N) :
    comb a (mm h W) d (ix2 n c) = a (ix2 n c) + (∑ k : Fin K, h (ix2 n k) * W (ix2 k c)) * d (ix1 n) := rfl

/-- A product at an entry. -/
theorem mm_apply (h : (⟨2, ![M, K]⟩ : Shape).Idx → EReal) (W : (⟨2, ![K, N]⟩ : Shape).Idx → EReal) (n : Fin M) (c : Fin N) :
    mm h W (ix2 n c) = ∑ k : Fin K, h (ix2 n k) * W (ix2 k c) := rfl

/-- A linear layer is the product with the bias row added. -/
theorem lin_eq_addRow (A : (⟨2, ![M, K]⟩ : Shape).Idx → EReal) (W : (⟨2, ![K, N]⟩ : Shape).Idx → EReal)
    (b : (⟨1, ![N]⟩ : Shape).Idx → EReal) : lin A W b = addRow (mm A W) b := rfl

end Entries

/-- The aggregation of a table with `C` columns at an entry: the sum over the edges landing on the node. -/
theorem agg_apply {C : Nat}
    (wfS : ScatterDims.WF ⟨2, ![100000, C]⟩ SEc ⟨2, ![1600000, C]⟩ [1] [0] [0] 1)
    (wfG : GatherDims.WF ⟨2, ![100000, C]⟩ SEc ⟨2, ![1600000, C]⟩ [1] [0] [] [0] [] 1 ![1, C])
    (hz : S0.BroadcastsInDim ⟨2, ![100000, C]⟩ (![] : Fin 0 → Fin 2))
    (h₂ : SEc.BroadcastsInDim ⟨2, ![1600000, C]⟩ (![0, 1] : Fin 2 → Fin 2))
    (h : FVec Ideal ⟨2, ![100000, C]⟩ .f32) (ei : IVec SEI 32) (hN : 0 < 100000) (n : Fin 100000) (c : Fin C) :
    agg wfS wfG hz h₂ h ei (ix2 n c)
      = Ideal.ofBits .f32 0x00000000#32
        + ∑ e ∈ landsOn (dstC ei) 100000 n, h (ix2 (gatherRow 100000 hN (srcC ei) e) c) * wE ei (ix1 e) := by
  unfold agg
  exact aggregate_apply hN (by decide) wfS wfG hz hCol h₂ h (srcC ei) (dstC ei) (wE ei) n c

theorem agg10_apply (h : FVec Ideal ⟨2, ![100000, 10]⟩ .f32) (ei : IVec SEI 32) (hN : 0 < 100000) (n : Fin 100000)
    (c : Fin 10) :
    agg10 h ei (ix2 n c)
      = Ideal.ofBits .f32 0x00000000#32
        + ∑ e ∈ landsOn (dstC ei) 100000 n, h (ix2 (gatherRow 100000 hN (srcC ei) e) c) * wE ei (ix1 e) :=
  agg_apply wfS10 wfG10 hz10 hb10 h ei hN n c

theorem agg64_apply (h : FVec Ideal ⟨2, ![100000, 64]⟩ .f32) (ei : IVec SEI 32) (hN : 0 < 100000) (n : Fin 100000)
    (c : Fin 64) :
    agg64 h ei (ix2 n c)
      = Ideal.ofBits .f32 0x00000000#32
        + ∑ e ∈ landsOn (dstC ei) 100000 n, h (ix2 (gatherRow 100000 hN (srcC ei) e) c) * wE ei (ix1 e) :=
  agg_apply wfS64 wfG64 hz64 hb64 h ei hN n c

/-- The kernel's spelling of each aggregation is the host's. -/
theorem aggK10_eq (h : FVec Ideal ⟨2, ![100000, 10]⟩ .f32) (ei : IVec SEI 32) : aggK10 h ei = agg10 h ei :=
  aggK_eq wfS10 wfG10 hz10 hb10 h ei
theorem aggK64_eq (h : FVec Ideal ⟨2, ![100000, 64]⟩ .f32) (ei : IVec SEI 32) : aggK64 h ei = agg64 h ei :=
  aggK_eq wfS64 wfG64 hz64 hb64 h ei
theorem aggK4_eq (h : FVec Ideal ⟨2, ![100000, 4]⟩ .f32) (ei : IVec SEI 32) : aggK4 h ei = agg4 h ei :=
  aggK_eq wfS4 wfG4 hz4 hb4 h ei

/-- THE LAW: aggregating the input and then multiplying by the weight is multiplying first and aggregating the product. -/
theorem mm_comb_agg (x : FVec Ideal ⟨2, ![100000, 10]⟩ .f32) (ei : IVec SEI 32) (W1 : FVec Ideal ⟨2, ![10, 64]⟩ .f32)
    (hx : ∀ i, ∃ r : ℝ, x i = (r : EReal)) (hW1 : ∀ i, ∃ r : ℝ, W1 i = (r : EReal)) :
    mm (comb (agg10 x ei) x (dsq ei)) W1 = comb (agg64 (mm x W1) ei) (mm x W1) (dsq ei) := by
  funext i
  obtain ⟨n, c, rfl⟩ : ∃ (n : Fin 100000) (c : Fin 64), i = ix2 n c := ⟨i 0, i 1, eq_ix2 i⟩
  have hN : 0 < 100000 := by decide
  rw [mm_comb_apply, comb_mm_apply, agg64_apply (mm x W1) ei hN n c]
  simp only [agg10_apply x ei hN n, mm_apply]
  exact Cert.Gcn.Law.law_ereal (landsOn (dstC ei) 100000 n)
    (fun e k => x (ix2 (gatherRow 100000 hN (srcC ei) e) k)) (fun k => x (ix2 n k)) (fun k => W1 (ix2 k c))
    (fun e => wE ei (ix1 e)) (dsq ei (ix1 n)) (Ideal.ofBits .f32 0x00000000#32) Ideal.ofBits_zero_f32
    (fun e k => hx _) (fun k => hx _) (fun k => hW1 _) (fun e => wE_real ei _) (dsq_real ei _)

variable (x : FVec Ideal ⟨2, ![100000, 10]⟩ .f32) (ei : IVec SEI 32)
  (W1 : FVec Ideal ⟨2, ![10, 64]⟩ .f32) (b1 : FVec Ideal ⟨1, ![64]⟩ .f32)
  (W2 : FVec Ideal ⟨2, ![64, 64]⟩ .f32) (b2 : FVec Ideal ⟨1, ![64]⟩ .f32)
  (W3 : FVec Ideal ⟨2, ![64, 4]⟩ .f32) (b3 : FVec Ideal ⟨1, ![4]⟩ .f32)

/-- The kernel's second-layer input is the reference's first hidden table times `W2`. -/
theorem kerH2_eq (hx : ∀ i, ∃ r : ℝ, x i = (r : EReal)) (hW1 : ∀ i, ∃ r : ℝ, W1 i = (r : EReal)) :
    kerH2 x ei W1 b1 W2 = mm (refH1 x ei W1 b1) W2 := by
  unfold kerH2 refH1 refLayer layer1
  rw [aggK10_eq, colVec_dsqCol, rowVec_reshape, lin_eq_addRow, mm_comb_agg x ei W1 hx hW1]

/-- The kernel's third-layer input is the reference's second hidden table times `W3`. -/
theorem kerH3_eq (hx : ∀ i, ∃ r : ℝ, x i = (r : EReal)) (hW1 : ∀ i, ∃ r : ℝ, W1 i = (r : EReal)) :
    kerH3 x ei W1 b1 W2 b2 W3 = mm (refH2 x ei W1 b1 W2 b2) W3 := by
  unfold kerH3 refH2 refLayer layer2
  rw [aggK64_eq, colVec_dsqCol, rowVec_reshape, kerH2_eq x ei W1 b1 W2 hx hW1]

/-- THE TWO ARRANGEMENTS AGREE. -/
theorem kerNet_eq_refNet (hx : ∀ i, ∃ r : ℝ, x i = (r : EReal)) (hW1 : ∀ i, ∃ r : ℝ, W1 i = (r : EReal)) :
    kerNet x ei W1 b1 W2 b2 W3 b3 = refNet x ei W1 b1 W2 b2 W3 b3 := by
  unfold kerNet refNet refLayer layer3
  rw [aggK4_eq, colVec_dsqCol, rowVec_reshape, kerH3_eq x ei W1 b1 W2 b2 W3 hx hW1]

end Cert.Gcn.Net

end
-- ==== Proof.LibFiniteEntry.lean ====
/-
  Reading a precondition's conjuncts back, at the ideal instance.

  A precondition over float arrays is printed as a conjunction of `jnp.all` tests, each an elementwise comparison
  reduced by `and` over every axis. Two tests are read back here, for an array of ANY shape:
  * `jnp.all(jnp.abs(x) < inf)` — every entry's absolute value below the word `0x7F800000`, which at the ideal
    instance is `⊤` — says every entry of `x` is a REAL (`all_real_of_all_abs_lt_inf`; one value:
    `real_of_hostAbsf_olt_inf`): an extended real is `⊥`, a real or `⊤`, and `max x (−x) < ⊤` excludes both ends.
  * `jnp.all(x != 0)` — every entry unequal to the word `0x00000000`, the ideal `0` — says no entry is zero
    (`all_ne_zero_of_all_une_zero`; one value: `ne_zero_of_une_zero`).
  The conjunction itself is an `and` of one-bit words: it is 1 exactly when both sides are (`andi_eq_one`).
-/
import Idealize.ShloMosaic.PureOps.Ideal.Laws
import Idealize.ShloMosaic.Lib.ReduceAll

noncomputable section

namespace ProofLib.Finite

open Idealize.ShloMosaic

/-- The f32 word of `+∞` denotes the top of the extended reals. -/
theorem ofBits_inf_f32 : Ideal.ofBits .f32 0x7F800000#32 = ⊤ := by simp [Ideal.ofBits, Ideal.ieee]

/-- An extended real whose absolute value `max x (−x)` is below `⊤` is a real. -/
theorem exists_real_of_abs_lt_top (x : EReal) (hlt : max x (-x) < ⊤) : ∃ r : ℝ, x = (r : EReal) := by
  have hx_top : x ≠ ⊤ := fun e => by rw [e] at hlt; simp at hlt
  have hx_bot : x ≠ ⊥ := fun e => by rw [e] at hlt; simp at hlt
  exact ⟨x.toReal, (EReal.coe_toReal hx_top hx_bot).symm⟩

/-- One value: the host's `|x| < +∞`, true, says `x` is a real. -/
theorem real_of_hostAbsf_olt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  refine exists_real_of_abs_lt_top x ?_
  by_contra hn
  simp [hn] at h'

/-- One value: the host's `x != 0`, true, says `x` is not zero. -/
theorem ne_zero_of_une_zero (x : Ideal .f32)
    (h : FloatOps.cmpf .une x (FloatOps.ofBits (F := Ideal) .f32 0x00000000#32) = 1#1) : (x : EReal) ≠ 0 := by
  have h' : Ideal.cmp .une (x : EReal) (Ideal.ofBits .f32 0x00000000#32) = 1#1 := h
  rw [Ideal.ofBits_zero_f32] at h'
  unfold Ideal.cmp at h'
  intro hx
  simp [hx] at h'

variable {s t u : Shape} {axes : List (Fin s.rank)}

/-- `jnp.all(jnp.abs(x) < inf)`, true: every entry of `x` is a real. `bound` is the comparison's right operand, the
    `+∞` word at every index (a broadcast of the scalar constant). -/
theorem all_real_of_all_abs_lt_inf [Subsingleton t.Idx] (x bound : FVec Ideal s .f32)
    (hbound : ∀ i, bound i = FloatOps.ofBits (F := Ideal) .f32 0x7F800000#32)
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, (x i : EReal) = (r : EReal) := by
  have hi : cmpf .olt (Host.absf x) bound i = 1#1 := Host.reduce_andi_all _ init h hu j e i
  refine real_of_hostAbsf_olt_inf (x i) ?_
  rw [← hbound i]
  exact hi

/-- `jnp.all(x != 0)`, true: no entry of `x` is zero. `zero` is the comparison's right operand, the zero word at every
    index. -/
theorem all_ne_zero_of_all_une_zero [Subsingleton t.Idx] (x zero : FVec Ideal s .f32)
    (hzero : ∀ i, zero i = FloatOps.ofBits (F := Ideal) .f32 0x00000000#32)
    (init : u.Idx → BitVec 1) (h : s.ReducesTo axes t) (hu : 0 < u.numel) (j : t.Idx)
    (e : Host.reduce IntOp.andi (cmpf .une x zero) init h hu j = 1#1) (i : s.Idx) : (x i : EReal) ≠ 0 := by
  have hi : cmpf .une x zero i = 1#1 := Host.reduce_andi_all _ init h hu j e i
  refine ne_zero_of_une_zero (x i) ?_
  rw [← hzero i]
  exact hi

/-- The conjunction of two one-bit flags is 1 exactly when both are. -/
theorem andi_eq_one (a b : BitVec 1) : a &&& b = 1#1 ↔ a = 1#1 ∧ b = 1#1 := by
  revert a b; decide

end ProofLib.Finite

end
-- ==== Proof.Finite.lean ====
/-
  The precondition read back: when every float input is finite, the node features and the first weight are real-valued.

  The precondition is the conjunction of seven flags, one per float argument, each saying that every entry's absolute
  value is below +∞. A conjunction of one-bit flags is 1 only when each flag is; a flag "all entries have |x| < +∞" that
  is 1 says every entry is a real number.
-/
import proofs.«172584_j2791728742833_2_alg».proof.Pre_finite_inputs
import proofs.«172584_j2791728742833_2_alg».proof.Proof.Gen.Pre_finite_inputs
import Idealize.ShloMosaic.Lib.ValueIdx
import proofs.«172584_j2791728742833_2_alg».proof.Proof.LibFiniteEntry
import proofs.«172584_j2791728742833_2_alg».proof.Proof.LibSpread

noncomputable section

namespace Cert.Gcn

open Idealize.ShloMosaic Cert.Pre_finite_inputs ProofLib.Finite

instance subsingleton_scalar_idx : Subsingleton S_.Idx := ⟨fun a b => funext fun d => d.elim0⟩

/-- Under the precondition the node features `x` and the first weight `W1` hold real numbers. -/
theorem finite_x_W1 (x : FVec Ideal S100000x10 .f32) (ei : IVec S2x1600000 32) (W1 : FVec Ideal S10x64 .f32)
    (b1 : FVec Ideal S64 .f32) (W2 : FVec Ideal S64x64 .f32) (b2 : FVec Ideal S64 .f32) (W3 : FVec Ideal S64x4 .f32)
    (b3 : FVec Ideal S4 .f32)
    (h : fn (F := Ideal) x ei W1 b1 W2 b2 W3 b3 = (fun _ => 1#1)) :
    (∀ i, ∃ r : ℝ, (x i : EReal) = (r : EReal)) ∧ (∀ i, ∃ r : ℝ, (W1 i : EReal) = (r : EReal)) := by
  have h0 : fn (F := Ideal) x ei W1 b1 W2 b2 W3 b3 ValueIdx.ix0 = 1#1 := congrFun h ValueIdx.ix0
  unfold fn fn_part1 at h0
  dsimp only at h0
  obtain ⟨h28, -⟩ := (andi_eq_one _ _).mp h0
  obtain ⟨h23, -⟩ := (andi_eq_one _ _).mp h28
  obtain ⟨h18, -⟩ := (andi_eq_one _ _).mp h23
  obtain ⟨h13, -⟩ := (andi_eq_one _ _).mp h18
  obtain ⟨h8, -⟩ := (andi_eq_one _ _).mp h13
  obtain ⟨h3, h7⟩ := (andi_eq_one _ _).mp h8
  exact ⟨fun i => all_real_of_all_abs_lt_inf x _ (fun j => Cert.Lib.Spread.splat_apply _ _ j) _ _ _ ValueIdx.ix0 h3 i,
    fun i => all_real_of_all_abs_lt_inf W1 _ (fun j => Cert.Lib.Spread.splat_apply _ _ j) _ _ _ ValueIdx.ix0 h7 i⟩

end Cert.Gcn

end
-- ==== Proof.lean ====
/-
  A three-layer graph convolution network — degree-normalised aggregation over 1.6 million edges, two hidden layers with
  a positive part, a row-wise logarithm of the softmax on top — in two arrangements, equal on the extended reals.

  The reference multiplies a layer's input by the layer's weight and aggregates the product over the edges. The kernel
  program keeps the gathers and scatter-adds on the host and runs three kernels over blocks of 5000 rows: the first takes
  the 10-column input ALREADY aggregated, multiplies it by the first weight, adds the bias, takes the positive part and
  multiplies by the second weight; the second and third finish a layer from its aggregated rows. So the two programs
  differ in one place only: layer 1 aggregates before or after the product with `W1`. Aggregation is linear, so the two
  orders agree wherever distributivity holds — on real entries, which the precondition gives for the input and `W1`,
  and the degree normalisation, the reciprocal square root of a count plus one, gives for the edge weights.

  The parts: the kernel program's result read off its run as the function `kerNet` of the arguments (the three regions'
  output arrays as whole-array layers, then the fold through the host operations between them); the reference's result
  as `refNet`; `kerNet = refNet` on real inputs; the precondition read back as "the input and the first weight are real".
  The three frames are the programs' runs with the result dropped; the kernel's idealization rewrote nothing.
-/
import proofs.«172584_j2791728742833_2_alg».proof.Defs
import proofs.«172584_j2791728742833_2_alg».proof.Proof.Gen.Kernel
import proofs.«172584_j2791728742833_2_alg».proof.Proof.Gen.Kernel.Skeleton
import proofs.«172584_j2791728742833_2_alg».proof.Proof.Gen.Kernel.Launch
import proofs.«172584_j2791728742833_2_alg».proof.Proof.Gen.Kernel.Points
import proofs.«172584_j2791728742833_2_alg».proof.Proof.Gen.Kernel.Frame
import proofs.«172584_j2791728742833_2_alg».proof.Proof.Gen.KernelIdeal
import proofs.«172584_j2791728742833_2_alg».proof.Proof.Gen.KernelIdeal.Skeleton
import proofs.«172584_j2791728742833_2_alg».proof.Proof.Gen.KernelIdeal.Launch
import proofs.«172584_j2791728742833_2_alg».proof.Proof.Gen.KernelIdeal.Points
import proofs.«172584_j2791728742833_2_alg».proof.Proof.Gen.KernelIdeal.Frame
import proofs.«172584_j2791728742833_2_alg».proof.Proof.Gen.ReferenceIdeal
import proofs.«172584_j2791728742833_2_alg».proof.Proof.Gen.Pre_finite_inputs
import proofs.«172584_j2791728742833_2_alg».proof.Proof.KernelTerm
import proofs.«172584_j2791728742833_2_alg».proof.Proof.RefTerm
import proofs.«172584_j2791728742833_2_alg».proof.Proof.Bridge
import proofs.«172584_j2791728742833_2_alg».proof.Proof.Finite
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs run; the kernel's result is `kerNet` of the arguments, the
    reference's is `refNet`, and on inputs the precondition makes real the two are one function. -/
theorem algebraic : Cert.algebraic_KernelIdeal_ReferenceIdeal := by
  intro m ρ m' ρ' hpre hagree
  refine ⟨_, Cert.KernelIdeal.Walk.run_value m ρ, ?_⟩
  refine (θ_run Cert.ReferenceIdeal.defs _ _).mono (fun _ h c => ⟨(h c).1.trans ?_, (h c).2⟩)
    (Cert.ReferenceIdeal.ValueP.run_ref m' ρ')
  obtain ⟨hx, hW1⟩ := Cert.Gcn.finite_x_W1 _ _ _ _ _ _ _ _ (hpre c)
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.Gcn.Net.kerNet_eq_refNet _ _ _ _ _ _ _ _ hx hW1).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
